-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : FVec F S8192x128 .f32) (main_arg2 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S8192x7 : Shape := ⟨2, ![8192, 7]⟩
abbrev S512x128 : Shape := ⟨2, ![512, 128]⟩
abbrev S1024x128 : Shape := ⟨2, ![1024, 128]⟩
abbrev S512x1024 : Shape := ⟨2, ![512, 1024]⟩
abbrev S512x7 : Shape := ⟨2, ![512, 7]⟩
abbrev S128x1024 : Shape := ⟨2, ![128, 1024]⟩
abbrev S512x1 : Shape := ⟨2, ![512, 1]⟩
abbrev S512 : Shape := ⟨1, ![512]⟩

abbrev nBuf : Space → Nat
  | .hbm => 77
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x128, .f32⟩
  | .hbm, ⟨22, _⟩ => ⟨S8192x128, .f32⟩
  | .hbm, ⟨23, _⟩ => ⟨S8192x128, .bf16⟩
  | .hbm, ⟨24, _⟩ => ⟨S8192x128, .bf16⟩
  | .hbm, ⟨25, _⟩ => ⟨S8192x7, .f32⟩
  | .hbm, ⟨26, _⟩ => ⟨S8192x1, .f32⟩
  | .hbm, ⟨27, _⟩ => ⟨S8192, .f32⟩
  | .hbm, ⟨28, _⟩ => ⟨S8192x1, .f32⟩
  | .hbm, ⟨29, _⟩ => ⟨S8192, .f32⟩
  | .hbm, ⟨30, _⟩ => ⟨S8192x1, .f32⟩
  | .hbm, ⟨31, _⟩ => ⟨S8192, .f32⟩
  | .hbm, ⟨32, _⟩ => ⟨S8192x1, .f32⟩
  | .hbm, ⟨33, _⟩ => ⟨S8192, .f32⟩
  | .hbm, ⟨34, _⟩ => ⟨S8192x1, .f32⟩
  | .hbm, ⟨35, _⟩ => ⟨S8192, .f32⟩
  | .hbm, ⟨36, _⟩ => ⟨S8192x1, .f32⟩
  | .hbm, ⟨37, _⟩ => ⟨S8192, .f32⟩
  | .hbm, ⟨38, _⟩ => ⟨S8192x1, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S512x1024, .f32⟩
  | .local _ .vmem, ⟨9, _⟩ => ⟨S512x1024, .f32⟩
  | .local _ .vmem, ⟨10, _⟩ => ⟨S512x7, .f32⟩
  | .local _ .vmem, ⟨11, _⟩ => ⟨S512x7, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x7 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  inb_S512x7_S512x7_0_0 : ∀ a, (![0, 0] : Fin 2 → Nat) a + S512x7.size a ≤ S512x7.size a
  h_S512x7 : 0 < S512x7.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x1024_S512x1024_0_0 : ∀ a, (![0, 0] : Fin 2 → Nat) a + S512x1024.size a ≤ S512x1024.size a
  h_S512x1024 : 0 < S512x1024.numel
  transposes_S1024x128_p1_0_S128x1024 : S1024x128.Transposes [1, 0] S128x1024
  iota_S512x1024_d0_w32 : S512x1024.Iotas .tc 32 [0]
  iota_S512x1024_d1_w32 : S512x1024.Iotas .tc 32 [1]
  inb_S512x7_S512x1_0_0 : ∀ a, (![0, 0] : Fin 2 → Nat) a + S512x1.size a ≤ S512x7.size a
  h_S512x1 : 0 < S512x1.numel
  shapeCasts_S512x1_S512x1 : S512x1.ShapeCasts S512x1
  reduces_S512x1024_S512 : S512x1024.Reduces [1] S512
  shapeCasts_S512_S512x1 : S512.ShapeCasts S512x1
  inb_S512x7_S512x1_0_1 : ∀ a, (![0, 1] : Fin 2 → Nat) a + S512x1.size a ≤ S512x7.size a
  inb_S512x7_S512x1_0_2 : ∀ a, (![0, 2] : Fin 2 → Nat) a + S512x1.size a ≤ S512x7.size a
  inb_S512x7_S512x1_0_3 : ∀ a, (![0, 3] : Fin 2 → Nat) a + S512x1.size a ≤ S512x7.size a
  inb_S512x7_S512x1_0_4 : ∀ a, (![0, 4] : Fin 2 → Nat) a + S512x1.size a ≤ S512x7.size a
  inb_S512x7_S512x1_0_5 : ∀ a, (![0, 5] : Fin 2 → Nat) a + S512x1.size a ≤ S512x7.size a
  inb_S512x7_S512x1_0_6 : ∀ a, (![0, 6] : Fin 2 → Nat) a + S512x1.size a ≤ S512x7.size a
  slices_S8192x7_S8192x1_0_0 : S8192x7.Slices ![0, 0] S8192x1
  shapeCasts_S8192x1_S8192 : S8192x1.ShapeCasts S8192
  slices_S8192x7_S8192x1_0_1 : S8192x7.Slices ![0, 1] S8192x1
  slices_S8192x7_S8192x1_0_2 : S8192x7.Slices ![0, 2] S8192x1
  slices_S8192x7_S8192x1_0_3 : S8192x7.Slices ![0, 3] S8192x1
  slices_S8192x7_S8192x1_0_4 : S8192x7.Slices ![0, 4] S8192x1
  slices_S8192x7_S8192x1_0_5 : S8192x7.Slices ![0, 5] S8192x1
  slices_S8192x7_S8192x1_0_6 : S8192x7.Slices ![0, 6] S8192x1
  bcast_S_S8192 : S_.BroadcastsInDim S8192 (![] : Fin 0 → Fin S8192.rank)
  reducesTo_S8192_S_d0 : S8192.ReducesTo [0] S_
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .bf16 = 32 ∨ (Rect.block (s := S8192x128) S512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .bf16 = 32 ∨ (Rect.block (s := S8192x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .bf16 = 32 ∨ (Rect.block (s := S8192x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x8192.size a
  hwx0_4 : ∀ i : grid0.Coords, EltTy.bits .f32 = 32 ∨ (Rect.block (s := S8192x8192) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x7.size a ≤ S8192x7.size a
  hwx0_5 : ∀ i : grid0.Coords, EltTy.bits .f32 = 32 ∨ (Rect.block (s := S8192x7) S512x7.size (cc0_transform_5 i) (hinb0_5 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_v16) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S512x7.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S128x8192 : Shape := ⟨2, ![128, 8192]⟩

abbrev nBuf : Space → Nat
  | .hbm => 128
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x128, .f32⟩
  | .hbm, ⟨22, _⟩ => ⟨S8192x128, .f32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S128x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S128x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S128x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x8192, .f32⟩
  | .hbm, ⟨62, _⟩ => ⟨S_, .f32⟩
  | .hbm, ⟨63, _⟩ => ⟨S8192, .f32⟩
  | .hbm, ⟨64, _⟩ => ⟨S8192x8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192, .f32⟩
  | .hbm, ⟨74, _⟩ => ⟨S8192x8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S8192, .f32⟩
  | .hbm, ⟨86, _⟩ => ⟨S8192, .f32⟩
  | .hbm, ⟨87, _⟩ => ⟨S8192, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S8192x8192, .f32⟩
  | .hbm, ⟨94, _⟩ => ⟨S_, .f32⟩
  | .hbm, ⟨95, _⟩ => ⟨S8192, .f32⟩
  | .hbm, ⟨96, _⟩ => ⟨S8192x8192, .f32⟩
  | .hbm, ⟨97, _⟩ => ⟨S_, .f32⟩
  | .hbm, ⟨98, _⟩ => ⟨S8192, .f32⟩
  | .hbm, ⟨99, _⟩ => ⟨S8192, .f32⟩
  | .hbm, ⟨100, _⟩ => ⟨S_, .f32⟩
  | .hbm, ⟨101, _⟩ => ⟨S8192x8192, .f32⟩
  | .hbm, ⟨102, _⟩ => ⟨S8192x8192, .f32⟩
  | .hbm, ⟨103, _⟩ => ⟨S8192x8192, .f32⟩
  | .hbm, ⟨104, _⟩ => ⟨S_, .f32⟩
  | .hbm, ⟨105, _⟩ => ⟨S8192, .f32⟩
  | .hbm, ⟨106, _⟩ => ⟨S8192x8192, .f32⟩
  | .hbm, ⟨107, _⟩ => ⟨S_, .f32⟩
  | .hbm, ⟨108, _⟩ => ⟨S8192, .f32⟩
  | .hbm, ⟨109, _⟩ => ⟨S8192, .f32⟩
  | .hbm, ⟨110, _⟩ => ⟨S_, .f32⟩
  | .hbm, ⟨111, _⟩ => ⟨S8192, .f32⟩
  | .hbm, ⟨112, _⟩ => ⟨S8192, .f32⟩
  | .hbm, ⟨113, _⟩ => ⟨S8192, .f32⟩
  | .hbm, ⟨114, _⟩ => ⟨S_, .f32⟩
  | .hbm, ⟨115, _⟩ => ⟨S8192, .f32⟩
  | .hbm, ⟨116, _⟩ => ⟨S8192, .f32⟩
  | .hbm, ⟨117, _⟩ => ⟨S8192, .f32⟩
  | .hbm, ⟨118, _⟩ => ⟨S8192, .f32⟩
  | .hbm, ⟨119, _⟩ => ⟨S8192, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_16 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_17 : Ref sig .tc := ⟨.hbm, 88, rfl⟩
abbrev main_v66 : Ref sig .tc := ⟨.hbm, 89, rfl⟩
abbrev main_cst_18 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_19 : Ref sig .tc := ⟨.hbm, 94, rfl⟩
abbrev main_v70 : Ref sig .tc := ⟨.hbm, 95, rfl⟩
abbrev main_v71 : Ref sig .tc := ⟨.hbm, 96, rfl⟩
abbrev main_cst_20 : Ref sig .tc := ⟨.hbm, 97, rfl⟩
abbrev main_v72 : Ref sig .tc := ⟨.hbm, 98, rfl⟩
abbrev main_v73 : Ref sig .tc := ⟨.hbm, 99, rfl⟩
abbrev main_cst_21 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_22 : Ref sig .tc := ⟨.hbm, 104, rfl⟩
abbrev main_v77 : Ref sig .tc := ⟨.hbm, 105, rfl⟩
abbrev main_v78 : Ref sig .tc := ⟨.hbm, 106, rfl⟩
abbrev main_cst_23 : Ref sig .tc := ⟨.hbm, 107, rfl⟩
abbrev main_v79 : Ref sig .tc := ⟨.hbm, 108, rfl⟩
abbrev main_v80 : Ref sig .tc := ⟨.hbm, 109, rfl⟩
abbrev main_cst_24 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_25 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_26 : Ref sig .tc := ⟨.hbm, 120, rfl⟩
abbrev main_v89 : Ref sig .tc := ⟨.hbm, 121, rfl⟩
abbrev main_cst_27 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_28 : Ref sig .tc := ⟨.hbm, 126, rfl⟩
abbrev main_v93 : Ref sig .tc := ⟨.hbm, 127, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x8192 : S_.BroadcastsInDim S8192x8192 (![] : Fin 0 → Fin S8192x8192.rank)
  transposes_S8192x128_S128x8192_1_0 : S8192x128.Transposes [1, 0] S128x8192
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KbShares.lean ====
/-
  Two of the kernel's windows read one array (the first normalised feature array through windows 0 and 2, the second
  through windows 1 and 3).  A buffer held whole at the full share is the two half shares side by side, each window
  of a pair taking one half; the mask and the result array have one window each and are held at the full share.
-/
import proofs.«171571_j44796508897300_1_alg».proof.Proof.Gen.Kernel.Launch
import proofs.«171571_j44796508897300_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The share each window holds its array at: the two readers of one array take its two halves. -/
def qsh : Fin 6 → PosShare TreeShare
  | ⟨0, _⟩ => fullShare.left
  | ⟨1, _⟩ => fullShare.left
  | ⟨2, _⟩ => fullShare.right
  | ⟨3, _⟩ => fullShare.right
  | _ => fullShare

/-- The four distinct buffers behind the six windows. -/
theorem arrRefs_eq : (Finset.univ.image (Pipeline.arrRef spec0) : Finset (Ref sig .tc)) = [main_v16, main_v17, main_arg2, main_v18].toFinset := by decide

variable (c : Dev nD) (V : (b : Ref sig .tc) → Buf (Elt F) ((c : Thread nD τ).loc b))

/-- The buffers behind the arrays, one by one. -/
theorem arrBufs_eq : (Pipeline.arrBufs (Ix := Unit) (Name := ℕ) (U := UR sig nD τ) (Lvl := ℕ) spec0 c V : sProp 𝕄)
    = iprop((((c : Thread nD τ).loc main_v16) ↦{fullShare} V main_v16) ∗ (((c : Thread nD τ).loc main_v17) ↦{fullShare} V main_v17)
        ∗ (((c : Thread nD τ).loc main_arg2) ↦{fullShare} V main_arg2) ∗ (((c : Thread nD τ).loc main_v18) ↦{fullShare} V main_v18)) := by
  unfold Pipeline.arrBufs
  rw [bigSep_eq_bigSepL_of_eq [main_v16, main_v17, main_arg2, main_v18] arrRefs_eq (by decide)]
  rfl

variable (dat : Dat τ (Elt F) Unit ℕ (UR sig nD τ) ℕ cfg0 c)

/-- The six windows' arrays, one by one, each at its share. -/
theorem arrays_eq_chain (hq : dat.q = qsh) (A : (w : Fin cfg0.W) → Buf (Elt F) ((cfg0.win w).arr.view.loc (c : Thread nD τ))) :
    (dat.arrays A : sProp 𝕄)
      = iprop((((c : Thread nD τ).loc main_v16) ↦{fullShare.left} A 0) ∗ (((c : Thread nD τ).loc main_v17) ↦{fullShare.left} A 1)
        ∗ (((c : Thread nD τ).loc main_v16) ↦{fullShare.right} A 2) ∗ (((c : Thread nD τ).loc main_v17) ↦{fullShare.right} A 3)
        ∗ (((c : Thread nD τ).loc main_arg2) ↦{fullShare} A 4) ∗ (((c : Thread nD τ).loc main_v18) ↦{fullShare} A 5)) := by
  unfold Dat.arrays
  rw [bigSep_W0]
  simp only [Dat.share, hq, (arr_whole0 0).set_eq_univ, (arr_whole0 1).set_eq_univ, (arr_whole0 4).set_eq_univ,
    (arr_whole0 5).set_eq_univ, Bool.false_eq_true, if_false, if_true]
  rfl

/-- ENTRY: the core's unscoped buffers at `V` are the six windows' arrays at `V`, each at its share — a buffer two
    windows read is split into its two halves — and the buffers no window stages. -/
theorem arrays_of_bufs (hq : dat.q = qsh) :
    (unscopedBufs c V : sProp 𝕄) ⊢ iprop(dat.arrays (fun w => V (Pipeline.arrRef spec0 w)) ∗ Pipeline.unscopedRest spec0 c V) := by
  rw [Pipeline.unscopedBufs_split₀ cfgs 0 winFacts₀0.arr_unscoped c V, arrBufs_eq, arrays_eq_chain c dat hq]
  iintro ⟨⟨H16, H17, H2, H18⟩, Hrest⟩
  ihave H16' := (pointsTo_share (PosShare.mem_left_op_right fullShare)).1 $$ H16
  icases H16' with ⟨H16l, H16r⟩
  ihave H17' := (pointsTo_share (PosShare.mem_left_op_right fullShare)).1 $$ H17
  icases H17' with ⟨H17l, H17r⟩
  isplitr [Hrest]
  swap; · iexact Hrest
  isplitl [H16l]; · iexact H16l
  isplitl [H17l]; · iexact H17l
  isplitl [H16r]; · iexact H16r
  isplitl [H17r]; · iexact H17r
  isplitl [H2]; · iexact H2
  iexact H18

/-- EXIT: the windows' arrays, the inputs at what they held at entry and the result array at `r`, with the buffers no
    window stages, are the core's unscoped buffers at any valuation `V'` that has the result array at `r` and agrees
    with `V` elsewhere: the two halves of a shared input are put back together. -/
theorem bufs_of_arrays (hq : dat.q = qsh) (V' : (b : Ref sig .tc) → Buf (Elt F) ((c : Thread nD τ).loc b))
    (A : (w : Fin cfg0.W) → Buf (Elt F) ((cfg0.win w).arr.view.loc (c : Thread nD τ)))
    (h0 : A 0 = V main_v16) (h1 : A 1 = V main_v17) (h2 : A 2 = V main_v16) (h3 : A 3 = V main_v17) (h4 : A 4 = V main_arg2)
    (h5 : A 5 = V' main_v18)
    (hrest : ∀ b, b ≠ main_v18 → V' b = V b) :
    iprop(dat.arrays A ∗ Pipeline.unscopedRest spec0 c V) ⊢ (unscopedBufs c V' : sProp 𝕄) := by
  rw [Pipeline.unscopedBufs_split₀ cfgs 0 winFacts₀0.arr_unscoped c V', arrBufs_eq, arrays_eq_chain c dat hq, h0, h1, h2, h3, h4, h5,
    hrest main_v16 (by decide), hrest main_v17 (by decide), hrest main_arg2 (by decide)]
  have hR : (Pipeline.unscopedRest (Ix := Unit) (Name := ℕ) (U := UR sig nD τ) (Lvl := ℕ) spec0 c V' : sProp 𝕄)
      = Pipeline.unscopedRest spec0 c V := by
    unfold Pipeline.unscopedRest
    refine bigSep_congr fun b hb => ?_
    rw [hrest b (fun e => (Finset.mem_sdiff.mp hb).2 (e ▸ Finset.mem_image.mpr ⟨5, Finset.mem_univ _, rfl⟩))]
  rw [hR]
  iintro ⟨⟨H16l, H17l, H16r, H17r, H2, H18⟩, Hrest⟩
  isplitr [Hrest]
  swap; · iexact Hrest
  isplitl [H16l H16r]
  · iapply (pointsTo_share (PosShare.mem_left_op_right fullShare)).2; isplitl [H16l] <;> iassumption
  isplitl [H17l H17r]
  · iapply (pointsTo_share (PosShare.mem_left_op_right fullShare)).2; isplitl [H17l] <;> iassumption
  isplitl [H2]; · iexact H2
  iexact H18

end Cert.Kernel.Frame

end
-- ==== Proof.KbShared.lean ====
/- The body of the row-sum kernel, point by point: what its two runs share.
   The grid is 16 row blocks by 8 column blocks, walked row block first, so point `t` has column block `t % 8`.
   Here: each window's block at a point as read off the arrays the region finds (`blk`); that an input's staging
   buffer holds its block at every point; the closed form of the body's one branch (it zero-fills the 512x7 block
   of row sums exactly when the column block is 0); and the staging memrefs the body is called with. -/
import proofs.«171571_j44796508897300_1_alg».proof.Proof.Gen.Kernel.Launch
import proofs.«171571_j44796508897300_1_alg».proof.Proof.Gen.Kernel.Skeleton
import proofs.«171571_j44796508897300_1_alg».proof.Proof.Gen.Kernel.Points
import Idealize.ShloMosaic.Lib.Pipeline.FrameBody
import Idealize.ShloMosaic.Lib.Ring
import Idealize.ShloMosaic.Lib.Tactic

-- membership of an index in a rectangle of a 512-row block is checked coordinate by coordinate
set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered; never unfolded here
variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the block was
    fetched there (an unfetched point has the block index of the point before), for any proof data whose array is
    `V`'s and whose body leaves the block in place. -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, whether or not the block was
    fetched there (an unfetched point has the block index of the point before), for any proof data whose array is
    `V`'s and whose body leaves the block in place. -/
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, whether or not the block was
    fetched there (an unfetched point has the block index of the point before), for any proof data whose array is
    `V`'s and whose body leaves the block in place. -/
theorem before_in2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, whether or not the block was
    fetched there (an unfetched point has the block index of the point before), for any proof data whose array is
    `V`'s and whose body leaves the block in place. -/
theorem before_in3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, whether or not the block was
    fetched there (an unfetched point has the block index of the point before), for any proof data whose array is
    `V`'s and whose body leaves the block in place. -/
theorem before_in4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The branch: is this the first column block? -/

/-- The body's condition as the program computes it from the column-block coordinate. -/
abbrev firstCol (i : grid0.Coords) : Prop := (Scalar.cmpi .ne (Scalar.extui (Scalar.cmpi .eq (BitVec.ofNat 32 (i 1).val) 0#32)) 0#32) = 1#1

/-- It holds exactly at the points whose column block is 0: decided over the 128 points. -/
theorem firstCol_iff : ∀ t : Fin cfg0.N, firstCol (grid0.coords t) ↔ t.val % 8 = 0 :=
  (by decide +kernel : ∀ t : Fin grid0.N, firstCol (grid0.coords t) ↔ t.val % 8 = 0)

/-! ## The staging memrefs at a point -/

/-- A staging buffer of the row-sum window, through which its contents are read (any whole buffer of the shape would do). -/
abbrev VOut : View sig .tc .vmem S512x7 .f32 := (Memref.whole cc0_stg5_0 : Memref sig .tc .vmem S512x7 .f32).view

/-- Each window's current staging memref at point `t`, as the pipeline passes it, and that it is a whole buffer. -/
abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x7 .f32 := win0_5.stage (cfg0.slots t 5)
abbrev hs5 (t : Fin cfg0.N) : (ms5 t).IsWhole := hstage0_5 ((cfg0.slots t 5).cast nbuf0_5)

end Cert.Kernel.Frame

end
-- ==== Proof.KbRunA.lean ====
/- The kernel body run at a point of the FIRST column block (case A): the body reads the row-sum block it is
   handed (the value is unused), overwrites all of it with zeros, and then adds this column block's seven partial
   row sums into its seven columns, each by a load of the column and a store over it. The run is symbolic: on whole
   staging memrefs holding the five input blocks it reaches the continuation with the inputs unchanged and the
   row-sum buffer holding a list of written pieces, last store first; that list is the witness the run finds. -/
import proofs.«171571_j44796508897300_1_alg».proof.Proof.KbShared

-- membership of an index in a rectangle of a 512-row block is checked coordinate by coordinate
set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered; never unfolded here
variable (V : (c : Dev nD) → (b : Ref sig .tc) → Buf (Elt F) ((c : Thread nD τ).loc b))

-- the run's proof term is long; the definition's closing pass over it needs more than the default budget
set_option maxHeartbeats 4000000 in
/-- Case A (the column block is 0, `hc`): the pieces the body's stores leave in the row-sum buffer, with the proof
    that from the five input buffers at `x0 … x4` and the row-sum buffer at anything the body runs to the
    continuation holding the inputs as they were and the row-sum buffer with those pieces written. -/
noncomputable def runA (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : firstCol i)
    (x0 : Vec F S512x128 .bf16) (x1 : Vec F S512x128 .bf16) (x2 : Vec F S1024x128 .bf16) (x3 : Vec F S1024x128 .bf16) (x4 : Vec F S512x1024 .f32) :
    { L : List (View.Piece (Elt F) S512x7 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f L)) -∗ K ⟨⟩))
          ⊢ wp frame (wpE (defs₀ (F := F)) Variants.none c none) E (cc0__kernel i a0 h0 a1 h1 a2 h2 a3 h3 a4 h4 a5 h5) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h0.eq_unread hf0; obtain rfl := h1.eq_unread hf1; obtain rfl := h2.eq_unread hf2
    obtain rfl := h3.eq_unread hf3; obtain rfl := h4.eq_unread hf4
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.Kernel.Frame

end
-- ==== Proof.KbRunB.lean ====
/- The kernel body run at a point of a LATER column block (case B): no zero fill; the body adds this column
   block's seven partial row sums into the seven columns of the row-sum block it is handed, which holds what the
   point before left (the block is written back only after the last column block). Same symbolic run as case A,
   with the row-sum buffer's incoming contents named, since the body reads them before it overwrites them. -/
import proofs.«171571_j44796508897300_1_alg».proof.Proof.KbRunA

-- membership of an index in a rectangle of a 512-row block is checked coordinate by coordinate
set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered; never unfolded here
variable (V : (c : Dev nD) → (b : Ref sig .tc) → Buf (Elt F) ((c : Thread nD τ).loc b))

-- the run's proof term is long; the definition's closing pass over it needs more than the default budget
set_option maxHeartbeats 4000000 in
/-- Case B (the column block is not 0, `hc`): the pieces the body's stores leave in the row-sum buffer, with the
    proof that from the five input buffers at `x0 … x4` and the row-sum buffer at `xo` the body runs to the
    continuation holding the inputs as they were and the row-sum buffer with those pieces written. -/
noncomputable def runB (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : ¬firstCol i)
    (x0 : Vec F S512x128 .bf16) (x1 : Vec F S512x128 .bf16) (x2 : Vec F S1024x128 .bf16) (x3 : Vec F S1024x128 .bf16) (x4 : Vec F S512x1024 .f32) (xo : Vec F S512x7 .f32) :
    { L : List (View.Piece (Elt F) S512x7 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xo
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f L)) -∗ K ⟨⟩))
          ⊢ wp frame (wpE (defs₀ (F := F)) Variants.none c none) E (cc0__kernel i a0 h0 a1 h1 a2 h2 a3 h3 a4 h4 a5 h5) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h0.eq_unread hf0; obtain rfl := h1.eq_unread hf1; obtain rfl := h2.eq_unread hf2
    obtain rfl := h3.eq_unread hf3; obtain rfl := h4.eq_unread hf4; obtain rfl := h5.eq_unread hf5
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.Kernel.Frame

end
-- ==== Proof.KbBody.lean ====
/- The body of the row-sum kernel at every point of the grid, as the pipeline's body obligation.
   What the row-sum window's staging buffer holds after the body at a point is defined by recursion on the point
   (`acc`): at a point of the first column block, what case A's stores leave (zeros, then this block's partial sums
   added in); at any other point, what case B's stores leave over what the point before left — the buffer is not
   written back in between, write-back happening only after the last column block of a row block. The proof data
   says this, the inputs' buffers holding their blocks throughout; the obligation follows from the two runs. -/
import proofs.«171571_j44796508897300_1_alg».proof.Proof.KbRunB

-- membership of an index in a rectangle of a 512-row block is checked coordinate by coordinate
set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered; never unfolded here
variable (V : (c : Dev nD) → (b : Ref sig .tc) → Buf (Elt F) ((c : Thread nD τ).loc b))

/-! ## What each case leaves in the row-sum buffer -/

/-- Case A's pieces cover the 512x7 block: one of them, the zero fill, is the whole block (checked by evaluation). -/
theorem coverA (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : firstCol i)
    (x0 : Vec F S512x128 .bf16) (x1 : Vec F S512x128 .bf16) (x2 : Vec F S1024x128 .bf16) (x3 : Vec F S1024x128 .bf16) (x4 : Vec F S512x1024 .f32) (y : S512x7.Idx) :
    ∃ pc ∈ (runA c i a0 h0 a1 h1 a2 h2 a3 h3 a4 h4 a5 h5 hc x0 x1 x2 x3 x4).1, y ∈ pc.1.set :=
  View.cover_of_tiledL (runA c i a0 h0 a1 h1 a2 h2 a3 h3 a4 h4 a5 h5 hc x0 x1 x2 x3 x4).1 S512x7.size (by sl_kernel_rfl) y

/-- What case A leaves in the row-sum buffer: its pieces read back (over contents that do not matter, being covered). -/
def outA (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : firstCol i)
    (x0 : Vec F S512x128 .bf16) (x1 : Vec F S512x128 .bf16) (x2 : Vec F S1024x128 .bf16) (x3 : Vec F S1024x128 .bf16) (x4 : Vec F S512x1024 .f32) : Vec F S512x7 .f32 :=
  VOut.read (Elt F) (VOut.writes (Elt F) VOut.junk (runA c i a0 h0 a1 h1 a2 h2 a3 h3 a4 h4 a5 h5 hc x0 x1 x2 x3 x4).1)

/-- Case B's pieces tile the 512x7 block in blocks of one 512x1 column (its seven columns), so they cover it. -/
theorem coverB (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : ¬firstCol i)
    (x0 : Vec F S512x128 .bf16) (x1 : Vec F S512x128 .bf16) (x2 : Vec F S1024x128 .bf16) (x3 : Vec F S1024x128 .bf16) (x4 : Vec F S512x1024 .f32) (xo : Vec F S512x7 .f32) (y : S512x7.Idx) :
    ∃ pc ∈ (runB c i a0 h0 a1 h1 a2 h2 a3 h3 a4 h4 a5 h5 hc x0 x1 x2 x3 x4 xo).1, y ∈ pc.1.set :=
  View.cover_of_tiledL (runB c i a0 h0 a1 h1 a2 h2 a3 h3 a4 h4 a5 h5 hc x0 x1 x2 x3 x4 xo).1 S512x1.size (by sl_kernel_rfl) y

/-- What case B leaves in the row-sum buffer that held `xo`: its pieces read back. -/
def outB (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : ¬firstCol i)
    (x0 : Vec F S512x128 .bf16) (x1 : Vec F S512x128 .bf16) (x2 : Vec F S1024x128 .bf16) (x3 : Vec F S1024x128 .bf16) (x4 : Vec F S512x1024 .f32) (xo : Vec F S512x7 .f32) : Vec F S512x7 .f32 :=
  VOut.read (Elt F) (VOut.writes (Elt F) VOut.junk (runB c i a0 h0 a1 h1 a2 h2 a3 h3 a4 h4 a5 h5 hc x0 x1 x2 x3 x4 xo).1)

/-! ## The running row sums, point by point -/

/-- What the row-sum window's staging buffer holds after the body at point `n`: at the first column block of a row
    block, case A's contents; otherwise case B's over what the body left at point `n - 1`. -/
def acc (c : Dev nD) : (n : ℕ) → n < cfg0.N → Vec F S512x7 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((firstCol_iff ⟨0, hn⟩).mpr (Nat.zero_mod _)) (blk V c 0 ⟨0, hn⟩) (blk V c 1 ⟨0, hn⟩) (blk V c 2 ⟨0, hn⟩) (blk V c 3 ⟨0, hn⟩) (blk V c 4 ⟨0, hn⟩)
  | n + 1, hn =>
    if h : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((firstCol_iff ⟨n + 1, hn⟩).mpr h) (blk V c 0 ⟨n + 1, hn⟩) (blk V c 1 ⟨n + 1, hn⟩) (blk V c 2 ⟨n + 1, hn⟩) (blk V c 3 ⟨n + 1, hn⟩) (blk V c 4 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun hc => h ((firstCol_iff ⟨n + 1, hn⟩).mp hc)) (blk V c 0 ⟨n + 1, hn⟩) (blk V c 1 ⟨n + 1, hn⟩) (blk V c 2 ⟨n + 1, hn⟩) (blk V c 3 ⟨n + 1, hn⟩) (blk V c 4 ⟨n + 1, hn⟩) (acc c n (Nat.lt_of_succ_lt hn))

/-- At a point of the first column block the running sums restart: case A's contents. -/
theorem acc_reset (c : Dev nD) (t : Fin cfg0.N) (h : t.val % 8 = 0) :
    acc V c t.val t.isLt = outA c (grid0.coords t) (ms0 t) (hs0 t) (ms1 t) (hs1 t) (ms2 t) (hs2 t) (ms3 t) (hs3 t) (ms4 t) (hs4 t) (ms5 t) (hs5 t) ((firstCol_iff t).mpr h) (blk V c 0 t) (blk V c 1 t) (blk V c 2 t) (blk V c 3 t) (blk V c 4 t) := by
  obtain ⟨n, hn⟩ := t
  cases n with
  | zero => exact rfl
  | succ n => exact (dif_pos h).trans rfl

/-- At any other point they continue: case B's contents over what the point before left. -/
theorem acc_step (c : Dev nD) (t : Fin cfg0.N) (h : t.val % 8 ≠ 0) :
    acc V c t.val t.isLt = outB c (grid0.coords t) (ms0 t) (hs0 t) (ms1 t) (hs1 t) (ms2 t) (hs2 t) (ms3 t) (hs3 t) (ms4 t) (hs4 t) (ms5 t) (hs5 t) (fun hc => h ((firstCol_iff t).mp hc)) (blk V c 0 t) (blk V c 1 t) (blk V c 2 t) (blk V c 3 t) (blk V c 4 t) (acc V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (dif_neg h).trans rfl

/-! ## The pipeline's proof data -/

/-- The proof data on core `c`: the arrays as the region finds them; after the body at point `t` each input's buffer
    at its block and the row-sum buffer at `acc`; the invariant that of a body touching only its staging buffers;
    nothing owed. The two feature arrays are each staged by two windows (a row block and a column block), which hold
    the array's two half shares; the mask's window holds its array whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => acc V c t.val t.isLt
  Φ _ := Pipeline.ΦA spec0 c
  q := fun w => match w with
    | ⟨0, _⟩ | ⟨1, _⟩ => fullShare.left
    | ⟨2, _⟩ | ⟨3, _⟩ => fullShare.right
    | _ => fullShare
  owed _ := 0

/-- The proof data's arrays are the region-entry contents. -/
theorem dat_A (c : Dev nD) (w : Fin cfg0.W) : (dat V c).A w = V c (Pipeline.arrRef spec0 w) := by
  dsimp only [dat]

/-- What the body leaves, window by window. -/
theorem dat_after0 (c : Dev nD) (t : Fin cfg0.N) : (dat V c).after 0 t = blk V c 0 t := by dsimp only [dat]
theorem dat_after1 (c : Dev nD) (t : Fin cfg0.N) : (dat V c).after 1 t = blk V c 1 t := by dsimp only [dat]
theorem dat_after2 (c : Dev nD) (t : Fin cfg0.N) : (dat V c).after 2 t = blk V c 2 t := by dsimp only [dat]
theorem dat_after3 (c : Dev nD) (t : Fin cfg0.N) : (dat V c).after 3 t = blk V c 3 t := by dsimp only [dat]
theorem dat_after4 (c : Dev nD) (t : Fin cfg0.N) : (dat V c).after 4 t = blk V c 4 t := by dsimp only [dat]
theorem dat_after5 (c : Dev nD) (t : Fin cfg0.N) : (dat V c).after 5 t = acc V c t.val t.isLt := by dsimp only [dat]

/-- Each input's current staging buffer holds its block at every point. -/
theorem before0 (c : Dev nD) (t : Fin cfg0.N) (d) : (dat V c).before 0 t d = blk V c 0 t :=
  before_in0 V (dat V c) (dat_A V c 0) (dat_after0 V c) t d
theorem before1 (c : Dev nD) (t : Fin cfg0.N) (d) : (dat V c).before 1 t d = blk V c 1 t :=
  before_in1 V (dat V c) (dat_A V c 1) (dat_after1 V c) t d
theorem before2 (c : Dev nD) (t : Fin cfg0.N) (d) : (dat V c).before 2 t d = blk V c 2 t :=
  before_in2 V (dat V c) (dat_A V c 2) (dat_after2 V c) t d
theorem before3 (c : Dev nD) (t : Fin cfg0.N) (d) : (dat V c).before 3 t d = blk V c 3 t :=
  before_in3 V (dat V c) (dat_A V c 3) (dat_after3 V c) t d
theorem before4 (c : Dev nD) (t : Fin cfg0.N) (d) : (dat V c).before 4 t d = blk V c 4 t :=
  before_in4 V (dat V c) (dat_A V c 4) (dat_after4 V c) t d

/-- At a point past the first column block the row-sum buffer holds what the body left at the point before: the
    point is not the first, and the point before, not being a last column block, wrote nothing back. -/
theorem before5_step (c : Dev nD) (t : Fin cfg0.N) (h : t.val % 8 ≠ 0) (d) :
    (dat V c).before 5 t d = acc V c (t.val - 1) (Nat.lt_of_le_of_lt (Nat.sub_le _ _) t.isLt) := by
  have hN : t.val < 128 := lt_of_lt_of_eq t.isLt (show cfg0.N = 128 from N_0)
  rw [Dat.before_out_kept _ 5 rfl t (by omega) (Bool.eq_false_iff.mpr fun hf => by have := (flush0_5 _).mp hf; dsimp only at this; omega)
    (fun _ => rfl) (fun _ _ => rfl)]
  dsimp only [dat]

/-! ## The body obligation -/

/-- What the body is called with at point `t`: the invariant, nothing owed, and each window's current staging buffer
    at what it then holds; -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns: the same with each buffer at what the proof data says the body leaves. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 1600000 in
/-- The body at any point. The inputs' buffers hold their blocks; the point's column block decides the case; in case B
    the row-sum buffer holds what the point before left; so the case's run applies, and the pieces it writes, covering
    the block, read back as the case's contents. The invariant and the (empty) debt pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    dat_after0, dat_after1, dat_after2, dat_after3, dat_after4, dat_after5]
  by_cases h : t.val % 8 = 0
  · rw [acc_reset V c t h]
    unfold outA
    iintro ⟨HΦ, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ ((firstCol_iff t).mpr h) (blk V c 0 t) (blk V c 1 t) (blk V c 2 t) (blk V c 3 t) (blk V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c _ _ _ _ _ _ _ _ _ _ _ _ _ _ _ _ _ _ _)
  · rw [acc_step V c t h]
    simp only [before5_step V c t h]
    unfold outB
    iintro ⟨HΦ, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ (fun hc => h ((firstCol_iff t).mp hc)) (blk V c 0 t) (blk V c 1 t) (blk V c 2 t) (blk V c 3 t) (blk V c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB c _ _ _ _ _ _ _ _ _ _ _ _ _ _ _ _ _ _ _ _)

/-- The pipeline's body obligation, at every point. -/
theorem body_ob (c : Dev nD) : BodyObligation (dat (F := F) V c) (defs₀ (F := F)) Variants.none () Set.univ := fun t => by
  rw [bigSep_W0, bigSep_W0]
  exact sound_body V c t

end Cert.Kernel.Frame

end
-- ==== Proof.KbLaunch.lean ====
/-
  The run of the whole program: 22 host operations (the two row normalisations and their narrowing), the kernel
  region, 51 host operations (the columns of the region's result turned into the loss).  The buffer contents are
  followed from the launch memory through the three stretches; the region leaves every buffer as it found it but
  its result array.
-/
import proofs.«171571_j44796508897300_1_alg».proof.Proof.Gen.Kernel.Launch
import proofs.«171571_j44796508897300_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«171571_j44796508897300_1_alg».proof.Proof.KbShares
import proofs.«171571_j44796508897300_1_alg».proof.Proof.KbBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
/-- The same read at the TensorCore's references: what the region is entered from. -/
abbrev V1 : (c : Dev nD) → (b : Ref sig .tc) → Buf (Elt F) ((c : Thread nD τ).loc b) := fun c b => W1 m ρ c b
/-- At the region's exit: the result array at what the write-backs leave, every other buffer as entered. -/
def W2 (c : Dev nD) : Valuation τ sig (Elt F) :=
  Function.update (W1 m ρ c) (Proc.devRef .tc main_v18) ((dat (V1 m ρ) c).arrAt 5 cfg0.N)
abbrev V2 : (c : Dev nD) → (b : Ref sig .tc) → Buf (Elt F) ((c : Thread nD τ).loc b) := fun c b => W2 m ρ c b
/-- After the host operations behind the region: the final contents. -/
abbrev W3 : Dev nD → Valuation τ sig (Elt F) := fun c => StableHlo.after hostOps1 (W2 m ρ c)

theorem W2_result (c : Dev nD) : W2 m ρ c (Proc.devRef .tc main_v18) = (dat (V1 m ρ) c).arrAt 5 cfg0.N := by
  unfold W2; exact Function.update_self ..
theorem W2_of_ne (c : Dev nD) (b : Ref sig .tc) (hb : b ≠ main_v18) : W2 m ρ c (Proc.devRef .tc b) = W1 m ρ c (Proc.devRef .tc b) := by
  unfold W2; exact Function.update_of_ne (fun e => hb (Proc.devRef_injective _ e)) ..

/-- The shares the proof data name are the two halves for the two readers of one array. -/
theorem dat_q (V : (c : Dev nD) → (b : Ref sig .tc) → Buf (Elt F) ((c : Thread nD τ).loc b)) (c : Dev nD) : (dat V c).q = qsh := by
  funext w
  match w with
  | ⟨0, _⟩ => rfl
  | ⟨1, _⟩ => rfl
  | ⟨2, _⟩ => rfl
  | ⟨3, _⟩ => rfl
  | ⟨4, _⟩ => rfl
  | ⟨5, _⟩ => rfl

/-! ## The proof data family and the thread state -/

/-- No pipeline prefetches a table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation before the region allocates a buffer. -/
theorem hostOps0_fresh : (hostOps0 : List (HloOp τ sig (Elt F))).Forall fun op => op.fresh = ∅ := by
  simp only [List.Forall]; repeat' constructor
/-- No operation behind the region allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents, the generator register. -/
abbrev Tₙ (c : Dev nD) : sProp 𝕄 := iprop(StableHlo.held (c : Thread nD τ) (Pipeline.ucRefs τ sig) (W3 m ρ c) ∗ ∃ r, prngReg c r)

/-- An input window's array is never written: it ends as the region found it. -/
theorem arrAt_in (c : Dev nD) (w : Fin cfg0.W) (hw : (cfg0.win w).isOut = false) :
    (dat (V1 m ρ) c).arrAt w cfg0.N = V1 m ρ c (Pipeline.arrRef spec0 w) :=
  ((dat (V1 m ρ) c).arrAt_in w hw _).trans (dat_A (V1 m ρ) c w)

/-! ## The region as a segment -/

set_option backward.isDefEq.respectTransparency.types false in
/-- The region over the thread state: entered from every unscoped buffer at `W1`, left at `W2`.  The six windows'
    arrays are split out of the unscoped buffers at their shares and put back at the exit contents; the generator
    register passes through the invariant; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_ob (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_bufs c (V1 m ρ c) (dat (V1 m ρ) c) (dat_q _ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arrays c (V1 m ρ c) (dat (V1 m ρ) c) (dat_q _ c) (V2 m ρ c) ((dat (V1 m ρ) c).arrAt · cfg0.N)
      (arrAt_in m ρ c 0 rfl) (arrAt_in m ρ c 1 rfl) (arrAt_in m ρ c 2 rfl) (arrAt_in m ρ c 3 rfl) (arrAt_in m ρ c 4 rfl)
      (W2_result m ρ c).symm (fun b hb => W2_of_ne m ρ c b hb)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds, at every unscoped buffer of every core, the contents followed through the three stretches. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Frame

end
-- ==== Proof.KbHostArgs.lean ====
/-
  The host operations around the region leave the arguments alone.

  Every host operation writes one buffer, its own result; none of them is an argument of @main, the region's
  result, or (after the region) one of the two narrowed feature arrays.  So the contents of those buffers after
  either stretch of host operations are the contents before it, at every float instance.
-/
import proofs.«171571_j44796508897300_1_alg».proof.Proof.Gen.Kernel.Launch
import Idealize.ShloMosaic.Lib.StableHlo.Run

noncomputable section

namespace Cert.Kernel.HostValue

open Cert.Kernel Cert.Kernel.Gen Idealize.ShloMosaic Idealize.ShloMosaic.TcCoe Idealize.SL.Sem

variable {F : FTy → Type} [FloatOps F]

/-! ## Before the region: the three arguments keep their contents -/

theorem pre_arg0 (W : Valuation τ sig (Elt F)) :
    StableHlo.after (hostOps0 (F := F)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

theorem pre_arg1 (W : Valuation τ sig (Elt F)) :
    StableHlo.after (hostOps0 (F := F)) W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

theorem pre_arg2 (W : Valuation τ sig (Elt F)) :
    StableHlo.after (hostOps0 (F := F)) W (Proc.devRef .tc main_arg2) = W (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-! ## After the region: the three arguments, the region's result and the two narrowed feature arrays keep theirs -/

theorem tail_arg0 (W : Valuation τ sig (Elt F)) :
    StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_arg1 (W : Valuation τ sig (Elt F)) :
    StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_arg2 (W : Valuation τ sig (Elt F)) :
    StableHlo.after (hostOps1 (F := F)) W (Proc.devRef .tc main_arg2) = W (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_v18 (W : Valuation τ sig (Elt F)) :
    StableHlo.after (hostOps1 (F := F)) W (Proc.devRef .tc main_v18) = W (Proc.devRef .tc main_v18) :=
  StableHlo.after_of_forall_not_mem (b := Proc.devRef .tc main_v18) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_v16 (W : Valuation τ sig (Elt F)) :
    StableHlo.after (hostOps1 (F := F)) W (Proc.devRef .tc main_v16) = W (Proc.devRef .tc main_v16) :=
  StableHlo.after_of_forall_not_mem (b := Proc.devRef .tc main_v16) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_v17 (W : Valuation τ sig (Elt F)) :
    StableHlo.after (hostOps1 (F := F)) W (Proc.devRef .tc main_v17) = W (Proc.devRef .tc main_v17) :=
  StableHlo.after_of_forall_not_mem (b := Proc.devRef .tc main_v17) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end Cert.Kernel.HostValue

end
-- ==== Proof.KbArgs.lean ====
/-
  The frame: no host operation writes an argument array and the region only reads them, so each argument's buffer,
  followed through the three stretches, ends at its launch contents.
-/
import proofs.«171571_j44796508897300_1_alg».proof.Proof.Gen.Kernel.Launch
import proofs.«171571_j44796508897300_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«171571_j44796508897300_1_alg».proof.Proof.KbLaunch
import proofs.«171571_j44796508897300_1_alg».proof.Proof.KbHostArgs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.HostValue

variable (m : (ℓ : Loc nD τ sig) → Buf (Elt F) ℓ) (ρ : Dev nD → PrngReg)

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := tail_arg0 (W2 m ρ c)
    _ = W1 m ρ c (Proc.devRef .tc main_arg0) := W2_of_ne m ρ c main_arg0 (by decide)
    _ = W0 m ρ c (Proc.devRef .tc main_arg0) := pre_arg0 (W0 m ρ c)
    _ = m ((c : Thread nD τ).loc main_arg0) := rfl

theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := tail_arg1 (W2 m ρ c)
    _ = W1 m ρ c (Proc.devRef .tc main_arg1) := W2_of_ne m ρ c main_arg1 (by decide)
    _ = W0 m ρ c (Proc.devRef .tc main_arg1) := pre_arg1 (W0 m ρ c)
    _ = m ((c : Thread nD τ).loc main_arg1) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := tail_arg2 (W2 m ρ c)
    _ = W1 m ρ c (Proc.devRef .tc main_arg2) := W2_of_ne m ρ c main_arg2 (by decide)
    _ = W0 m ρ c (Proc.devRef .tc main_arg2) := pre_arg2 (W0 m ρ c)
    _ = m ((c : Thread nD τ).loc main_arg2) := rfl

/-- Every weakly fair execution terminates, nothing faulting, with the result at the contents followed through the
    run and the three argument arrays as launched. -/
theorem run_result : θ_run defs (onTc (τ := τ) (main (F := F))) ⟨m, fun _ => 0, ρ⟩ (fun r => ∀ c : Dev nD,
      r.2.mem ((c.tc : Thread nD τ).loc main_v60) = W3 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c _ (mem_uc main_v60 (by decide)),
      (h c _ (mem_uc main_arg0 (by decide))).trans (W3_arg0 m ρ c),
      (h c _ (mem_uc main_arg1 (by decide))).trans (W3_arg1 m ρ c),
      (h c _ (mem_uc main_arg2 (by decide))).trans (W3_arg2 m ρ c)⟩) (run_all m ρ)

/-- The frame claim's run. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_result m ρ)

end Cert.Kernel.Frame

end
-- ==== Proof.KiShares.lean ====
/-
  Two of the kernel's windows read one array (the first normalised feature array through windows 0 and 2, the second
  through windows 1 and 3).  A buffer held whole at the full share is the two half shares side by side, each window
  of a pair taking one half; the mask and the result array have one window each and are held at the full share.
-/
import proofs.«171571_j44796508897300_1_alg».proof.Proof.Gen.KernelIdeal.Launch
import proofs.«171571_j44796508897300_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The share each window holds its array at: the two readers of one array take its two halves. -/
def qsh : Fin 6 → PosShare TreeShare
  | ⟨0, _⟩ => fullShare.left
  | ⟨1, _⟩ => fullShare.left
  | ⟨2, _⟩ => fullShare.right
  | ⟨3, _⟩ => fullShare.right
  | _ => fullShare

/-- The four distinct buffers behind the six windows. -/
theorem arrRefs_eq : (Finset.univ.image (Pipeline.arrRef spec0) : Finset (Ref sig .tc)) = [main_v16, main_v17, main_arg2, main_v18].toFinset := by decide

variable (c : Dev nD) (V : (b : Ref sig .tc) → Buf (Elt F) ((c : Thread nD τ).loc b))

/-- The buffers behind the arrays, one by one. -/
theorem arrBufs_eq : (Pipeline.arrBufs (Ix := Unit) (Name := ℕ) (U := UR sig nD τ) (Lvl := ℕ) spec0 c V : sProp 𝕄)
    = iprop((((c : Thread nD τ).loc main_v16) ↦{fullShare} V main_v16) ∗ (((c : Thread nD τ).loc main_v17) ↦{fullShare} V main_v17)
        ∗ (((c : Thread nD τ).loc main_arg2) ↦{fullShare} V main_arg2) ∗ (((c : Thread nD τ).loc main_v18) ↦{fullShare} V main_v18)) := by
  unfold Pipeline.arrBufs
  rw [bigSep_eq_bigSepL_of_eq [main_v16, main_v17, main_arg2, main_v18] arrRefs_eq (by decide)]
  rfl

variable (dat : Dat τ (Elt F) Unit ℕ (UR sig nD τ) ℕ cfg0 c)

/-- The six windows' arrays, one by one, each at its share. -/
theorem arrays_eq_chain (hq : dat.q = qsh) (A : (w : Fin cfg0.W) → Buf (Elt F) ((cfg0.win w).arr.view.loc (c : Thread nD τ))) :
    (dat.arrays A : sProp 𝕄)
      = iprop((((c : Thread nD τ).loc main_v16) ↦{fullShare.left} A 0) ∗ (((c : Thread nD τ).loc main_v17) ↦{fullShare.left} A 1)
        ∗ (((c : Thread nD τ).loc main_v16) ↦{fullShare.right} A 2) ∗ (((c : Thread nD τ).loc main_v17) ↦{fullShare.right} A 3)
        ∗ (((c : Thread nD τ).loc main_arg2) ↦{fullShare} A 4) ∗ (((c : Thread nD τ).loc main_v18) ↦{fullShare} A 5)) := by
  unfold Dat.arrays
  rw [bigSep_W0]
  simp only [Dat.share, hq, (arr_whole0 0).set_eq_univ, (arr_whole0 1).set_eq_univ, (arr_whole0 4).set_eq_univ,
    (arr_whole0 5).set_eq_univ, Bool.false_eq_true, if_false, if_true]
  rfl

/-- ENTRY: the core's unscoped buffers at `V` are the six windows' arrays at `V`, each at its share — a buffer two
    windows read is split into its two halves — and the buffers no window stages. -/
theorem arrays_of_bufs (hq : dat.q = qsh) :
    (unscopedBufs c V : sProp 𝕄) ⊢ iprop(dat.arrays (fun w => V (Pipeline.arrRef spec0 w)) ∗ Pipeline.unscopedRest spec0 c V) := by
  rw [Pipeline.unscopedBufs_split₀ cfgs 0 winFacts₀0.arr_unscoped c V, arrBufs_eq, arrays_eq_chain c dat hq]
  iintro ⟨⟨H16, H17, H2, H18⟩, Hrest⟩
  ihave H16' := (pointsTo_share (PosShare.mem_left_op_right fullShare)).1 $$ H16
  icases H16' with ⟨H16l, H16r⟩
  ihave H17' := (pointsTo_share (PosShare.mem_left_op_right fullShare)).1 $$ H17
  icases H17' with ⟨H17l, H17r⟩
  isplitr [Hrest]
  swap; · iexact Hrest
  isplitl [H16l]; · iexact H16l
  isplitl [H17l]; · iexact H17l
  isplitl [H16r]; · iexact H16r
  isplitl [H17r]; · iexact H17r
  isplitl [H2]; · iexact H2
  iexact H18

/-- EXIT: the windows' arrays, the inputs at what they held at entry and the result array at `r`, with the buffers no
    window stages, are the core's unscoped buffers at any valuation `V'` that has the result array at `r` and agrees
    with `V` elsewhere: the two halves of a shared input are put back together. -/
theorem bufs_of_arrays (hq : dat.q = qsh) (V' : (b : Ref sig .tc) → Buf (Elt F) ((c : Thread nD τ).loc b))
    (A : (w : Fin cfg0.W) → Buf (Elt F) ((cfg0.win w).arr.view.loc (c : Thread nD τ)))
    (h0 : A 0 = V main_v16) (h1 : A 1 = V main_v17) (h2 : A 2 = V main_v16) (h3 : A 3 = V main_v17) (h4 : A 4 = V main_arg2)
    (h5 : A 5 = V' main_v18)
    (hrest : ∀ b, b ≠ main_v18 → V' b = V b) :
    iprop(dat.arrays A ∗ Pipeline.unscopedRest spec0 c V) ⊢ (unscopedBufs c V' : sProp 𝕄) := by
  rw [Pipeline.unscopedBufs_split₀ cfgs 0 winFacts₀0.arr_unscoped c V', arrBufs_eq, arrays_eq_chain c dat hq, h0, h1, h2, h3, h4, h5,
    hrest main_v16 (by decide), hrest main_v17 (by decide), hrest main_arg2 (by decide)]
  have hR : (Pipeline.unscopedRest (Ix := Unit) (Name := ℕ) (U := UR sig nD τ) (Lvl := ℕ) spec0 c V' : sProp 𝕄)
      = Pipeline.unscopedRest spec0 c V := by
    unfold Pipeline.unscopedRest
    refine bigSep_congr fun b hb => ?_
    rw [hrest b (fun e => (Finset.mem_sdiff.mp hb).2 (e ▸ Finset.mem_image.mpr ⟨5, Finset.mem_univ _, rfl⟩))]
  rw [hR]
  iintro ⟨⟨H16l, H17l, H16r, H17r, H2, H18⟩, Hrest⟩
  isplitr [Hrest]
  swap; · iexact Hrest
  isplitl [H16l H16r]
  · iapply (pointsTo_share (PosShare.mem_left_op_right fullShare)).2; isplitl [H16l] <;> iassumption
  isplitl [H17l H17r]
  · iapply (pointsTo_share (PosShare.mem_left_op_right fullShare)).2; isplitl [H17l] <;> iassumption
  isplitl [H2]; · iexact H2
  iexact H18

end Cert.KernelIdeal.Frame

end
-- ==== Proof.KiShared.lean ====
/- The body of the row-sum kernel, point by point: what its two runs share.
   The grid is 16 row blocks by 8 column blocks, walked row block first, so point `t` has column block `t % 8`.
   Here: each window's block at a point as read off the arrays the region finds (`blk`); that an input's staging
   buffer holds its block at every point; the closed form of the body's one branch (it zero-fills the 512x7 block
   of row sums exactly when the column block is 0); and the staging memrefs the body is called with. -/
import proofs.«171571_j44796508897300_1_alg».proof.Proof.Gen.KernelIdeal.Launch
import proofs.«171571_j44796508897300_1_alg».proof.Proof.Gen.KernelIdeal.Skeleton
import proofs.«171571_j44796508897300_1_alg».proof.Proof.Gen.KernelIdeal.Points
import Idealize.ShloMosaic.Lib.Pipeline.FrameBody
import Idealize.ShloMosaic.Lib.Ring
import Idealize.ShloMosaic.Lib.Tactic

-- membership of an index in a rectangle of a 512-row block is checked coordinate by coordinate
set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered; never unfolded here
variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the block was
    fetched there (an unfetched point has the block index of the point before), for any proof data whose array is
    `V`'s and whose body leaves the block in place. -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, whether or not the block was
    fetched there (an unfetched point has the block index of the point before), for any proof data whose array is
    `V`'s and whose body leaves the block in place. -/
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, whether or not the block was
    fetched there (an unfetched point has the block index of the point before), for any proof data whose array is
    `V`'s and whose body leaves the block in place. -/
theorem before_in2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, whether or not the block was
    fetched there (an unfetched point has the block index of the point before), for any proof data whose array is
    `V`'s and whose body leaves the block in place. -/
theorem before_in3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, whether or not the block was
    fetched there (an unfetched point has the block index of the point before), for any proof data whose array is
    `V`'s and whose body leaves the block in place. -/
theorem before_in4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The branch: is this the first column block? -/

/-- The body's condition as the program computes it from the column-block coordinate. -/
abbrev firstCol (i : grid0.Coords) : Prop := (Scalar.cmpi .ne (Scalar.extui (Scalar.cmpi .eq (BitVec.ofNat 32 (i 1).val) 0#32)) 0#32) = 1#1

/-- It holds exactly at the points whose column block is 0: decided over the 128 points. -/
theorem firstCol_iff : ∀ t : Fin cfg0.N, firstCol (grid0.coords t) ↔ t.val % 8 = 0 :=
  (by decide +kernel : ∀ t : Fin grid0.N, firstCol (grid0.coords t) ↔ t.val % 8 = 0)

/-! ## The staging memrefs at a point -/

/-- A staging buffer of the row-sum window, through which its contents are read (any whole buffer of the shape would do). -/
abbrev VOut : View sig .tc .vmem S512x7 .f32 := (Memref.whole cc0_stg5_0 : Memref sig .tc .vmem S512x7 .f32).view

/-- Each window's current staging memref at point `t`, as the pipeline passes it, and that it is a whole buffer. -/
abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x7 .f32 := win0_5.stage (cfg0.slots t 5)
abbrev hs5 (t : Fin cfg0.N) : (ms5 t).IsWhole := hstage0_5 ((cfg0.slots t 5).cast nbuf0_5)

end Cert.KernelIdeal.Frame

end
-- ==== Proof.KiRunA.lean ====
/- The kernel body run at a point of the FIRST column block (case A): the body reads the row-sum block it is
   handed (the value is unused), overwrites all of it with zeros, and then adds this column block's seven partial
   row sums into its seven columns, each by a load of the column and a store over it. The run is symbolic: on whole
   staging memrefs holding the five input blocks it reaches the continuation with the inputs unchanged and the
   row-sum buffer holding a list of written pieces, last store first; that list is the witness the run finds. -/
import proofs.«171571_j44796508897300_1_alg».proof.Proof.KiShared

-- membership of an index in a rectangle of a 512-row block is checked coordinate by coordinate
set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered; never unfolded here
variable (V : (c : Dev nD) → (b : Ref sig .tc) → Buf (Elt F) ((c : Thread nD τ).loc b))

-- the run's proof term is long; the definition's closing pass over it needs more than the default budget
set_option maxHeartbeats 4000000 in
/-- Case A (the column block is 0, `hc`): the pieces the body's stores leave in the row-sum buffer, with the proof
    that from the five input buffers at `x0 … x4` and the row-sum buffer at anything the body runs to the
    continuation holding the inputs as they were and the row-sum buffer with those pieces written. -/
noncomputable def runA (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : firstCol i)
    (x0 : Vec F S512x128 .bf16) (x1 : Vec F S512x128 .bf16) (x2 : Vec F S1024x128 .bf16) (x3 : Vec F S1024x128 .bf16) (x4 : Vec F S512x1024 .f32) :
    { L : List (View.Piece (Elt F) S512x7 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f L)) -∗ K ⟨⟩))
          ⊢ wp frame (wpE (defs₀ (F := F)) Variants.none c none) E (cc0__kernel i a0 h0 a1 h1 a2 h2 a3 h3 a4 h4 a5 h5) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h0.eq_unread hf0; obtain rfl := h1.eq_unread hf1; obtain rfl := h2.eq_unread hf2
    obtain rfl := h3.eq_unread hf3; obtain rfl := h4.eq_unread hf4
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.KernelIdeal.Frame

end
-- ==== Proof.KiRunB.lean ====
/- The kernel body run at a point of a LATER column block (case B): no zero fill; the body adds this column
   block's seven partial row sums into the seven columns of the row-sum block it is handed, which holds what the
   point before left (the block is written back only after the last column block). Same symbolic run as case A,
   with the row-sum buffer's incoming contents named, since the body reads them before it overwrites them. -/
import proofs.«171571_j44796508897300_1_alg».proof.Proof.KiRunA

-- membership of an index in a rectangle of a 512-row block is checked coordinate by coordinate
set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered; never unfolded here
variable (V : (c : Dev nD) → (b : Ref sig .tc) → Buf (Elt F) ((c : Thread nD τ).loc b))

-- the run's proof term is long; the definition's closing pass over it needs more than the default budget
set_option maxHeartbeats 4000000 in
/-- Case B (the column block is not 0, `hc`): the pieces the body's stores leave in the row-sum buffer, with the
    proof that from the five input buffers at `x0 … x4` and the row-sum buffer at `xo` the body runs to the
    continuation holding the inputs as they were and the row-sum buffer with those pieces written. -/
noncomputable def runB (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : ¬firstCol i)
    (x0 : Vec F S512x128 .bf16) (x1 : Vec F S512x128 .bf16) (x2 : Vec F S1024x128 .bf16) (x3 : Vec F S1024x128 .bf16) (x4 : Vec F S512x1024 .f32) (xo : Vec F S512x7 .f32) :
    { L : List (View.Piece (Elt F) S512x7 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xo
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f L)) -∗ K ⟨⟩))
          ⊢ wp frame (wpE (defs₀ (F := F)) Variants.none c none) E (cc0__kernel i a0 h0 a1 h1 a2 h2 a3 h3 a4 h4 a5 h5) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h0.eq_unread hf0; obtain rfl := h1.eq_unread hf1; obtain rfl := h2.eq_unread hf2
    obtain rfl := h3.eq_unread hf3; obtain rfl := h4.eq_unread hf4; obtain rfl := h5.eq_unread hf5
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    iexists _; iexact H5

end Cert.KernelIdeal.Frame

end
-- ==== Proof.KiBody.lean ====
/- The body of the row-sum kernel at every point of the grid, as the pipeline's body obligation.
   What the row-sum window's staging buffer holds after the body at a point is defined by recursion on the point
   (`acc`): at a point of the first column block, what case A's stores leave (zeros, then this block's partial sums
   added in); at any other point, what case B's stores leave over what the point before left — the buffer is not
   written back in between, write-back happening only after the last column block of a row block. The proof data
   says this, the inputs' buffers holding their blocks throughout; the obligation follows from the two runs. -/
import proofs.«171571_j44796508897300_1_alg».proof.Proof.KiRunB

-- membership of an index in a rectangle of a 512-row block is checked coordinate by coordinate
set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered; never unfolded here
variable (V : (c : Dev nD) → (b : Ref sig .tc) → Buf (Elt F) ((c : Thread nD τ).loc b))

/-! ## What each case leaves in the row-sum buffer -/

/-- Case A's pieces cover the 512x7 block: one of them, the zero fill, is the whole block (checked by evaluation). -/
theorem coverA (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : firstCol i)
    (x0 : Vec F S512x128 .bf16) (x1 : Vec F S512x128 .bf16) (x2 : Vec F S1024x128 .bf16) (x3 : Vec F S1024x128 .bf16) (x4 : Vec F S512x1024 .f32) (y : S512x7.Idx) :
    ∃ pc ∈ (runA c i a0 h0 a1 h1 a2 h2 a3 h3 a4 h4 a5 h5 hc x0 x1 x2 x3 x4).1, y ∈ pc.1.set :=
  View.cover_of_tiledL (runA c i a0 h0 a1 h1 a2 h2 a3 h3 a4 h4 a5 h5 hc x0 x1 x2 x3 x4).1 S512x7.size (by sl_kernel_rfl) y

/-- What case A leaves in the row-sum buffer: its pieces read back (over contents that do not matter, being covered). -/
def outA (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : firstCol i)
    (x0 : Vec F S512x128 .bf16) (x1 : Vec F S512x128 .bf16) (x2 : Vec F S1024x128 .bf16) (x3 : Vec F S1024x128 .bf16) (x4 : Vec F S512x1024 .f32) : Vec F S512x7 .f32 :=
  VOut.read (Elt F) (VOut.writes (Elt F) VOut.junk (runA c i a0 h0 a1 h1 a2 h2 a3 h3 a4 h4 a5 h5 hc x0 x1 x2 x3 x4).1)

/-- Case B's pieces tile the 512x7 block in blocks of one 512x1 column (its seven columns), so they cover it. -/
theorem coverB (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : ¬firstCol i)
    (x0 : Vec F S512x128 .bf16) (x1 : Vec F S512x128 .bf16) (x2 : Vec F S1024x128 .bf16) (x3 : Vec F S1024x128 .bf16) (x4 : Vec F S512x1024 .f32) (xo : Vec F S512x7 .f32) (y : S512x7.Idx) :
    ∃ pc ∈ (runB c i a0 h0 a1 h1 a2 h2 a3 h3 a4 h4 a5 h5 hc x0 x1 x2 x3 x4 xo).1, y ∈ pc.1.set :=
  View.cover_of_tiledL (runB c i a0 h0 a1 h1 a2 h2 a3 h3 a4 h4 a5 h5 hc x0 x1 x2 x3 x4 xo).1 S512x1.size (by sl_kernel_rfl) y

/-- What case B leaves in the row-sum buffer that held `xo`: its pieces read back. -/
def outB (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : ¬firstCol i)
    (x0 : Vec F S512x128 .bf16) (x1 : Vec F S512x128 .bf16) (x2 : Vec F S1024x128 .bf16) (x3 : Vec F S1024x128 .bf16) (x4 : Vec F S512x1024 .f32) (xo : Vec F S512x7 .f32) : Vec F S512x7 .f32 :=
  VOut.read (Elt F) (VOut.writes (Elt F) VOut.junk (runB c i a0 h0 a1 h1 a2 h2 a3 h3 a4 h4 a5 h5 hc x0 x1 x2 x3 x4 xo).1)

/-! ## The running row sums, point by point -/

/-- What the row-sum window's staging buffer holds after the body at point `n`: at the first column block of a row
    block, case A's contents; otherwise case B's over what the body left at point `n - 1`. -/
def acc (c : Dev nD) : (n : ℕ) → n < cfg0.N → Vec F S512x7 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((firstCol_iff ⟨0, hn⟩).mpr (Nat.zero_mod _)) (blk V c 0 ⟨0, hn⟩) (blk V c 1 ⟨0, hn⟩) (blk V c 2 ⟨0, hn⟩) (blk V c 3 ⟨0, hn⟩) (blk V c 4 ⟨0, hn⟩)
  | n + 1, hn =>
    if h : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((firstCol_iff ⟨n + 1, hn⟩).mpr h) (blk V c 0 ⟨n + 1, hn⟩) (blk V c 1 ⟨n + 1, hn⟩) (blk V c 2 ⟨n + 1, hn⟩) (blk V c 3 ⟨n + 1, hn⟩) (blk V c 4 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun hc => h ((firstCol_iff ⟨n + 1, hn⟩).mp hc)) (blk V c 0 ⟨n + 1, hn⟩) (blk V c 1 ⟨n + 1, hn⟩) (blk V c 2 ⟨n + 1, hn⟩) (blk V c 3 ⟨n + 1, hn⟩) (blk V c 4 ⟨n + 1, hn⟩) (acc c n (Nat.lt_of_succ_lt hn))

/-- At a point of the first column block the running sums restart: case A's contents. -/
theorem acc_reset (c : Dev nD) (t : Fin cfg0.N) (h : t.val % 8 = 0) :
    acc V c t.val t.isLt = outA c (grid0.coords t) (ms0 t) (hs0 t) (ms1 t) (hs1 t) (ms2 t) (hs2 t) (ms3 t) (hs3 t) (ms4 t) (hs4 t) (ms5 t) (hs5 t) ((firstCol_iff t).mpr h) (blk V c 0 t) (blk V c 1 t) (blk V c 2 t) (blk V c 3 t) (blk V c 4 t) := by
  obtain ⟨n, hn⟩ := t
  cases n with
  | zero => exact rfl
  | succ n => exact (dif_pos h).trans rfl

/-- At any other point they continue: case B's contents over what the point before left. -/
theorem acc_step (c : Dev nD) (t : Fin cfg0.N) (h : t.val % 8 ≠ 0) :
    acc V c t.val t.isLt = outB c (grid0.coords t) (ms0 t) (hs0 t) (ms1 t) (hs1 t) (ms2 t) (hs2 t) (ms3 t) (hs3 t) (ms4 t) (hs4 t) (ms5 t) (hs5 t) (fun hc => h ((firstCol_iff t).mp hc)) (blk V c 0 t) (blk V c 1 t) (blk V c 2 t) (blk V c 3 t) (blk V c 4 t) (acc V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (dif_neg h).trans rfl

/-! ## The pipeline's proof data -/

/-- The proof data on core `c`: the arrays as the region finds them; after the body at point `t` each input's buffer
    at its block and the row-sum buffer at `acc`; the invariant that of a body touching only its staging buffers;
    nothing owed. The two feature arrays are each staged by two windows (a row block and a column block), which hold
    the array's two half shares; the mask's window holds its array whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => acc V c t.val t.isLt
  Φ _ := Pipeline.ΦA spec0 c
  q := fun w => match w with
    | ⟨0, _⟩ | ⟨1, _⟩ => fullShare.left
    | ⟨2, _⟩ | ⟨3, _⟩ => fullShare.right
    | _ => fullShare
  owed _ := 0

/-- The proof data's arrays are the region-entry contents. -/
theorem dat_A (c : Dev nD) (w : Fin cfg0.W) : (dat V c).A w = V c (Pipeline.arrRef spec0 w) := by
  dsimp only [dat]

/-- What the body leaves, window by window. -/
theorem dat_after0 (c : Dev nD) (t : Fin cfg0.N) : (dat V c).after 0 t = blk V c 0 t := by dsimp only [dat]
theorem dat_after1 (c : Dev nD) (t : Fin cfg0.N) : (dat V c).after 1 t = blk V c 1 t := by dsimp only [dat]
theorem dat_after2 (c : Dev nD) (t : Fin cfg0.N) : (dat V c).after 2 t = blk V c 2 t := by dsimp only [dat]
theorem dat_after3 (c : Dev nD) (t : Fin cfg0.N) : (dat V c).after 3 t = blk V c 3 t := by dsimp only [dat]
theorem dat_after4 (c : Dev nD) (t : Fin cfg0.N) : (dat V c).after 4 t = blk V c 4 t := by dsimp only [dat]
theorem dat_after5 (c : Dev nD) (t : Fin cfg0.N) : (dat V c).after 5 t = acc V c t.val t.isLt := by dsimp only [dat]

/-- Each input's current staging buffer holds its block at every point. -/
theorem before0 (c : Dev nD) (t : Fin cfg0.N) (d) : (dat V c).before 0 t d = blk V c 0 t :=
  before_in0 V (dat V c) (dat_A V c 0) (dat_after0 V c) t d
theorem before1 (c : Dev nD) (t : Fin cfg0.N) (d) : (dat V c).before 1 t d = blk V c 1 t :=
  before_in1 V (dat V c) (dat_A V c 1) (dat_after1 V c) t d
theorem before2 (c : Dev nD) (t : Fin cfg0.N) (d) : (dat V c).before 2 t d = blk V c 2 t :=
  before_in2 V (dat V c) (dat_A V c 2) (dat_after2 V c) t d
theorem before3 (c : Dev nD) (t : Fin cfg0.N) (d) : (dat V c).before 3 t d = blk V c 3 t :=
  before_in3 V (dat V c) (dat_A V c 3) (dat_after3 V c) t d
theorem before4 (c : Dev nD) (t : Fin cfg0.N) (d) : (dat V c).before 4 t d = blk V c 4 t :=
  before_in4 V (dat V c) (dat_A V c 4) (dat_after4 V c) t d

/-- At a point past the first column block the row-sum buffer holds what the body left at the point before: the
    point is not the first, and the point before, not being a last column block, wrote nothing back. -/
theorem before5_step (c : Dev nD) (t : Fin cfg0.N) (h : t.val % 8 ≠ 0) (d) :
    (dat V c).before 5 t d = acc V c (t.val - 1) (Nat.lt_of_le_of_lt (Nat.sub_le _ _) t.isLt) := by
  have hN : t.val < 128 := lt_of_lt_of_eq t.isLt (show cfg0.N = 128 from N_0)
  rw [Dat.before_out_kept _ 5 rfl t (by omega) (Bool.eq_false_iff.mpr fun hf => by have := (flush0_5 _).mp hf; dsimp only at this; omega)
    (fun _ => rfl) (fun _ _ => rfl)]
  dsimp only [dat]

/-! ## The body obligation -/

/-- What the body is called with at point `t`: the invariant, nothing owed, and each window's current staging buffer
    at what it then holds; -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns: the same with each buffer at what the proof data says the body leaves. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 1600000 in
/-- The body at any point. The inputs' buffers hold their blocks; the point's column block decides the case; in case B
    the row-sum buffer holds what the point before left; so the case's run applies, and the pieces it writes, covering
    the block, read back as the case's contents. The invariant and the (empty) debt pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).Φ t.succ = (dat V c).Φ t.castSucc from rfl,
    show (dat V c).owesAt () t.succ = (dat V c).owesAt () t.castSucc from rfl,
    dat_after0, dat_after1, dat_after2, dat_after3, dat_after4, dat_after5]
  by_cases h : t.val % 8 = 0
  · rw [acc_reset V c t h]
    unfold outA
    iintro ⟨HΦ, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ ((firstCol_iff t).mpr h) (blk V c 0 t) (blk V c 1 t) (blk V c 2 t) (blk V c 3 t) (blk V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c _ _ _ _ _ _ _ _ _ _ _ _ _ _ _ _ _ _ _)
  · rw [acc_step V c t h]
    simp only [before5_step V c t h]
    unfold outB
    iintro ⟨HΦ, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ (fun hc => h ((firstCol_iff t).mp hc)) (blk V c 0 t) (blk V c 1 t) (blk V c 2 t) (blk V c 3 t) (blk V c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB c _ _ _ _ _ _ _ _ _ _ _ _ _ _ _ _ _ _ _ _)

/-- The pipeline's body obligation, at every point. -/
theorem body_ob (c : Dev nD) : BodyObligation (dat (F := F) V c) (defs₀ (F := F)) Variants.none () Set.univ := fun t => by
  rw [bigSep_W0, bigSep_W0]
  exact sound_body V c t

end Cert.KernelIdeal.Frame

end
-- ==== Proof.KiLaunch.lean ====
/-
  The run of the whole program: 22 host operations (the two row normalisations and their narrowing), the kernel
  region, 51 host operations (the columns of the region's result turned into the loss).  The buffer contents are
  followed from the launch memory through the three stretches; the region leaves every buffer as it found it but
  its result array.
-/
import proofs.«171571_j44796508897300_1_alg».proof.Proof.Gen.KernelIdeal.Launch
import proofs.«171571_j44796508897300_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«171571_j44796508897300_1_alg».proof.Proof.KiShares
import proofs.«171571_j44796508897300_1_alg».proof.Proof.KiBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the region. -/
abbrev W1 : Dev nD → Valuation τ sig (Elt F) := fun c => StableHlo.after hostOps0 (W0 m ρ c)
/-- The same read at the TensorCore's references: what the region is entered from. -/
abbrev V1 : (c : Dev nD) → (b : Ref sig .tc) → Buf (Elt F) ((c : Thread nD τ).loc b) := fun c b => W1 m ρ c b
/-- At the region's exit: the result array at what the write-backs leave, every other buffer as entered. -/
def W2 (c : Dev nD) : Valuation τ sig (Elt F) :=
  Function.update (W1 m ρ c) (Proc.devRef .tc main_v18) ((dat (V1 m ρ) c).arrAt 5 cfg0.N)
abbrev V2 : (c : Dev nD) → (b : Ref sig .tc) → Buf (Elt F) ((c : Thread nD τ).loc b) := fun c b => W2 m ρ c b
/-- After the host operations behind the region: the final contents. -/
abbrev W3 : Dev nD → Valuation τ sig (Elt F) := fun c => StableHlo.after hostOps1 (W2 m ρ c)

theorem W2_result (c : Dev nD) : W2 m ρ c (Proc.devRef .tc main_v18) = (dat (V1 m ρ) c).arrAt 5 cfg0.N := by
  unfold W2; exact Function.update_self ..
theorem W2_of_ne (c : Dev nD) (b : Ref sig .tc) (hb : b ≠ main_v18) : W2 m ρ c (Proc.devRef .tc b) = W1 m ρ c (Proc.devRef .tc b) := by
  unfold W2; exact Function.update_of_ne (fun e => hb (Proc.devRef_injective _ e)) ..

/-- The shares the proof data name are the two halves for the two readers of one array. -/
theorem dat_q (V : (c : Dev nD) → (b : Ref sig .tc) → Buf (Elt F) ((c : Thread nD τ).loc b)) (c : Dev nD) : (dat V c).q = qsh := by
  funext w
  match w with
  | ⟨0, _⟩ => rfl
  | ⟨1, _⟩ => rfl
  | ⟨2, _⟩ => rfl
  | ⟨3, _⟩ => rfl
  | ⟨4, _⟩ => rfl
  | ⟨5, _⟩ => rfl

/-! ## The proof data family and the thread state -/

/-- No pipeline prefetches a table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation before the region allocates a buffer. -/
theorem hostOps0_fresh : (hostOps0 : List (HloOp τ sig (Elt F))).Forall fun op => op.fresh = ∅ := by
  simp only [List.Forall]; repeat' constructor
/-- No operation behind the region allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents, the generator register. -/
abbrev Tₙ (c : Dev nD) : sProp 𝕄 := iprop(StableHlo.held (c : Thread nD τ) (Pipeline.ucRefs τ sig) (W3 m ρ c) ∗ ∃ r, prngReg c r)

/-- An input window's array is never written: it ends as the region found it. -/
theorem arrAt_in (c : Dev nD) (w : Fin cfg0.W) (hw : (cfg0.win w).isOut = false) :
    (dat (V1 m ρ) c).arrAt w cfg0.N = V1 m ρ c (Pipeline.arrRef spec0 w) :=
  ((dat (V1 m ρ) c).arrAt_in w hw _).trans (dat_A (V1 m ρ) c w)

/-! ## The region as a segment -/

set_option backward.isDefEq.respectTransparency.types false in
/-- The region over the thread state: entered from every unscoped buffer at `W1`, left at `W2`.  The six windows'
    arrays are split out of the unscoped buffers at their shares and put back at the exit contents; the generator
    register passes through the invariant; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_ob (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_bufs c (V1 m ρ c) (dat (V1 m ρ) c) (dat_q _ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arrays c (V1 m ρ c) (dat (V1 m ρ) c) (dat_q _ c) (V2 m ρ c) ((dat (V1 m ρ) c).arrAt · cfg0.N)
      (arrAt_in m ρ c 0 rfl) (arrAt_in m ρ c 1 rfl) (arrAt_in m ρ c 2 rfl) (arrAt_in m ρ c 3 rfl) (arrAt_in m ρ c 4 rfl)
      (W2_result m ρ c).symm (fun b hb => W2_of_ne m ρ c b hb)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds, at every unscoped buffer of every core, the contents followed through the three stretches. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Frame

end
-- ==== Proof.KiHostArgs.lean ====
/-
  The host operations around the region leave the arguments alone.

  Every host operation writes one buffer, its own result; none of them is an argument of @main, the region's
  result, or (after the region) one of the two narrowed feature arrays.  So the contents of those buffers after
  either stretch of host operations are the contents before it, at every float instance.
-/
import proofs.«171571_j44796508897300_1_alg».proof.Proof.Gen.KernelIdeal.Launch
import Idealize.ShloMosaic.Lib.StableHlo.Run

noncomputable section

namespace Cert.KernelIdeal.HostValue

open Cert.KernelIdeal Cert.KernelIdeal.Gen Idealize.ShloMosaic Idealize.ShloMosaic.TcCoe Idealize.SL.Sem

variable {F : FTy → Type} [FloatOps F]

/-! ## Before the region: the three arguments keep their contents -/

theorem pre_arg0 (W : Valuation τ sig (Elt F)) :
    StableHlo.after (hostOps0 (F := F)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

theorem pre_arg1 (W : Valuation τ sig (Elt F)) :
    StableHlo.after (hostOps0 (F := F)) W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

theorem pre_arg2 (W : Valuation τ sig (Elt F)) :
    StableHlo.after (hostOps0 (F := F)) W (Proc.devRef .tc main_arg2) = W (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-! ## After the region: the three arguments, the region's result and the two narrowed feature arrays keep theirs -/

theorem tail_arg0 (W : Valuation τ sig (Elt F)) :
    StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_arg1 (W : Valuation τ sig (Elt F)) :
    StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_arg2 (W : Valuation τ sig (Elt F)) :
    StableHlo.after (hostOps1 (F := F)) W (Proc.devRef .tc main_arg2) = W (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_v18 (W : Valuation τ sig (Elt F)) :
    StableHlo.after (hostOps1 (F := F)) W (Proc.devRef .tc main_v18) = W (Proc.devRef .tc main_v18) :=
  StableHlo.after_of_forall_not_mem (b := Proc.devRef .tc main_v18) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_v16 (W : Valuation τ sig (Elt F)) :
    StableHlo.after (hostOps1 (F := F)) W (Proc.devRef .tc main_v16) = W (Proc.devRef .tc main_v16) :=
  StableHlo.after_of_forall_not_mem (b := Proc.devRef .tc main_v16) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_v17 (W : Valuation τ sig (Elt F)) :
    StableHlo.after (hostOps1 (F := F)) W (Proc.devRef .tc main_v17) = W (Proc.devRef .tc main_v17) :=
  StableHlo.after_of_forall_not_mem (b := Proc.devRef .tc main_v17) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end Cert.KernelIdeal.HostValue

end
-- ==== Proof.KiArgs.lean ====
/-
  The frame: no host operation writes an argument array and the region only reads them, so each argument's buffer,
  followed through the three stretches, ends at its launch contents.
-/
import proofs.«171571_j44796508897300_1_alg».proof.Proof.Gen.KernelIdeal.Launch
import proofs.«171571_j44796508897300_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«171571_j44796508897300_1_alg».proof.Proof.KiLaunch
import proofs.«171571_j44796508897300_1_alg».proof.Proof.KiHostArgs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.HostValue

variable (m : (ℓ : Loc nD τ sig) → Buf (Elt F) ℓ) (ρ : Dev nD → PrngReg)

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := tail_arg0 (W2 m ρ c)
    _ = W1 m ρ c (Proc.devRef .tc main_arg0) := W2_of_ne m ρ c main_arg0 (by decide)
    _ = W0 m ρ c (Proc.devRef .tc main_arg0) := pre_arg0 (W0 m ρ c)
    _ = m ((c : Thread nD τ).loc main_arg0) := rfl

theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := tail_arg1 (W2 m ρ c)
    _ = W1 m ρ c (Proc.devRef .tc main_arg1) := W2_of_ne m ρ c main_arg1 (by decide)
    _ = W0 m ρ c (Proc.devRef .tc main_arg1) := pre_arg1 (W0 m ρ c)
    _ = m ((c : Thread nD τ).loc main_arg1) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := tail_arg2 (W2 m ρ c)
    _ = W1 m ρ c (Proc.devRef .tc main_arg2) := W2_of_ne m ρ c main_arg2 (by decide)
    _ = W0 m ρ c (Proc.devRef .tc main_arg2) := pre_arg2 (W0 m ρ c)
    _ = m ((c : Thread nD τ).loc main_arg2) := rfl

/-- Every weakly fair execution terminates, nothing faulting, with the result at the contents followed through the
    run and the three argument arrays as launched. -/
theorem run_result : θ_run defs (onTc (τ := τ) (main (F := F))) ⟨m, fun _ => 0, ρ⟩ (fun r => ∀ c : Dev nD,
      r.2.mem ((c.tc : Thread nD τ).loc main_v60) = W3 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c _ (mem_uc main_v60 (by decide)),
      (h c _ (mem_uc main_arg0 (by decide))).trans (W3_arg0 m ρ c),
      (h c _ (mem_uc main_arg1 (by decide))).trans (W3_arg1 m ρ c),
      (h c _ (mem_uc main_arg2 (by decide))).trans (W3_arg2 m ρ c)⟩) (run_all m ρ)

/-- The frame claim's run. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_result m ρ)

end Cert.KernelIdeal.Frame

end
-- ==== Proof.Spec.lean ====
/-
  The paired contrastive loss as ONE function of the three argument arrays, on the extended reals.

  Rows of the two feature arrays are divided by max(‖row‖, 1e-12) (`nrm`).  For a pair (r, k) of rows,
  `sim u v r k = exp ⟨u_r, v_k⟩`, `off r k` is 0 on the diagonal and 1 off it.  Seven sums over k are
  taken for each row r (`col`):
      0:  m + off·m          1:  sim₁₂·m          2:  sim₁₂·(1 − m)
      3:  sim₁₁·(off·m)      4:  sim₁₁·(off·(1 − m))
      5:  sim₂₂·(off·m)      6:  sim₂₂·(off·(1 − m))
  with m the mask entry at (r, k).  The loss (`tail`) is the mean over rows of
  −log((P + ε) / (P + N + ε)) / D for (P, N) = (col 1 + col 3, col 2 + col 4) and
  (col 1 + col 5, col 2 + col 6), D = col 0, the two means averaged.
-/
import Idealize.ShloMosaic.PureOps
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx
open scoped BigOperators

abbrev SF : Shape := ⟨2, ![8192, 128]⟩
abbrev SM : Shape := ⟨2, ![8192, 8192]⟩
abbrev SR : Shape := ⟨1, ![8192]⟩
abbrev SC : Shape := ⟨2, ![8192, 1]⟩
abbrev S0 : Shape := ⟨0, ![]⟩

abbrev Feat := FVec Ideal SF .f32
abbrev Mask := FVec Ideal SM .f32
abbrev Rows := FVec Ideal SR .f32

/-- The relations between the literal shapes that the whole-array operations below take as evidence. -/
structure ShapeFacts : Prop where
  red : SF.ReducesTo [1] SR
  pos0 : 0 < S0.numel
  b1 : SR.BroadcastsInDim SC (![0] : Fin 1 → Fin SC.rank)
  b2 : S0.BroadcastsInDim SC (![] : Fin 0 → Fin SC.rank)
  b3 : SC.BroadcastsInDim SF (![0, 1] : Fin 2 → Fin SF.rank)
  b4 : S0.BroadcastsInDim SR (![] : Fin 0 → Fin SR.rank)
  red0 : SR.ReducesTo [0] S0

/-- Each row divided by the larger of its Euclidean norm and 1e-12. -/
def nrm (h : ShapeFacts) (x : Feat) : Feat :=
  Host.divf x (broadcastInDim SF ![0, 1] h.b3
    (maximumf (Host.sqrt (broadcastInDim SC ![0] h.b1 (Host.reduceAdd (mulf x x) (constant S0 .f32 0x00000000#32) h.red h.pos0)))
      (broadcastInDim SC ![] h.b2 (constant S0 .f32 0x2B8CBCCC#32))))

/-- The float 1.0. -/
abbrev one : EReal := Ideal.ofBits .f32 0x3F800000#32

/-- exp of the inner product of row `r` of `u` with row `k` of `v`. -/
def sim (u v : Feat) (r k : Fin 8192) : EReal := Ideal.exp (∑ d : Fin 128, u (ix2 r d) * v (ix2 k d))

/-- 0 on the diagonal, 1.0 off it. -/
def off (r k : Fin 8192) : EReal := if r.val = k.val then 0 else one

/-- The seven summands at the pair (r, k). -/
def term (a b : Feat) (mk : Mask) (r k : Fin 8192) : Fin 7 → EReal
  | ⟨0, _⟩ => mk (ix2 r k) + off r k * mk (ix2 r k)
  | ⟨1, _⟩ => sim a b r k * mk (ix2 r k)
  | ⟨2, _⟩ => sim a b r k * (one - mk (ix2 r k))
  | ⟨3, _⟩ => sim a a r k * (off r k * mk (ix2 r k))
  | ⟨4, _⟩ => sim a a r k * (off r k * (one - mk (ix2 r k)))
  | ⟨5, _⟩ => sim b b r k * (off r k * mk (ix2 r k))
  | ⟨6, _⟩ => sim b b r k * (off r k * (one - mk (ix2 r k)))

/-- The seven row sums. -/
def col (a b : Feat) (mk : Mask) (c : Fin 7) : Rows := fun i => ∑ k : Fin 8192, term a b mk (i 0) k c

/-- One of the two losses: the mean over rows of log((P + ε)/(P + N + ε)) / D, negated. -/
def half (h : ShapeFacts) (D P N : Rows) : FVec Ideal S0 .f32 :=
  Host.negf (Host.divf
    (Host.reduceAdd
      (Host.divf (Host.log (Host.divf (addf P (broadcastInDim SR ![] h.b4 (constant S0 .f32 0x322BCC77#32)))
        (addf (addf P N) (broadcastInDim SR ![] h.b4 (constant S0 .f32 0x322BCC77#32))))) D)
      (constant S0 .f32 0x00000000#32) h.red0 h.pos0)
    (constant S0 .f32 0x46000000#32))

/-- The loss from the seven row sums. -/
def tail (h : ShapeFacts) (c0 c1 c2 c3 c4 c5 c6 : Rows) : FVec Ideal S0 .f32 :=
  mulf (addf (half h c0 (addf c1 c3) (addf c2 c4)) (half h c0 (addf c1 c5) (addf c2 c6))) (constant S0 .f32 0x3F000000#32)

/-- The loss as a function of the three arguments. -/
def loss (h : ShapeFacts) (x1 x2 : Feat) (mk : Mask) : FVec Ideal S0 .f32 :=
  tail h (col (nrm h x1) (nrm h x2) mk 0) (col (nrm h x1) (nrm h x2) mk 1) (col (nrm h x1) (nrm h x2) mk 2)
    (col (nrm h x1) (nrm h x2) mk 3) (col (nrm h x1) (nrm h x2) mk 4) (col (nrm h x1) (nrm h x2) mk 5)
    (col (nrm h x1) (nrm h x2) mk 6)

end Cert.Loss

end
-- ==== Proof.KiHostPre.lean ====
/-
  The host operations before the region compute the two normalised feature arrays.

  The region's first two inputs are the arguments' rows divided by max(‖row‖, 1e-12), then narrowed to bf16.
  On the extended reals a change of float format is the identity, so what the region reads is
  `Cert.Loss.nrm` of each argument: the same operations in the same order.
-/
import proofs.«171571_j44796508897300_1_alg».proof.Proof.Gen.KernelIdeal.Launch
import proofs.«171571_j44796508897300_1_alg».proof.Proof.Spec
import Idealize.ShloMosaic.Lib.StableHlo.Run
import Idealize.ShloMosaic.PureOps.Ideal.Laws

noncomputable section

namespace Cert.KernelIdeal.HostValue

open Cert.KernelIdeal Cert.KernelIdeal.Gen Idealize.ShloMosaic Idealize.ShloMosaic.TcCoe Idealize.SL.Sem

/-- The relations between the literal shapes, as the kernel's program states them. -/
theorem shapeFacts : Cert.Loss.ShapeFacts where
  red := reducesTo_S8192x128_S8192_d1
  pos0 := h_S_
  b1 := bcast_S8192_S8192x1_0
  b2 := bcast_S_S8192x1
  b3 := bcast_S8192x1_S8192x128_0_1
  b4 := bcast_S_S8192
  red0 := reducesTo_S8192_S_d0

/-- The first narrowed feature array is the normalised first argument. -/
theorem pre_v16 (W : Valuation τ sig (Elt Ideal)) :
    (StableHlo.after (hostOps0 (F := Ideal)) W (Proc.devRef .tc main_v16) : S8192x128.Idx → EReal)
      = Cert.Loss.nrm shapeFacts (W (Proc.devRef .tc main_arg0)) := by
  show StableHlo.after hostOps0 _ (Proc.devRef .tc main_v16) = _
  after_results
  rfl

/-- The second narrowed feature array is the normalised second argument. -/
theorem pre_v17 (W : Valuation τ sig (Elt Ideal)) :
    (StableHlo.after (hostOps0 (F := Ideal)) W (Proc.devRef .tc main_v17) : S8192x128.Idx → EReal)
      = Cert.Loss.nrm shapeFacts (W (Proc.devRef .tc main_arg1)) := by
  show StableHlo.after hostOps0 _ (Proc.devRef .tc main_v17) = _
  after_results
  rfl

end Cert.KernelIdeal.HostValue

end
-- ==== Proof.KiHostTail.lean ====
/-
  The host operations after the region turn the region's [8192, 7] result into the loss.

  Each of the seven columns is taken as a slice [0:8192, c:c+1] and reshaped to [8192]; a reshape keeps the
  row-major position, so row r of the reshaped slice is the entry (r, c) of the result.  The remaining operations
  are `Cert.Loss.tail` of the seven columns, operation for operation.
-/
import proofs.«171571_j44796508897300_1_alg».proof.Proof.KiHostPre
import Idealize.ShloMosaic.Lib.Pipeline.Value
import Idealize.ShloMosaic.Lib.ValueIdx
import Idealize.ShloMosaic.Lib.ValueLayout

noncomputable section

namespace Cert.KernelIdeal.HostValue

open Cert.KernelIdeal Cert.KernelIdeal.Gen Idealize.ShloMosaic Idealize.ShloMosaic.TcCoe Idealize.ShloMosaic.ValueIdx Idealize.SL.Sem
open scoped BigOperators

/-- Column `c` of the region's [8192, 7] result, as an array over the rows. -/
def colOf (o : FVec Ideal S8192x7 .f32) (c : Fin 7) : Cert.Loss.Rows := fun i => o (ix2 (i 0) c)

/-- The slice [0:8192, c:c+1] reshaped to [8192] is column c: row r of the reshaped array sits at row-major
    position r of the [8192, 1] slice, which is its entry (r, 0), which is the entry (r, c) of the whole array. -/
theorem slice_col (o : S8192x7.Idx → EReal) (off : Nat) (hoff : off < 7) (h : S8192x7.Slices ![0, off] S8192x1)
    (hc : S8192x1.ShapeCasts S8192) :
    shapeCast S8192 (extractStridedSlice S8192x1 ![0, off] o h) hc = colOf o ⟨off, hoff⟩ := by
  funext i
  obtain ⟨r, rfl⟩ : ∃ r : Fin 8192, i = ix1 r := ⟨i 0, eq_ix1 i⟩
  rw [shapeCast_apply _ hc (ix1 r) (ix2 r (0 : Fin 1)) (by
    rw [Shape.rowMajor_val_two, Shape.rowMajor_val_one]
    show r.val * 1 + 0 = r.val
    omega)]
  rw [extractStridedSlice_apply ![0, off] o h (ix2 r (0 : Fin 1)) (ix2 r (⟨off, hoff⟩ : Fin 7)) (fun a => by
    match a with
    | ⟨0, _⟩ => show r.val = 0 + r.val; omega
    | ⟨1, _⟩ => show off = off + 0; rfl)]
  rfl

/-- The host operations after the region are `Cert.Loss.tail` of the seven columns of the region's result. -/
theorem tail_v60 (W : Valuation τ sig (Elt Ideal)) :
    (StableHlo.after (hostOps1 (F := Ideal)) W (Proc.devRef .tc main_v60) : S_.Idx → EReal)
      = Cert.Loss.tail shapeFacts (colOf (W (Proc.devRef .tc main_v18)) 0) (colOf (W (Proc.devRef .tc main_v18)) 1) (colOf (W (Proc.devRef .tc main_v18)) 2) (colOf (W (Proc.devRef .tc main_v18)) 3)
          (colOf (W (Proc.devRef .tc main_v18)) 4) (colOf (W (Proc.devRef .tc main_v18)) 5) (colOf (W (Proc.devRef .tc main_v18)) 6) := by
  show StableHlo.after hostOps1 _ (Proc.devRef .tc main_v60) = _
  rw [show colOf (W (Proc.devRef .tc main_v18)) 0 = shapeCast S8192 (extractStridedSlice S8192x1 ![0, 0] (W (Proc.devRef .tc main_v18)) slices_S8192x7_S8192x1_0_0) shapeCasts_S8192x1_S8192
      from (slice_col _ 0 (by decide) _ _).symm,
    show colOf (W (Proc.devRef .tc main_v18)) 1 = shapeCast S8192 (extractStridedSlice S8192x1 ![0, 1] (W (Proc.devRef .tc main_v18)) slices_S8192x7_S8192x1_0_1) shapeCasts_S8192x1_S8192
      from (slice_col _ 1 (by decide) _ _).symm,
    show colOf (W (Proc.devRef .tc main_v18)) 2 = shapeCast S8192 (extractStridedSlice S8192x1 ![0, 2] (W (Proc.devRef .tc main_v18)) slices_S8192x7_S8192x1_0_2) shapeCasts_S8192x1_S8192
      from (slice_col _ 2 (by decide) _ _).symm,
    show colOf (W (Proc.devRef .tc main_v18)) 3 = shapeCast S8192 (extractStridedSlice S8192x1 ![0, 3] (W (Proc.devRef .tc main_v18)) slices_S8192x7_S8192x1_0_3) shapeCasts_S8192x1_S8192
      from (slice_col _ 3 (by decide) _ _).symm,
    show colOf (W (Proc.devRef .tc main_v18)) 4 = shapeCast S8192 (extractStridedSlice S8192x1 ![0, 4] (W (Proc.devRef .tc main_v18)) slices_S8192x7_S8192x1_0_4) shapeCasts_S8192x1_S8192
      from (slice_col _ 4 (by decide) _ _).symm,
    show colOf (W (Proc.devRef .tc main_v18)) 5 = shapeCast S8192 (extractStridedSlice S8192x1 ![0, 5] (W (Proc.devRef .tc main_v18)) slices_S8192x7_S8192x1_0_5) shapeCasts_S8192x1_S8192
      from (slice_col _ 5 (by decide) _ _).symm,
    show colOf (W (Proc.devRef .tc main_v18)) 6 = shapeCast S8192 (extractStridedSlice S8192x1 ![0, 6] (W (Proc.devRef .tc main_v18)) slices_S8192x7_S8192x1_0_6) shapeCasts_S8192x1_S8192
      from (slice_col _ 6 (by decide) _ _).symm]
  after_results_simp
  rfl

end Cert.KernelIdeal.HostValue

end
-- ==== Proof.KiValue.lean ====
/-
  The kernel's result on the extended reals: the host operations behind the region apply the loss's closing
  operations to the seven columns of the region's result, each column a row sum of the spec; the two arrays the
  region reads are the row-normalised arguments.
-/
import proofs.«171571_j44796508897300_1_alg».proof.Proof.Gen.KernelIdeal.Launch
import proofs.«171571_j44796508897300_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«171571_j44796508897300_1_alg».proof.Proof.KiArgs
import proofs.«171571_j44796508897300_1_alg».proof.Proof.KiHostTail
import proofs.«171571_j44796508897300_1_alg».proof.Proof.Spec

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.HostValue Idealize.ShloMosaic.ValueIdx

variable (m : (ℓ : Loc nD τ sig) → Buf (Elt Ideal) ℓ) (ρ : Dev nD → PrngReg)

/-- A column of the array of row sums is that row sum. -/
theorem colOf_cols (a b : Cert.Loss.Feat) (mk : Cert.Loss.Mask) (k : Fin 7) :
    colOf (fun j => Cert.Loss.col a b mk (j 1) (ix1 (j 0))) k = Cert.Loss.col a b mk k := by
  funext i
  exact congrArg (Cert.Loss.col a b mk k) (eq_ix1 (n := 8192) i).symm

/-- The kernel's result, given the region's result array as the array of the seven row sums. -/
theorem W3_loss (c : Dev nD)
    (hres : ((dat (V1 m ρ) c).arrAt 5 cfg0.N : S8192x7.Idx → EReal)
      = fun j => Cert.Loss.col (V1 m ρ c main_v16) (V1 m ρ c main_v17) (V1 m ρ c main_arg2) (j 1) (ix1 (j 0))) :
    (W3 m ρ c (Proc.devRef .tc main_v60) : S_.Idx → EReal)
      = Cert.Loss.loss shapeFacts (m ((c : Thread nD τ).loc main_arg0)) (m ((c : Thread nD τ).loc main_arg1)) (m ((c : Thread nD τ).loc main_arg2)) := by
  have h16 : (V1 m ρ c main_v16 : S8192x128.Idx → EReal) = Cert.Loss.nrm shapeFacts (m ((c : Thread nD τ).loc main_arg0)) := pre_v16 (W0 m ρ c)
  have h17 : (V1 m ρ c main_v17 : S8192x128.Idx → EReal) = Cert.Loss.nrm shapeFacts (m ((c : Thread nD τ).loc main_arg1)) := pre_v17 (W0 m ρ c)
  have h2 : (V1 m ρ c main_arg2 : S8192x8192.Idx → EReal) = m ((c : Thread nD τ).loc main_arg2) := pre_arg2 (W0 m ρ c)
  rw [show W3 m ρ c = StableHlo.after hostOps1 (W2 m ρ c) from rfl, tail_v60 (W2 m ρ c), W2_result m ρ c, hres, h16, h17, h2]
  simp only [colOf_cols]
  rfl

end Cert.KernelIdeal.Frame

end
-- ==== Proof.KiPieces.lean ====
/- What each case of the body leaves in the 512x7 block of row sums, in closed form.
   Column k of the block (k = 0 … 6) receives its old contents plus the row sums, over this point's 1024 columns,
   of one 512x1024 product of the point's input blocks (the seven products are the payloads named below). In case B
   the old contents are what the point before left; in case A they are the zero block the body has just stored.
   So both cases leave the same seven column pieces over a block `o` of old contents (`cols`), and case A's list
   ends with the zero fill, which the seven columns cover. -/
import proofs.«171571_j44796508897300_1_alg».proof.Proof.KiBody
import Idealize.ShloMosaic.Lib.Pipeline.Value

-- membership of an index in a rectangle of a 512-row block is checked coordinate by coordinate
set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered; never unfolded here
variable (V : (c : Dev nD) → (b : Ref sig .tc) → Buf (Elt F) ((c : Thread nD τ).loc b))

/-- The whole-block offsets are zero, however spelt. -/
theorem hz : (![0, 0] : Fin 2 → Nat) = fun _ => 0 := funext fun a => by fin_cases a <;> rfl

/-- The seven column pieces the body stores, last store first, over old contents `o` of the row-sum block: column k
    gets the payload of its store applied to the products of the input blocks and to column k of `o`. -/
def cols (i : grid0.Coords) (x0 : Vec F S512x128 .bf16) (x1 : Vec F S512x128 .bf16) (x2 : Vec F S1024x128 .bf16) (x3 : Vec F S1024x128 .bf16) (x4 : Vec F S512x1024 .f32) (o : Vec F S512x7 .f32) : List (View.Piece (Elt F) S512x7 .f32) :=
  [⟨(Rect.unit (s := S512x7) ![0, 6] S512x1.size inb_S512x7_S512x1_0_6), k0_pay3 (k0_pay16 (k0_pay9 x1 x3) (k0_pay13 i x4)) (View.ld o (Rect.unit (s := S512x7) ![0, 6] S512x1.size inb_S512x7_S512x1_0_6))⟩,
   ⟨(Rect.unit (s := S512x7) ![0, 5] S512x1.size inb_S512x7_S512x1_0_5), k0_pay2 (k0_pay15 (k0_pay9 x1 x3) (k0_pay12 i x4)) (View.ld o (Rect.unit (s := S512x7) ![0, 5] S512x1.size inb_S512x7_S512x1_0_5))⟩,
   ⟨(Rect.unit (s := S512x7) ![0, 4] S512x1.size inb_S512x7_S512x1_0_4), k0_pay1 (k0_pay14 (k0_pay8 x0 x2) (k0_pay13 i x4)) (k0_pay21 (View.ld o (Rect.unit (s := S512x7) ![0, 4] S512x1.size inb_S512x7_S512x1_0_4)))⟩,
   ⟨(Rect.unit (s := S512x7) ![0, 3] S512x1.size inb_S512x7_S512x1_0_3), k0_pay20 (k0_pay8 x0 x2) (k0_pay12 i x4) (View.ld o (Rect.unit (s := S512x7) ![0, 3] S512x1.size inb_S512x7_S512x1_0_3))⟩,
   ⟨(Rect.unit (s := S512x7) ![0, 2] S512x1.size inb_S512x7_S512x1_0_2), k0_pay19 (k0_pay7 x0 x3) (k0_pay11 x4) (View.ld o (Rect.unit (s := S512x7) ![0, 2] S512x1.size inb_S512x7_S512x1_0_2))⟩,
   ⟨(Rect.unit (s := S512x7) ![0, 1] S512x1.size inb_S512x7_S512x1_0_1), k0_pay18 x4 (k0_pay7 x0 x3) (View.ld o (Rect.unit (s := S512x7) ![0, 1] S512x1.size inb_S512x7_S512x1_0_1))⟩,
   ⟨(Rect.unit (s := S512x7) ![0, 0] S512x1.size inb_S512x7_S512x1_0_0), k0_pay17 x4 (k0_pay12 i x4) (View.ld o (Rect.unit (s := S512x7) ![0, 0] S512x1.size inb_S512x7_S512x1_0_0))⟩]

/-- The zero fill: the whole block at the broadcast zero. -/
def zeroFill : View.Piece (Elt F) S512x7 .f32 :=
  ⟨Rect.unit (s := S512x7) ![0, 0] S512x7.size inb_S512x7_S512x7_0_0, k0_pay4 (F := F)⟩

section Loads
variable {sig' : RefSig} {κ : Kind} {sp : Space} (v : View sig' κ sp S512x7 .f32)

/-- A load of one rectangle after a store to a rectangle apart from it on some axis reads the earlier stores. -/
theorem readCov_apart {off size off' size' : Fin S512x7.rank → Nat} {inb inb'} (a : Fin S512x7.rank)
    (h : off a + size a ≤ off' a ∨ off' a + size' a ≤ off a) (w) (L : List (View.Piece (Elt F) S512x7 .f32)) :
    v.readCov (⟨Rect.unit (s := S512x7) off size inb, w⟩ :: L) (Rect.unit (s := S512x7) off' size' inb').toLoadRect
      = v.readCov L (Rect.unit (s := S512x7) off' size' inb').toLoadRect :=
  View.readCov_cons_of_disjoint v _ L _ (Rect.unit_disjoint (inb := inb) (inb' := inb') a h)

/-- A load after a store of the whole block alone reads that store's payload at the load's rectangle. -/
theorem readCov_fill (inb : ∀ a, (![0, 0] : Fin 2 → Nat) a + S512x7.size a ≤ S512x7.size a) (z : S512x7.Idx → Elt F .f32) (r : Rect S512x7) :
    v.readCov [(⟨Rect.unit (s := S512x7) ![0, 0] S512x7.size inb, z⟩ : View.Piece (Elt F) S512x7 .f32)] r.toLoadRect
      = View.ld z r := by
  rw [View.readCov_eq_canon', View.canon_unit_zero hz]

end Loads

/-- CASE B: the body leaves the seven column pieces over the contents `xo` it was handed. -/
theorem outB_eq (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : ¬firstCol i) (x0 : Vec F S512x128 .bf16) (x1 : Vec F S512x128 .bf16) (x2 : Vec F S1024x128 .bf16) (x3 : Vec F S1024x128 .bf16) (x4 : Vec F S512x1024 .f32) (xo : Vec F S512x7 .f32) :
    outB c i a0 h0 a1 h1 a2 h2 a3 h3 a4 h4 a5 h5 hc x0 x1 x2 x3 x4 xo = View.canon (cols i x0 x1 x2 x3 x4 xo) := by
  unfold outB
  rw [View.read_writes_eq_canon _ _ _ (coverB c i a0 h0 a1 h1 a2 h2 a3 h3 a4 h4 a5 h5 hc x0 x1 x2 x3 x4 xo)]
  unfold runB
  dsimp only
  sl_unfold_words
  simp only [View.readAt_eq_ld, h0.read_unread, h1.read_unread, h2.read_unread, h3.read_unread, h4.read_unread, h5.read_unread,
    View.ld_unit_zero (S := S512x128) hz, View.ld_unit_zero (S := S1024x128) hz, View.ld_unit_zero (S := S512x1024) hz]
  rfl

/-- CASE A: the body leaves the seven column pieces over the zero block, and under them the zero fill. -/
theorem outA_eq (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1024 .f32) (h4 : a4.IsWhole) (a5 : Memref sig .tc .vmem S512x7 .f32) (h5 : a5.IsWhole) (hc : firstCol i) (x0 : Vec F S512x128 .bf16) (x1 : Vec F S512x128 .bf16) (x2 : Vec F S1024x128 .bf16) (x3 : Vec F S1024x128 .bf16) (x4 : Vec F S512x1024 .f32) :
    outA c i a0 h0 a1 h1 a2 h2 a3 h3 a4 h4 a5 h5 hc x0 x1 x2 x3 x4 = View.canon (cols i x0 x1 x2 x3 x4 (k0_pay4 (F := F)) ++ [zeroFill]) := by
  unfold outA
  rw [View.read_writes_eq_canon _ _ _ (coverA c i a0 h0 a1 h1 a2 h2 a3 h3 a4 h4 a5 h5 hc x0 x1 x2 x3 x4)]
  unfold runA
  dsimp only
  sl_unfold_words
  simp only [View.readAt_eq_ld, h0.read_unread, h1.read_unread, h2.read_unread, h3.read_unread, h4.read_unread,
    View.ld_unit_zero (S := S512x128) hz, View.ld_unit_zero (S := S1024x128) hz, View.ld_unit_zero (S := S512x1024) hz]
  simp (disch := decide) only [readCov_apart _ 1]
  rw [readCov_fill, readCov_fill, readCov_fill, readCov_fill, readCov_fill, readCov_fill, readCov_fill]
  rfl

end Cert.KernelIdeal.Frame

end
-- ==== Proof.KiPayMat.lean ====
/-
  The three similarity tiles of the kernel body, read at one entry.

  Each is the exponential of a product of a [512,128] row block with the transpose of a
  [1024,128] column block, accumulated into a zero tile.  At the exact values the product's
  entry (p, q) is the inner product over the 128 feature coordinates of row p of the first
  block with row q of the second; the identity shape casts change nothing.
-/
import proofs.«171571_j44796508897300_1_alg».proof.Proof.Gen.KernelIdeal.Skeleton
import proofs.«171571_j44796508897300_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

/-- The product's dimension numbers: [512,128] × [128,1024] → [512,1024], contracting the
    left operand's axis 1 with the right operand's axis 0. -/
abbrev DD : DotDims S512x128 S128x1024 S512x1024 := dot_S512x128_S128x1024_S512x1024_1_0_0_1_n_n

/-- The left operand's index at output index i and contraction index c: its row is i's row … -/
theorem lhs_0 (i : S512x1024.Idx) (c : DD.contr.Idx) : (DD.lhsIdx i c 0).val = (i 0).val := by
  unfold DotDims.lhsIdx
  rw [dif_neg (show ¬(0 : Fin S512x128.rank) ∈ DD.lhsBatch by decide),
    dif_pos (show (0 : Fin S512x128.rank) ∈ DD.lhsNonContracting by decide)]
  rfl
/-- … and its column the contraction coordinate. -/
theorem lhs_1 (i : S512x1024.Idx) (c : DD.contr.Idx) : (DD.lhsIdx i c 1).val = (c ⟨0, by decide⟩).val :=
  DD.lhsIdx_val_of_single rfl i c
/-- The right operand's row is the contraction coordinate … -/
theorem rhs_0 (i : S512x1024.Idx) (c : DD.contr.Idx) : (DD.rhsIdx i c 0).val = (c ⟨0, by decide⟩).val :=
  DD.rhsIdx_val_of_single rfl i c
/-- … and its column i's column. -/
theorem rhs_1 (i : S512x1024.Idx) (c : DD.contr.Idx) : (DD.rhsIdx i c 1).val = (i 1).val := by
  unfold DotDims.rhsIdx
  rw [dif_neg (show ¬(1 : Fin S128x1024.rank) ∈ DD.rhsBatch by decide),
    dif_pos (show (1 : Fin S128x1024.rank) ∈ DD.rhsNonContracting by decide)]
  rfl

/-- The product into a zero tile of a [512,128] block with the transpose of a [1024,128] block,
    read at (p, q): the inner product of row p of the first with row q of the second. -/
theorem matmul_transpose_apply (x : FVec Ideal S512x128 .bf16) (y : FVec Ideal S1024x128 .bf16)
    (p : Fin 512) (q : Fin 1024) :
    matmul DD none x (transpose S128x1024 [1, 0] y transposes_S1024x128_p1_0_S128x1024)
        (constant (F := Ideal) S512x1024 .f32 0x00000000#32) (ix2 p q)
      = ∑ d : Fin 128, x (ix2 p d) * y (ix2 q d) := by
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k :=
    funext fun a => Fin.ext (by
      match a with
      | ⟨0, _⟩ => exact lhs_0 _ _
      | ⟨1, _⟩ => exact (lhs_1 _ _).trans hk)
  have er : DD.rhsIdx (ix2 p q) ((contrEquiv1 DD 128 rfl rfl).symm k) = ix2 k q :=
    funext fun a => Fin.ext (by
      match a with
      | ⟨0, _⟩ => exact (rhs_0 _ _).trans hk
      | ⟨1, _⟩ => exact rhs_1 _ _)
  rw [el, er, transpose_ix2_apply]

/-- Tile sim₁₂ at (p, q): exp of the inner product of row p of the first array's row block with
    row q of the second array's column block. -/
theorem k0_pay7_apply (v3 : Vec Ideal S512x128 .bf16) (v9 : Vec Ideal S1024x128 .bf16) (p : Fin 512) (q : Fin 1024) :
    k0_pay7 (F := Ideal) v3 v9 (ix2 p q) = Ideal.exp (∑ d : Fin 128, v3 (ix2 p d) * v9 (ix2 q d)) := by
  unfold k0_pay7 k0_pay5 k0_pay6
  rw [shapeCast_self, shapeCast_self]
  exact congrArg Ideal.exp (matmul_transpose_apply v3 v9 p q)

/-- Tile sim₁₁ at (p, q): both factors are rows of the first array. -/
theorem k0_pay8_apply (v3 : Vec Ideal S512x128 .bf16) (v7 : Vec Ideal S1024x128 .bf16) (p : Fin 512) (q : Fin 1024) :
    k0_pay8 (F := Ideal) v3 v7 (ix2 p q) = Ideal.exp (∑ d : Fin 128, v3 (ix2 p d) * v7 (ix2 q d)) := by
  unfold k0_pay8 k0_pay5
  rw [shapeCast_self, shapeCast_self]
  exact congrArg Ideal.exp (matmul_transpose_apply v3 v7 p q)

/-- Tile sim₂₂ at (p, q): both factors are rows of the second array. -/
theorem k0_pay9_apply (v5 : Vec Ideal S512x128 .bf16) (v9 : Vec Ideal S1024x128 .bf16) (p : Fin 512) (q : Fin 1024) :
    k0_pay9 (F := Ideal) v5 v9 (ix2 p q) = Ideal.exp (∑ d : Fin 128, v5 (ix2 p d) * v9 (ix2 q d)) := by
  unfold k0_pay9 k0_pay6
  rw [shapeCast_self, shapeCast_self]
  exact congrArg Ideal.exp (matmul_transpose_apply v5 v9 p q)

end Cert.KernelIdeal.PayValue

end
-- ==== Proof.KiPayMask.lean ====
/-
  The diagonal tile and the mask products of the kernel body, read at one entry.

  At grid point i the tile's entry (p, q) sits at row i₀ · 512 + p and column i₁ · 1024 + q of the
  whole 8192 × 8192 array.  The body compares the two as 32-bit words; with at most 16 row blocks
  and 8 column blocks neither wraps, so the comparison is the comparison of the naturals, and the
  selected value is 0 on the diagonal and 1.0 off it.  The remaining tiles are pointwise products
  and a difference from 1.0.
-/
import proofs.«171571_j44796508897300_1_alg».proof.Proof.Gen.KernelIdeal.Skeleton
import proofs.«171571_j44796508897300_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

/-- Row a · 512 + p against column b · 1024 + q as 32-bit words: below 2³² nothing wraps, so the
    words are equal exactly when the naturals are. -/
theorem diag_word (a b p q : ℕ) (ha : a < 16) (hb : b < 8) (hp : p < 512) (hq : q < 1024) :
    IntOp.cmpi .eq (IntOp.addi (IntOp.muli (BitVec.ofNat 32 a) 512#32) (BitVec.ofNat 32 p))
        (IntOp.addi (IntOp.muli (BitVec.ofNat 32 b) 1024#32) (BitVec.ofNat 32 q))
      = if a * 512 + p = b * 1024 + q then 1#1 else 0#1 := by
  unfold IntOp.cmpi IntOp.addi IntOp.muli
  rw [← BitVec.ofNat_mul, ← BitVec.ofNat_add, ← BitVec.ofNat_mul, ← BitVec.ofNat_add]
  by_cases h : a * 512 + p = b * 1024 + q
  · rw [if_pos h, h]; simp
  · rw [if_neg h]
    have hne : ¬ BitVec.ofNat 32 (a * 512 + p) = BitVec.ofNat 32 (b * 1024 + q) := by
      intro e
      have e' := congrArg BitVec.toNat e
      simp only [BitVec.toNat_ofNat] at e'
      omega
    rw [beq_eq_false_iff_ne.mpr hne]
    rfl

/-- The diagonal tile at (p, q): 0 where row i₀ · 512 + p is column i₁ · 1024 + q, 1.0 elsewhere. -/
theorem k0_pay10_apply (i : grid0.Coords) (p : Fin 512) (q : Fin 1024) :
    k0_pay10 (F := Ideal) i (ix2 p q)
      = if (i 0).val * 512 + p.val = (i 1).val * 1024 + q.val then 0 else Cert.Loss.one := by
  have h0 : (i 0).val < 16 := (i 0).isLt
  have h1 : (i 1).val < 8 := (i 1).isLt
  have e0 : iota .tc S512x1024 32 [0] iota_S512x1024_d0_w32 (ix2 p q) = BitVec.ofNat 32 p.val :=
    iota_single_apply .tc S512x1024 32 0 iota_S512x1024_d0_w32 (ix2 p q)
  have e1 : iota .tc S512x1024 32 [1] iota_S512x1024_d1_w32 (ix2 p q) = BitVec.ofNat 32 q.val :=
    iota_single_apply .tc S512x1024 32 1 iota_S512x1024_d1_w32 (ix2 p q)
  show Scalar.select (IntOp.cmpi .eq
        (IntOp.addi (IntOp.muli (BitVec.ofNat 32 (i 0).val) 512#32)
          (iota .tc S512x1024 32 [0] iota_S512x1024_d0_w32 (ix2 p q)))
        (IntOp.addi (IntOp.muli (BitVec.ofNat 32 (i 1).val) 1024#32)
          (iota .tc S512x1024 32 [1] iota_S512x1024_d1_w32 (ix2 p q))))
      (Ideal.ofBits .f32 0x00000000#32) (Ideal.ofBits .f32 0x3F800000#32) = _
  rw [e0, e1, diag_word _ _ _ _ h0 h1 p.isLt q.isLt, Ideal.ofBits_zero_f32]
  by_cases h : (i 0).val * 512 + p.val = (i 1).val * 1024 + q.val
  · rw [if_pos h, if_pos h]; exact select_one _ _
  · rw [if_neg h, if_neg h]; exact select_zero _ _

/-- 1.0 minus the mask entry. -/
theorem k0_pay11_apply (v11 : Vec Ideal S512x1024 .f32) (p : Fin 512) (q : Fin 1024) :
    k0_pay11 (F := Ideal) v11 (ix2 p q) = Cert.Loss.one - v11 (ix2 p q) := rfl

/-- The diagonal tile times the mask entry. -/
theorem k0_pay12_apply (i : grid0.Coords) (v11 : Vec Ideal S512x1024 .f32) (p : Fin 512) (q : Fin 1024) :
    k0_pay12 (F := Ideal) i v11 (ix2 p q)
      = (if (i 0).val * 512 + p.val = (i 1).val * 1024 + q.val then 0 else Cert.Loss.one) * v11 (ix2 p q) := by
  show k0_pay10 (F := Ideal) i (ix2 p q) * v11 (ix2 p q) = _
  rw [k0_pay10_apply]

/-- The diagonal tile times (1.0 minus the mask entry). -/
theorem k0_pay13_apply (i : grid0.Coords) (v11 : Vec Ideal S512x1024 .f32) (p : Fin 512) (q : Fin 1024) :
    k0_pay13 (F := Ideal) i v11 (ix2 p q)
      = (if (i 0).val * 512 + p.val = (i 1).val * 1024 + q.val then 0 else Cert.Loss.one)
          * (Cert.Loss.one - v11 (ix2 p q)) := by
  show k0_pay10 (F := Ideal) i (ix2 p q) * k0_pay11 (F := Ideal) v11 (ix2 p q) = _
  rw [k0_pay10_apply, k0_pay11_apply]

/-- The three remaining tiles are pointwise products of two tiles. -/
theorem k0_pay14_apply (v17 v36 : FVec Ideal S512x1024 .f32) (p : Fin 512) (q : Fin 1024) :
    k0_pay14 (F := Ideal) v17 v36 (ix2 p q) = v17 (ix2 p q) * v36 (ix2 p q) := rfl
theorem k0_pay15_apply (v20 v35 : FVec Ideal S512x1024 .f32) (p : Fin 512) (q : Fin 1024) :
    k0_pay15 (F := Ideal) v20 v35 (ix2 p q) = v20 (ix2 p q) * v35 (ix2 p q) := rfl
theorem k0_pay16_apply (v20 v36 : FVec Ideal S512x1024 .f32) (p : Fin 512) (q : Fin 1024) :
    k0_pay16 (F := Ideal) v20 v36 (ix2 p q) = v20 (ix2 p q) * v36 (ix2 p q) := rfl

end Cert.KernelIdeal.PayValue

end
-- ==== Proof.KiPayCols.lean ====
/-
  The seven column updates of the kernel body, read at one row.

  Each store into a column of the [512,7] accumulator is the column as loaded plus the sum along
  the 1024 columns of a [512,1024] tile: the lane reduction over axis 1 from the zero word is the
  plain sum over that axis, the cast [512] → [512,1] puts row p's sum at (p, 0), and a cast of a
  column to its own shape is the identity.  The tile that zeroes the accumulator is 0 everywhere.
-/
import proofs.«171571_j44796508897300_1_alg».proof.Proof.Gen.KernelIdeal.Skeleton
import proofs.«171571_j44796508897300_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

/-- A vector of extent a cast to a column [a, 1] reads, at (i, u), the vector at i: both have
    row-major position i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a [512,1024] tile from the zero word, read at row p: the sum over the 1024
    columns of the tile's row p. -/
theorem rowSum_apply (src : FVec Ideal S512x1024 .f32) (hφ : FKind.Formats .f32)
    (hacc : (0x00000000#32 : BitVec 32) = FKind.add.neutral .f32 hφ) (p : Fin 512) :
    multiReduction .add [1] S512 src 0x00000000#32 reduces_S512x1024_S512 hφ hacc (ix1 p)
      = ∑ q : Fin 1024, src (ix2 p q) := by
  refine (Ideal.multiReduction_add_single src 0x00000000#32 reduces_S512x1024_S512 hφ hacc (ix1 p)).trans ?_
  refine Finset.sum_congr rfl fun k _ => congrArg src ?_
  funext a
  match a with
  | ⟨0, _⟩ => rfl
  | ⟨1, _⟩ => rfl

/-- The same sum cast to a column, read at (p, 0). -/
theorem colSum_apply (src : FVec Ideal S512x1024 .f32) (p : Fin 512) :
    shapeCast S512x1 (multiReduction .add [1] S512 src 0x00000000#32 reduces_S512x1024_S512 (.inl rfl) rfl)
        shapeCasts_S512_S512x1 (ix2 p 0)
      = ∑ q : Fin 1024, src (ix2 p q) :=
  (shapeCast_a_a1_apply _ shapeCasts_S512_S512x1 p 0).trans (rowSum_apply src (.inl rfl) rfl p)

/-- Column 0 at row p: the loaded entry plus the row sum of mask + (diagonal tile · mask). -/
theorem k0_pay17_apply (v11 : Vec Ideal S512x1024 .f32) (v35 : FVec Ideal S512x1024 .f32)
    (v44 : Vec Ideal S512x1 .f32) (p : Fin 512) :
    k0_pay17 (F := Ideal) v11 v35 v44 (ix2 p 0)
      = v44 (ix2 p 0) + ∑ q : Fin 1024, (v11 (ix2 p q) + v35 (ix2 p q)) := by
  unfold k0_pay17
  rw [shapeCast_self]
  exact congrArg (v44 (ix2 p 0) + ·) (colSum_apply (addf v11 v35) p)

/-- Column 1 at row p: the loaded entry plus the row sum of sim₁₂ · mask. -/
theorem k0_pay18_apply (v11 : Vec Ideal S512x1024 .f32) (v14 : FVec Ideal S512x1024 .f32)
    (v50 : Vec Ideal S512x1 .f32) (p : Fin 512) :
    k0_pay18 (F := Ideal) v11 v14 v50 (ix2 p 0)
      = v50 (ix2 p 0) + ∑ q : Fin 1024, v14 (ix2 p q) * v11 (ix2 p q) := by
  unfold k0_pay18
  rw [shapeCast_self]
  exact congrArg (v50 (ix2 p 0) + ·) (colSum_apply (mulf v14 v11) p)

/-- Column 2 at row p: the loaded entry plus the row sum of sim₁₂ · (1 − mask). -/
theorem k0_pay19_apply (v14 v34 : FVec Ideal S512x1024 .f32) (v56 : Vec Ideal S512x1 .f32) (p : Fin 512) :
    k0_pay19 (F := Ideal) v14 v34 v56 (ix2 p 0)
      = v56 (ix2 p 0) + ∑ q : Fin 1024, v14 (ix2 p q) * v34 (ix2 p q) := by
  unfold k0_pay19
  rw [shapeCast_self]
  exact congrArg (v56 (ix2 p 0) + ·) (colSum_apply (mulf v14 v34) p)

/-- Column 3 at row p: the loaded entry plus the row sum of sim₁₁ · (diagonal tile · mask). -/
theorem k0_pay20_apply (v17 v35 : FVec Ideal S512x1024 .f32) (v62 : Vec Ideal S512x1 .f32) (p : Fin 512) :
    k0_pay20 (F := Ideal) v17 v35 v62 (ix2 p 0)
      = v62 (ix2 p 0) + ∑ q : Fin 1024, v17 (ix2 p q) * v35 (ix2 p q) := by
  unfold k0_pay20
  rw [shapeCast_self]
  exact congrArg (v62 (ix2 p 0) + ·) (colSum_apply (mulf v17 v35) p)

/-- Column 4 at row p: the old column plus the row sum of the tile. -/
theorem k0_pay1_apply (v40 : FVec Ideal S512x1024 .f32) (v69 : FVec Ideal S512x1 .f32) (p : Fin 512) :
    k0_pay1 (F := Ideal) v40 v69 (ix2 p 0) = v69 (ix2 p 0) + ∑ q : Fin 1024, v40 (ix2 p q) := by
  unfold k0_pay1
  exact congrArg (v69 (ix2 p 0) + ·) (colSum_apply v40 p)

/-- Column 5 at row p. -/
theorem k0_pay2_apply (v41 : FVec Ideal S512x1024 .f32) (v74 : Vec Ideal S512x1 .f32) (p : Fin 512) :
    k0_pay2 (F := Ideal) v41 v74 (ix2 p 0) = v74 (ix2 p 0) + ∑ q : Fin 1024, v41 (ix2 p q) := by
  unfold k0_pay2
  rw [shapeCast_self]
  exact congrArg (v74 (ix2 p 0) + ·) (colSum_apply v41 p)

/-- Column 6 at row p. -/
theorem k0_pay3_apply (v42 : FVec Ideal S512x1024 .f32) (v80 : Vec Ideal S512x1 .f32) (p : Fin 512) :
    k0_pay3 (F := Ideal) v42 v80 (ix2 p 0) = v80 (ix2 p 0) + ∑ q : Fin 1024, v42 (ix2 p q) := by
  unfold k0_pay3
  rw [shapeCast_self]
  exact congrArg (v80 (ix2 p 0) + ·) (colSum_apply v42 p)

/-- The loaded column 4, cast to its own shape, is itself. -/
theorem k0_pay21_eq (v68 : Vec Ideal S512x1 .f32) : k0_pay21 (F := Ideal) v68 = v68 := by
  unfold k0_pay21
  exact shapeCast_self v68 _

/-- The tile that clears the accumulator is 0 at every entry. -/
theorem k0_pay4_apply (j : S512x7.Idx) : k0_pay4 (F := Ideal) j = 0 :=
  Ideal.ofBits_zero_f32

end Cert.KernelIdeal.PayValue

end
-- ==== Proof.LibBlockSum.lean ====
/-
  Sums over one long axis, cut into equal blocks.

  A rank-1 index set of extent n is Fin n, and a [1, n] index set is Fin n too, so a sum over either is a sum
  over Fin n.  An axis of extent N = B · n is B consecutive blocks of n, and the sum over Fin N is the double
  sum over (block, position in the block) at the index block · n + position.  At the exact values a lane sum
  of a [1, n] vector cast from a rank-1 vector is the plain sum of that vector, and the host's sum of a rank-1
  array down to a scalar is its initial value plus the plain sum.
-/
import Idealize.ShloMosaic.PureOps.Ideal.Laws
import Idealize.ShloMosaic.Lib.ValueIdx
import Idealize.ShloMosaic.Lib.ValueLayout

noncomputable section

open scoped BigOperators

namespace Cert.LibBlockSum

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a [1, n] index set is the sum over the second coordinate, the first being 0. -/
theorem sum_idx_1n {M : Type*} [AddCommMonoid M] {n : Nat} (f : (⟨2, ![1, n]⟩ : Shape).Idx → M) :
    ∑ i, f i = ∑ a : Fin n, f (ix2 (0 : Fin 1) a) := by
  rw [sum_idx2, Fin.sum_univ_one]

/-- Position `j` of block `t` on an axis of `B` blocks of `n`. -/
def blockIdx {B n N : Nat} (h : B * n = N) (t : Fin B) (j : Fin n) : Fin N :=
  ⟨t.val * n + j.val, by
    have h1 : t.val * n + j.val < t.val * n + n := Nat.add_lt_add_left j.isLt _
    have h2 : t.val * n + n ≤ B * n := by
      rw [← Nat.succ_mul]; exact Nat.mul_le_mul_right _ t.isLt
    omega⟩

theorem blockIdx_val {B n N : Nat} (h : B * n = N) (t : Fin B) (j : Fin n) :
    (blockIdx h t j).val = t.val * n + j.val := rfl

/-- The sum over an axis of `B` blocks of `n` is the sum over the blocks of the sums inside each. -/
theorem sum_blocks {M : Type*} [AddCommMonoid M] {B n N : Nat} (h : B * n = N) (f : Fin N → M) :
    ∑ r, f r = ∑ t : Fin B, ∑ j : Fin n, f (blockIdx h t j) := by
  subst h
  rw [← Equiv.sum_comp finProdFinEquiv f, Fintype.sum_prod_type]
  refine Finset.sum_congr rfl fun t _ => Finset.sum_congr rfl fun j _ => congrArg f (Fin.ext ?_)
  show j.val + n * t.val = t.val * n + j.val
  rw [Nat.mul_comm, Nat.add_comm]

/-- The lane sum of a rank-1 vector cast to [1, n], cast on to [1, 1] and read at its one entry, is the plain
    sum of the vector's entries. -/
theorem laneSum_eq {n : Nat} (x : FVec Ideal ⟨1, ![n]⟩ .f32)
    (hc : (⟨1, ![n]⟩ : Shape).ShapeCasts ⟨2, ![1, n]⟩)
    (hr : (⟨2, ![1, n]⟩ : Shape).Reduces [1] ⟨1, ![1]⟩) (hφ : FKind.Formats .f32)
    (hacc : (0x00000000#32 : BitVec 32) = FKind.add.neutral .f32 hφ)
    (hc' : (⟨1, ![1]⟩ : Shape).ShapeCasts ⟨2, ![1, 1]⟩) (hp : ∀ a, (![0, 0] : Fin 2 → Nat) a < (⟨2, ![1, 1]⟩ : Shape).size a) :
    extractAt ![0, 0] (shapeCast ⟨2, ![1, 1]⟩ (multiReduction .add [1] ⟨1, ![1]⟩ (shapeCast ⟨2, ![1, n]⟩ x hc) 0x00000000#32 hr hφ hacc) hc') hp
      = ∑ a : Fin n, x (ix1 a) := by
  unfold extractAt
  have e : (fun a => (⟨(![0, 0] : Fin 2 → Nat) a, hp a⟩ : Fin ((⟨2, ![1, 1]⟩ : Shape).size a))) = ix2 (0 : Fin 1) (0 : Fin 1) :=
    funext fun a => Fin.ext (by match a with | ⟨0, _⟩ => rfl | ⟨1, _⟩ => rfl)
  rw [e, shapeCast_a_1a_apply, Ideal.multiReduction_add_total _ _ _ (fun b => by match b with | ⟨0, _⟩ => rfl), sum_idx_1n]
  exact Finset.sum_congr rfl fun a _ => shapeCast_a_1a_apply x hc 0 a

/-- The host's sum of a rank-1 array down to a scalar, from the initial value `init`, is `init` plus the plain sum. -/
theorem hostSum_eq {n : Nat} (x : (⟨1, ![n]⟩ : Shape).Idx → EReal) (init : EReal)
    (h : (⟨1, ![n]⟩ : Shape).ReducesTo [0] ⟨0, ![]⟩) (j : (⟨0, ![]⟩ : Shape).Idx) :
    Ideal.hostReduceAdd h x init j = init + ∑ a : Fin n, x (ix1 a) := by
  rw [Ideal.hostReduceAdd_total h (fun b => b.elim0), sum_idx1]

end Cert.LibBlockSum

end
-- ==== Proof.BlockSum.lean ====
/-
  The 8192 columns as 8 blocks of 1024, and a sum built up block by block.

  A sum over the 8192 columns is the double sum over (column block, position in the block) at the
  column block · 1024 + position.  A quantity that starts at zero plus the first block's
  contribution and gains one block's contribution at each later block holds, after the last of
  the 8 blocks, the sum of all the contributions: addition of extended reals is commutative and
  associative, so no finiteness enters.
-/
import proofs.«171571_j44796508897300_1_alg».proof.Proof.LibBlockSum

noncomputable section

open scoped BigOperators

namespace Cert.KernelIdeal.PayValue

/-- The sum over 8 blocks of 1024 columns is the sum over all 8192 columns. -/
theorem sum_colBlocks {M : Type*} [AddCommMonoid M] (f : Fin 8192 → M) :
    ∑ j : Fin 8, ∑ q : Fin 1024, f ⟨j.val * 1024 + q.val, by omega⟩ = ∑ k : Fin 8192, f k := by
  rw [Cert.LibBlockSum.sum_blocks (B := 8) (n := 1024) (N := 8192) rfl f]
  rfl

/-- After block n (n < 8) the running value is the sum of the contributions of blocks 0 … n. -/
theorem accum_prefix (s : Fin 8 → EReal) (a : ℕ → EReal) (h0 : a 0 = 0 + s 0)
    (hs : ∀ n (h : n + 1 < 8), a (n + 1) = a n + s ⟨n + 1, h⟩) :
    ∀ n (h : n < 8), a n = ∑ j : Fin (n + 1), s ⟨j.val, by omega⟩ := by
  intro n
  induction n with
  | zero =>
    intro _
    rw [Fin.sum_univ_one, h0, zero_add]
    rfl
  | succ n ih =>
    intro h
    rw [Fin.sum_univ_castSucc, hs n h, ih (by omega)]
    rfl

/-- After the last of the 8 blocks the running value is the sum of all 8 contributions. -/
theorem accum_eight (s : Fin 8 → EReal) (a : ℕ → EReal) (h0 : a 0 = 0 + s 0)
    (hs : ∀ n (h : n + 1 < 8), a (n + 1) = a n + s ⟨n + 1, h⟩) : a 7 = ∑ j : Fin 8, s j :=
  (accum_prefix s a h0 hs 7 (by omega)).trans (Finset.sum_congr rfl fun _ _ => rfl)

end Cert.KernelIdeal.PayValue

end
-- ==== Proof.KiPayTerm.lean ====
/-
  The seven column updates of the kernel body as the specification's summands.

  At grid point i the row block holds rows i₀ · 512 + p of the two normalised feature arrays, the
  column block rows i₁ · 1024 + q of them, and the mask tile the entries at those rows and columns.
  Then each similarity tile's entry (p, q) is the specification's similarity of those two global
  rows, the diagonal tile's entry is the specification's off-diagonal indicator, and the value
  stored into column c at row p is the loaded entry plus the sum over the tile's 1024 columns of
  the c-th summand at (i₀ · 512 + p, i₁ · 1024 + q).  Summed over the 8 column blocks these are
  the specification's row sums.
-/
import proofs.«171571_j44796508897300_1_alg».proof.Proof.Gen.KernelIdeal.Skeleton
import proofs.«171571_j44796508897300_1_alg».proof.Proof.Spec
import proofs.«171571_j44796508897300_1_alg».proof.Proof.KiPayMat
import proofs.«171571_j44796508897300_1_alg».proof.Proof.KiPayMask
import proofs.«171571_j44796508897300_1_alg».proof.Proof.KiPayCols
import proofs.«171571_j44796508897300_1_alg».proof.Proof.BlockSum
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

/-- The global row under row p of the row block at grid point i. -/
def rowAt (i : grid0.Coords) (p : Fin 512) : Fin 8192 :=
  ⟨(i 0).val * 512 + p.val, by have h : (i 0).val < 16 := (i 0).isLt; omega⟩
/-- The global column under column q of the column block at grid point i. -/
def colAt (i : grid0.Coords) (q : Fin 1024) : Fin 8192 :=
  ⟨(i 1).val * 1024 + q.val, by have h : (i 1).val < 8 := (i 1).isLt; omega⟩

theorem rowAt_val (i : grid0.Coords) (p : Fin 512) : (rowAt i p).val = (i 0).val * 512 + p.val := rfl
theorem colAt_val (i : grid0.Coords) (q : Fin 1024) : (colAt i q).val = (i 1).val * 1024 + q.val := rfl

section Tiles
variable (a b : Cert.Loss.Feat) (mk : Cert.Loss.Mask) (i : grid0.Coords)
  (v3 v5 : Vec Ideal S512x128 .bf16) (v7 v9 : Vec Ideal S1024x128 .bf16) (v11 : Vec Ideal S512x1024 .f32)

/-- The diagonal tile is the off-diagonal indicator of the two global positions. -/
theorem off_tile (p : Fin 512) (q : Fin 1024) :
    k0_pay10 (F := Ideal) i (ix2 p q) = Cert.Loss.off (rowAt i p) (colAt i q) := by
  rw [k0_pay10_apply]
  rfl

/-- Tile sim₁₂ is the similarity of row i₀ · 512 + p of the first array with row i₁ · 1024 + q of the second. -/
theorem sim12_tile (h3 : ∀ p d, v3 (ix2 p d) = a (ix2 (rowAt i p) d)) (h9 : ∀ q d, v9 (ix2 q d) = b (ix2 (colAt i q) d))
    (p : Fin 512) (q : Fin 1024) :
    k0_pay7 (F := Ideal) v3 v9 (ix2 p q) = Cert.Loss.sim a b (rowAt i p) (colAt i q) := by
  rw [k0_pay7_apply]
  unfold Cert.Loss.sim
  exact congrArg Ideal.exp (Finset.sum_congr rfl fun d _ => by rw [h3 p d, h9 q d])

/-- Tile sim₁₁: both rows are the first array's. -/
theorem sim11_tile (h3 : ∀ p d, v3 (ix2 p d) = a (ix2 (rowAt i p) d)) (h7 : ∀ q d, v7 (ix2 q d) = a (ix2 (colAt i q) d))
    (p : Fin 512) (q : Fin 1024) :
    k0_pay8 (F := Ideal) v3 v7 (ix2 p q) = Cert.Loss.sim a a (rowAt i p) (colAt i q) := by
  rw [k0_pay8_apply]
  unfold Cert.Loss.sim
  exact congrArg Ideal.exp (Finset.sum_congr rfl fun d _ => by rw [h3 p d, h7 q d])

/-- Tile sim₂₂: both rows are the second array's. -/
theorem sim22_tile (h5 : ∀ p d, v5 (ix2 p d) = b (ix2 (rowAt i p) d)) (h9 : ∀ q d, v9 (ix2 q d) = b (ix2 (colAt i q) d))
    (p : Fin 512) (q : Fin 1024) :
    k0_pay9 (F := Ideal) v5 v9 (ix2 p q) = Cert.Loss.sim b b (rowAt i p) (colAt i q) := by
  rw [k0_pay9_apply]
  unfold Cert.Loss.sim
  exact congrArg Ideal.exp (Finset.sum_congr rfl fun d _ => by rw [h5 p d, h9 q d])

variable (h3 : ∀ p d, v3 (ix2 p d) = a (ix2 (rowAt i p) d)) (h5 : ∀ p d, v5 (ix2 p d) = b (ix2 (rowAt i p) d))
  (h7 : ∀ q d, v7 (ix2 q d) = a (ix2 (colAt i q) d)) (h9 : ∀ q d, v9 (ix2 q d) = b (ix2 (colAt i q) d))
  (h11 : ∀ p q, v11 (ix2 p q) = mk (ix2 (rowAt i p) (colAt i q)))
include h11

/-- Column 0 at row p gains the sum over the tile's columns of summand 0. -/
theorem col0_update (v44 : Vec Ideal S512x1 .f32) (p : Fin 512) :
    k0_pay17 (F := Ideal) v11 (k0_pay12 i v11) v44 (ix2 p 0)
      = v44 (ix2 p 0) + ∑ q : Fin 1024, Cert.Loss.term a b mk (rowAt i p) (colAt i q) 0 := by
  rw [k0_pay17_apply]
  refine congrArg (v44 (ix2 p 0) + ·) (Finset.sum_congr rfl fun q _ => ?_)
  rw [k0_pay12_apply, ← k0_pay10_apply, off_tile, h11 p q]
  rfl

include h3 h9 in
/-- Column 1 at row p gains the sum of summand 1. -/
theorem col1_update (v50 : Vec Ideal S512x1 .f32) (p : Fin 512) :
    k0_pay18 (F := Ideal) v11 (k0_pay7 v3 v9) v50 (ix2 p 0)
      = v50 (ix2 p 0) + ∑ q : Fin 1024, Cert.Loss.term a b mk (rowAt i p) (colAt i q) 1 := by
  rw [k0_pay18_apply]
  refine congrArg (v50 (ix2 p 0) + ·) (Finset.sum_congr rfl fun q _ => ?_)
  rw [sim12_tile a b i v3 v9 h3 h9, h11 p q]
  rfl

include h3 h9 in
/-- Column 2 at row p gains the sum of summand 2. -/
theorem col2_update (v56 : Vec Ideal S512x1 .f32) (p : Fin 512) :
    k0_pay19 (F := Ideal) (k0_pay7 v3 v9) (k0_pay11 v11) v56 (ix2 p 0)
      = v56 (ix2 p 0) + ∑ q : Fin 1024, Cert.Loss.term a b mk (rowAt i p) (colAt i q) 2 := by
  rw [k0_pay19_apply]
  refine congrArg (v56 (ix2 p 0) + ·) (Finset.sum_congr rfl fun q _ => ?_)
  rw [sim12_tile a b i v3 v9 h3 h9, k0_pay11_apply, h11 p q]
  rfl

include h3 h7 in
/-- Column 3 at row p gains the sum of summand 3. -/
theorem col3_update (v62 : Vec Ideal S512x1 .f32) (p : Fin 512) :
    k0_pay20 (F := Ideal) (k0_pay8 v3 v7) (k0_pay12 i v11) v62 (ix2 p 0)
      = v62 (ix2 p 0) + ∑ q : Fin 1024, Cert.Loss.term a b mk (rowAt i p) (colAt i q) 3 := by
  rw [k0_pay20_apply]
  refine congrArg (v62 (ix2 p 0) + ·) (Finset.sum_congr rfl fun q _ => ?_)
  rw [sim11_tile a i v3 v7 h3 h7, k0_pay12_apply, ← k0_pay10_apply, off_tile, h11 p q]
  rfl

include h3 h7 in
/-- Column 4 at row p gains the sum of summand 4. -/
theorem col4_update (v68 : Vec Ideal S512x1 .f32) (p : Fin 512) :
    k0_pay1 (F := Ideal) (k0_pay14 (k0_pay8 v3 v7) (k0_pay13 i v11)) (k0_pay21 v68) (ix2 p 0)
      = v68 (ix2 p 0) + ∑ q : Fin 1024, Cert.Loss.term a b mk (rowAt i p) (colAt i q) 4 := by
  rw [k0_pay1_apply, k0_pay21_eq]
  refine congrArg (v68 (ix2 p 0) + ·) (Finset.sum_congr rfl fun q _ => ?_)
  rw [k0_pay14_apply, sim11_tile a i v3 v7 h3 h7, k0_pay13_apply, ← k0_pay10_apply, off_tile, h11 p q]
  rfl

include h5 h9 in
/-- Column 5 at row p gains the sum of summand 5. -/
theorem col5_update (v74 : Vec Ideal S512x1 .f32) (p : Fin 512) :
    k0_pay2 (F := Ideal) (k0_pay15 (k0_pay9 v5 v9) (k0_pay12 i v11)) v74 (ix2 p 0)
      = v74 (ix2 p 0) + ∑ q : Fin 1024, Cert.Loss.term a b mk (rowAt i p) (colAt i q) 5 := by
  rw [k0_pay2_apply]
  refine congrArg (v74 (ix2 p 0) + ·) (Finset.sum_congr rfl fun q _ => ?_)
  rw [k0_pay15_apply, sim22_tile b i v5 v9 h5 h9, k0_pay12_apply, ← k0_pay10_apply, off_tile, h11 p q]
  rfl

include h5 h9 in
/-- Column 6 at row p gains the sum of summand 6. -/
theorem col6_update (v80 : Vec Ideal S512x1 .f32) (p : Fin 512) :
    k0_pay3 (F := Ideal) (k0_pay16 (k0_pay9 v5 v9) (k0_pay13 i v11)) v80 (ix2 p 0)
      = v80 (ix2 p 0) + ∑ q : Fin 1024, Cert.Loss.term a b mk (rowAt i p) (colAt i q) 6 := by
  rw [k0_pay3_apply]
  refine congrArg (v80 (ix2 p 0) + ·) (Finset.sum_congr rfl fun q _ => ?_)
  rw [k0_pay16_apply, sim22_tile b i v5 v9 h5 h9, k0_pay13_apply, ← k0_pay10_apply, off_tile, h11 p q]
  rfl

end Tiles

/-- The per-block sums of summand c over the 8 column blocks add up to the specification's row sum. -/
theorem col_eq_blocks (a b : Cert.Loss.Feat) (mk : Cert.Loss.Mask) (c : Fin 7) (r : Fin 8192) :
    Cert.Loss.col a b mk c (ix1 r)
      = ∑ j : Fin 8, ∑ q : Fin 1024, Cert.Loss.term a b mk r ⟨j.val * 1024 + q.val, by omega⟩ c := by
  rw [sum_colBlocks (fun k => Cert.Loss.term a b mk r k c)]
  rfl

end Cert.KernelIdeal.PayValue

end
-- ==== Proof.KiColumns.lean ====
/- The 512x7 block of row sums after one grid point, entry by entry, on the extended reals.
   The body's seven column stores are pairwise apart, so the entry at row p of column k is what the store to column
   k put there: the entry the column held before plus, summed over the point's 1024 columns, the k-th of the loss's
   seven summands at (this row, that column). Stated over arbitrary blocks tied to three global arrays by
   coordinate hypotheses; the pieces below the seven columns (the zero fill of case A) are never reached. -/
import proofs.«171571_j44796508897300_1_alg».proof.Proof.KiPieces
import proofs.«171571_j44796508897300_1_alg».proof.Proof.KiPayTerm

-- membership of an index in a rectangle of a 512-row block is checked coordinate by coordinate
set_option maxRecDepth 16384

noncomputable section

namespace Cert.KernelIdeal.Frame

open Cert.KernelIdeal.Gen
open Idealize.ShloMosaic.ValueIdx Cert.KernelIdeal.PayValue
open scoped BigOperators
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Generic
variable {F : FTy → Type} [FloatOps F]

/-- Row p of a one-column rectangle at column j is the block's entry (p, j). -/
theorem col_emb {j : ℕ} (hj : j < 7) (inb : ∀ a, (![0, j] : Fin 2 → ℕ) a + S512x1.size a ≤ S512x7.size a) (p : Fin 512) :
    (Rect.unit (s := S512x7) ![0, j] S512x1.size inb).emb (ix2 p (0 : Fin 1)) = (ix2 p (⟨j, hj⟩ : Fin 7) : S512x7.Idx) := by
  funext a; apply Fin.ext
  match a with
  | ⟨0, _⟩ => show 0 + 1 * p.val = p.val; omega
  | ⟨1, _⟩ => show j + 1 * 0 = j; omega

/-- An entry of column k lies under the last store when that store is to column k: it reads the store's payload; -/
theorem canon_col_hit {j : ℕ} (hj : j < 7) {inb : ∀ a, (![0, j] : Fin 2 → ℕ) a + S512x1.size a ≤ S512x7.size a}
    {w : S512x1.Idx → Elt F .f32} {L : List (View.Piece (Elt F) S512x7 .f32)} {p : Fin 512} :
    View.canon ((⟨Rect.unit (s := S512x7) ![0, j] S512x1.size inb, w⟩ : View.Piece (Elt F) S512x7 .f32) :: L) (ix2 p (⟨j, hj⟩ : Fin 7)) = w (ix2 p 0) := by
  rw [← col_emb hj inb p]; exact View.canon_cons_emb (Rect.unit (s := S512x7) ![0, j] S512x1.size inb) w L (ix2 p 0)

/-- and not under it when the store is to another column: it reads the earlier stores. -/
theorem canon_col_skip {j : ℕ} {inb : ∀ a, (![0, j] : Fin 2 → ℕ) a + S512x1.size a ≤ S512x7.size a}
    {w : S512x1.Idx → Elt F .f32} {L : List (View.Piece (Elt F) S512x7 .f32)} {p : Fin 512} {k : Fin 7} (h : j ≠ k.val) :
    View.canon ((⟨Rect.unit (s := S512x7) ![0, j] S512x1.size inb, w⟩ : View.Piece (Elt F) S512x7 .f32) :: L) (ix2 p k) = View.canon L (ix2 p k) :=
  View.canon_cons_of_not_mem _ L fun hm => by
    have h1 : j ≤ k.val ∧ k.val < j + 1 :=
      (Rect.mem_set_unit (s := S512x7) (off := ![0, j]) (size := S512x1.size) (inb := inb) (i := ix2 p k)).mp hm 1
    omega

end Generic

section Entry
variable (a b : Cert.Loss.Feat) (mk : Cert.Loss.Mask) (i : grid0.Coords)
  (x0 x1 : Vec Ideal S512x128 .bf16) (x2 x3 : Vec Ideal S1024x128 .bf16) (x4 : Vec Ideal S512x1024 .f32)
  (h3 : ∀ p d, x0 (ix2 p d) = a (ix2 (rowAt i p) d)) (h5 : ∀ p d, x1 (ix2 p d) = b (ix2 (rowAt i p) d))
  (h7 : ∀ q d, x2 (ix2 q d) = a (ix2 (colAt i q) d)) (h9 : ∀ q d, x3 (ix2 q d) = b (ix2 (colAt i q) d))
  (h11 : ∀ p q, x4 (ix2 p q) = mk (ix2 (rowAt i p) (colAt i q)))
include h3 h5 h7 h9 h11

/-- After the body's seven column stores over old contents `o` (whatever lies under them), entry (p, k) of the
    block is the old entry plus this point's sum of summand k over its 1024 columns. -/
theorem cols_entry (o : Vec Ideal S512x7 .f32) (L' : List (View.Piece (Elt Ideal) S512x7 .f32)) (p : Fin 512) : ∀ k : Fin 7,
    View.canon (cols i x0 x1 x2 x3 x4 o ++ L') (ix2 p k)
      = o (ix2 p k) + ∑ q : Fin 1024, Cert.Loss.term a b mk (rowAt i p) (colAt i q) k
  | ⟨0, hk⟩ => by
    unfold cols
    refine (canon_col_skip (j := 6) (k := ⟨0, hk⟩) (by show (6 : ℕ) ≠ 0; decide)).trans ?_
    refine (canon_col_skip (j := 5) (k := ⟨0, hk⟩) (by show (5 : ℕ) ≠ 0; decide)).trans ?_
    refine (canon_col_skip (j := 4) (k := ⟨0, hk⟩) (by show (4 : ℕ) ≠ 0; decide)).trans ?_
    refine (canon_col_skip (j := 3) (k := ⟨0, hk⟩) (by show (3 : ℕ) ≠ 0; decide)).trans ?_
    refine (canon_col_skip (j := 2) (k := ⟨0, hk⟩) (by show (2 : ℕ) ≠ 0; decide)).trans ?_
    refine (canon_col_skip (j := 1) (k := ⟨0, hk⟩) (by show (1 : ℕ) ≠ 0; decide)).trans ?_
    refine (canon_col_hit (j := 0) hk).trans ?_
    refine (col0_update a b mk i x4 h11 (View.ld o (Rect.unit (s := S512x7) ![0, 0] S512x1.size inb_S512x7_S512x1_0_0)) p).trans ?_
    exact congrArg (· + _) (congrArg o (col_emb hk inb_S512x7_S512x1_0_0 p))
  | ⟨1, hk⟩ => by
    unfold cols
    refine (canon_col_skip (j := 6) (k := ⟨1, hk⟩) (by show (6 : ℕ) ≠ 1; decide)).trans ?_
    refine (canon_col_skip (j := 5) (k := ⟨1, hk⟩) (by show (5 : ℕ) ≠ 1; decide)).trans ?_
    refine (canon_col_skip (j := 4) (k := ⟨1, hk⟩) (by show (4 : ℕ) ≠ 1; decide)).trans ?_
    refine (canon_col_skip (j := 3) (k := ⟨1, hk⟩) (by show (3 : ℕ) ≠ 1; decide)).trans ?_
    refine (canon_col_skip (j := 2) (k := ⟨1, hk⟩) (by show (2 : ℕ) ≠ 1; decide)).trans ?_
    refine (canon_col_hit (j := 1) hk).trans ?_
    refine (col1_update a b mk i x0 x3 x4 h3 h9 h11 (View.ld o (Rect.unit (s := S512x7) ![0, 1] S512x1.size inb_S512x7_S512x1_0_1)) p).trans ?_
    exact congrArg (· + _) (congrArg o (col_emb hk inb_S512x7_S512x1_0_1 p))
  | ⟨2, hk⟩ => by
    unfold cols
    refine (canon_col_skip (j := 6) (k := ⟨2, hk⟩) (by show (6 : ℕ) ≠ 2; decide)).trans ?_
    refine (canon_col_skip (j := 5) (k := ⟨2, hk⟩) (by show (5 : ℕ) ≠ 2; decide)).trans ?_
    refine (canon_col_skip (j := 4) (k := ⟨2, hk⟩) (by show (4 : ℕ) ≠ 2; decide)).trans ?_
    refine (canon_col_skip (j := 3) (k := ⟨2, hk⟩) (by show (3 : ℕ) ≠ 2; decide)).trans ?_
    refine (canon_col_hit (j := 2) hk).trans ?_
    refine (col2_update a b mk i x0 x3 x4 h3 h9 h11 (View.ld o (Rect.unit (s := S512x7) ![0, 2] S512x1.size inb_S512x7_S512x1_0_2)) p).trans ?_
    exact congrArg (· + _) (congrArg o (col_emb hk inb_S512x7_S512x1_0_2 p))
  | ⟨3, hk⟩ => by
    unfold cols
    refine (canon_col_skip (j := 6) (k := ⟨3, hk⟩) (by show (6 : ℕ) ≠ 3; decide)).trans ?_
    refine (canon_col_skip (j := 5) (k := ⟨3, hk⟩) (by show (5 : ℕ) ≠ 3; decide)).trans ?_
    refine (canon_col_skip (j := 4) (k := ⟨3, hk⟩) (by show (4 : ℕ) ≠ 3; decide)).trans ?_
    refine (canon_col_hit (j := 3) hk).trans ?_
    refine (col3_update a b mk i x0 x2 x4 h3 h7 h11 (View.ld o (Rect.unit (s := S512x7) ![0, 3] S512x1.size inb_S512x7_S512x1_0_3)) p).trans ?_
    exact congrArg (· + _) (congrArg o (col_emb hk inb_S512x7_S512x1_0_3 p))
  | ⟨4, hk⟩ => by
    unfold cols
    refine (canon_col_skip (j := 6) (k := ⟨4, hk⟩) (by show (6 : ℕ) ≠ 4; decide)).trans ?_
    refine (canon_col_skip (j := 5) (k := ⟨4, hk⟩) (by show (5 : ℕ) ≠ 4; decide)).trans ?_
    refine (canon_col_hit (j := 4) hk).trans ?_
    refine (col4_update a b mk i x0 x2 x4 h3 h7 h11 (View.ld o (Rect.unit (s := S512x7) ![0, 4] S512x1.size inb_S512x7_S512x1_0_4)) p).trans ?_
    exact congrArg (· + _) (congrArg o (col_emb hk inb_S512x7_S512x1_0_4 p))
  | ⟨5, hk⟩ => by
    unfold cols
    refine (canon_col_skip (j := 6) (k := ⟨5, hk⟩) (by show (6 : ℕ) ≠ 5; decide)).trans ?_
    refine (canon_col_hit (j := 5) hk).trans ?_
    refine (col5_update a b mk i x1 x3 x4 h5 h9 h11 (View.ld o (Rect.unit (s := S512x7) ![0, 5] S512x1.size inb_S512x7_S512x1_0_5)) p).trans ?_
    exact congrArg (· + _) (congrArg o (col_emb hk inb_S512x7_S512x1_0_5 p))
  | ⟨6, hk⟩ => by
    unfold cols
    refine (canon_col_hit (j := 6) hk).trans ?_
    refine (col6_update a b mk i x1 x3 x4 h5 h9 h11 (View.ld o (Rect.unit (s := S512x7) ![0, 6] S512x1.size inb_S512x7_S512x1_0_6)) p).trans ?_
    exact congrArg (· + _) (congrArg o (col_emb hk inb_S512x7_S512x1_0_6 p))

end Entry

end Cert.KernelIdeal.Frame

end
-- ==== Proof.KiBlocks.lean ====
/-
  From the blocks a grid point writes back to the whole [8192,7] result array.

  The result window's block at grid point t is rows (t / 8) · 512 … (t / 8) · 512 + 511 of the array,
  all 7 columns, and it is written back at the last column block of each row block only: the
  points t with t % 8 = 7.  If what such a point leaves in its block is the restriction of one
  function G of the whole array's index, the array ends holding G: row r lies in the block of the
  writing point (r / 512) · 8 + 7, so the 16 written blocks cover the array.
-/
import proofs.«171571_j44796508897300_1_alg».proof.Proof.Gen.KernelIdeal.Points
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- The result window's block index at point t, decided over the 128 points: row block t / 8,
    column block 0. -/
theorem idx5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- The grid has 16 · 8 = 128 points. -/
theorem pointCount : cfg0.N = 128 := by decide

/-- An index of the array is in point t's block iff each coordinate is in the block's range. -/
theorem mem_blk5 (t : Fin cfg0.N) (i : S8192x7.Idx) :
    i ∈ ((cfg0.win 5).blk t).view.set ↔ ∀ a : Fin 2, win0_5.index t a * S512x7.size a ≤ (i a).val
      ∧ (i a).val < win0_5.index t a * S512x7.size a + S512x7.size a := by
  show i ∈ ((View.whole main_v18).slice (win0_5.rect t)).set ↔ _
  rw [View.set_slice_whole, Rect.mem_set_unit]
  exact Iff.rfl

/-- The global row under row p of the block of point t. -/
def rowOf (t : Fin cfg0.N) (p : Fin 512) : Fin 8192 :=
  ⟨(t.val / 8) * 512 + p.val, by have h : t.val < 128 := lt_of_lt_of_eq t.isLt pointCount; omega⟩

theorem rowOf_val (t : Fin cfg0.N) (p : Fin 512) : (rowOf t p).val = (t.val / 8) * 512 + p.val := rfl

variable {c : Dev nD} (dat : Dat τ (Elt F) Unit ℕ (UR sig nD τ) ℕ cfg0 c) (G : S8192x7.Idx → Elt F .f32)

/-- What a writing point writes back is its block of G, when what it leaves at (p, k) is G at
    (row (t / 8) · 512 + p, column k). -/
theorem flushed5_eq
    (hflush : ∀ t : Fin cfg0.N, t.val % 8 = 7 → ∀ (p : Fin 512) (k : Fin 7),
      (dat.after 5 t : S512x7.Idx → Elt F .f32) (ix2 p k) = G (ix2 (rowOf t p) k))
    (t : Fin cfg0.N) (hf : (cfg0.win 5).flush t = true) :
    dat.flushed 5 t = ((cfg0.win 5).blk t).view.read (Elt F) G := by
  funext y
  rw [View.read_apply]
  obtain ⟨e0, e1⟩ := idx5 t
  have hy0 : (y 0).val < 512 := (y 0).isLt
  have hy1 : (y 1).val < 7 := (y 1).isLt
  have hx : (cfg0.win 5).xinj (cfg0.grid.coords t) y = ix2 (⟨(y 0).val, hy0⟩ : Fin 512) (⟨(y 1).val, hy1⟩ : Fin 7) := by
    funext a; apply Fin.ext
    match a with
    | ⟨0, _⟩ => rfl
    | ⟨1, _⟩ => rfl
  have he : ((cfg0.win 5).blk t).view.emb y = ix2 (rowOf t ⟨(y 0).val, hy0⟩) (⟨(y 1).val, hy1⟩ : Fin 7) := by
    funext a; apply Fin.ext
    match a with
    | ⟨0, _⟩ => show win0_5.index t (0 : Fin 2) * 512 + 1 * (y 0).val = (t.val / 8) * 512 + (y 0).val; omega
    | ⟨1, _⟩ => show win0_5.index t (1 : Fin 2) * 7 + 1 * (y 1).val = (y 1).val; omega
  show (dat.after 5 t : S512x7.Idx → Elt F .f32) ((cfg0.win 5).xinj (cfg0.grid.coords t) y) = G (((cfg0.win 5).blk t).view.emb y)
  rw [hx, he]
  exact hflush t ((flush0_5 t).mp hf) _ _

/-- Every index of the array is in the block of a writing point: row r in that of (r / 512) · 8 + 7. -/
theorem cover5 (i : S8192x7.Idx) :
    ∃ t : Fin cfg0.N, (cfg0.win 5).flush t = true ∧ i ∈ ((cfg0.win 5).blk t).view.set := by
  have hi0 : (i 0).val < 8192 := (i 0).isLt
  have hi1 : (i 1).val < 7 := (i 1).isLt
  have hN : cfg0.N = 128 := pointCount
  let t : Fin cfg0.N := ⟨((i 0).val / 512) * 8 + 7, by rw [hN]; omega⟩
  have htv : t.val = ((i 0).val / 512) * 8 + 7 := rfl
  obtain ⟨e0, e1⟩ := idx5 t
  refine ⟨t, (flush0_5 t).mpr (by rw [htv]; omega), ?_⟩
  rw [mem_blk5]
  intro a
  match a with
  | ⟨0, _⟩ =>
    show win0_5.index t (0 : Fin 2) * 512 ≤ (i 0).val ∧ (i 0).val < win0_5.index t (0 : Fin 2) * 512 + 512
    rw [e0, htv]; omega
  | ⟨1, _⟩ =>
    show win0_5.index t (1 : Fin 2) * 7 ≤ (i 1).val ∧ (i 1).val < win0_5.index t (1 : Fin 2) * 7 + 7
    rw [e1]; omega

/-- So the result array ends holding G. -/
theorem result_of_flushes
    (hflush : ∀ t : Fin cfg0.N, t.val % 8 = 7 → ∀ (p : Fin 512) (k : Fin 7),
      (dat.after 5 t : S512x7.Idx → Elt F .f32) (ix2 p k) = G (ix2 (rowOf t p) k)) :
    dat.arrAt 5 cfg0.N = G :=
  dat.arrAt_eq_of_cover 5 G (flushed5_eq dat G hflush) cover5

end Cert.KernelIdeal.Blocks

end
-- ==== Proof.KiBlockReads.lean ====
/-
  The five input windows' blocks, read at local coordinates.

  At grid point t (row block t / 8, column block t % 8) the two row-block windows hold rows
  (t / 8) · 512 + p of the two narrowed feature arrays, the two column-block windows rows
  (t % 8) · 1024 + q of them, and the mask window the entries at those rows and columns: a block's
  element (y₀, y₁) is the array's element at (block index · block size + y) on each axis.
-/
import proofs.«171571_j44796508897300_1_alg».proof.Proof.Gen.KernelIdeal.Points
import proofs.«171571_j44796508897300_1_alg».proof.Proof.KiBlocks
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]

/-- The input windows' block indices at point t, decided over the 128 points: the row-block
    windows and the mask's first axis follow t / 8, the column-block windows and the mask's
    second axis t % 8, every feature axis is whole. -/
theorem idxIn : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = 0
    ∧ win0_3.index t (0 : Fin 2) = t.val % 8 ∧ win0_3.index t (1 : Fin 2) = 0
    ∧ win0_4.index t (0 : Fin 2) = t.val / 8 ∧ win0_4.index t (1 : Fin 2) = t.val % 8 :=
  (by decide +kernel : ∀ t : Fin grid0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = 0
    ∧ win0_3.index t (0 : Fin 2) = t.val % 8 ∧ win0_3.index t (1 : Fin 2) = 0
    ∧ win0_4.index t (0 : Fin 2) = t.val / 8 ∧ win0_4.index t (1 : Fin 2) = t.val % 8)

/-- The grid coordinates of point t: (t / 8, t % 8). -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The global column (a row of a feature array, a column of the mask) under position q of the
    column block of point t. -/
def colOf (t : Fin cfg0.N) (q : Fin 1024) : Fin 8192 :=
  ⟨(t.val % 8) * 1024 + q.val, by omega⟩

theorem colOf_val (t : Fin cfg0.N) (q : Fin 1024) : (colOf t q).val = (t.val % 8) * 1024 + q.val := rfl

variable {c : Dev nD} (V : (b : Ref sig .tc) → Buf (Elt F) ((c : Thread nD τ).loc b))

/-- Window 0: the row block of the first narrowed feature array. -/
theorem blk0_read (t : Fin cfg0.N) (p : Fin 512) (d : Fin 128) :
    (((cfg0.win 0).blk t).view.read (Elt F) (V (Pipeline.arrRef spec0 0)) : S512x128.Idx → Elt F .bf16) (ix2 p d)
      = (V main_v16 : S8192x128.Idx → Elt F .bf16) (ix2 (rowOf t p) d) := by
  obtain ⟨e00, e01, -⟩ := idxIn t
  show (V main_v16 : S8192x128.Idx → Elt F .bf16) (((cfg0.win 0).blk t).view.emb (ix2 p d)) = _
  refine congrArg (V main_v16 : S8192x128.Idx → Elt F .bf16) ?_
  funext a; apply Fin.ext
  match a with
  | ⟨0, _⟩ => show win0_0.index t (0 : Fin 2) * 512 + 1 * p.val = (t.val / 8) * 512 + p.val; omega
  | ⟨1, _⟩ => show win0_0.index t (1 : Fin 2) * 128 + 1 * d.val = d.val; omega

/-- Window 1: the row block of the second narrowed feature array. -/
theorem blk1_read (t : Fin cfg0.N) (p : Fin 512) (d : Fin 128) :
    (((cfg0.win 1).blk t).view.read (Elt F) (V (Pipeline.arrRef spec0 1)) : S512x128.Idx → Elt F .bf16) (ix2 p d)
      = (V main_v17 : S8192x128.Idx → Elt F .bf16) (ix2 (rowOf t p) d) := by
  obtain ⟨-, -, e10, e11, -⟩ := idxIn t
  show (V main_v17 : S8192x128.Idx → Elt F .bf16) (((cfg0.win 1).blk t).view.emb (ix2 p d)) = _
  refine congrArg (V main_v17 : S8192x128.Idx → Elt F .bf16) ?_
  funext a; apply Fin.ext
  match a with
  | ⟨0, _⟩ => show win0_1.index t (0 : Fin 2) * 512 + 1 * p.val = (t.val / 8) * 512 + p.val; omega
  | ⟨1, _⟩ => show win0_1.index t (1 : Fin 2) * 128 + 1 * d.val = d.val; omega

/-- Window 2: the column block of the first narrowed feature array. -/
theorem blk2_read (t : Fin cfg0.N) (q : Fin 1024) (d : Fin 128) :
    (((cfg0.win 2).blk t).view.read (Elt F) (V (Pipeline.arrRef spec0 2)) : S1024x128.Idx → Elt F .bf16) (ix2 q d)
      = (V main_v16 : S8192x128.Idx → Elt F .bf16) (ix2 (colOf t q) d) := by
  obtain ⟨-, -, -, -, e20, e21, -⟩ := idxIn t
  show (V main_v16 : S8192x128.Idx → Elt F .bf16) (((cfg0.win 2).blk t).view.emb (ix2 q d)) = _
  refine congrArg (V main_v16 : S8192x128.Idx → Elt F .bf16) ?_
  funext a; apply Fin.ext
  match a with
  | ⟨0, _⟩ => show win0_2.index t (0 : Fin 2) * 1024 + 1 * q.val = (t.val % 8) * 1024 + q.val; omega
  | ⟨1, _⟩ => show win0_2.index t (1 : Fin 2) * 128 + 1 * d.val = d.val; omega

/-- Window 3: the column block of the second narrowed feature array. -/
theorem blk3_read (t : Fin cfg0.N) (q : Fin 1024) (d : Fin 128) :
    (((cfg0.win 3).blk t).view.read (Elt F) (V (Pipeline.arrRef spec0 3)) : S1024x128.Idx → Elt F .bf16) (ix2 q d)
      = (V main_v17 : S8192x128.Idx → Elt F .bf16) (ix2 (colOf t q) d) := by
  obtain ⟨-, -, -, -, -, -, e30, e31, -⟩ := idxIn t
  show (V main_v17 : S8192x128.Idx → Elt F .bf16) (((cfg0.win 3).blk t).view.emb (ix2 q d)) = _
  refine congrArg (V main_v17 : S8192x128.Idx → Elt F .bf16) ?_
  funext a; apply Fin.ext
  match a with
  | ⟨0, _⟩ => show win0_3.index t (0 : Fin 2) * 1024 + 1 * q.val = (t.val % 8) * 1024 + q.val; omega
  | ⟨1, _⟩ => show win0_3.index t (1 : Fin 2) * 128 + 1 * d.val = d.val; omega

/-- Window 4: the mask tile. -/
theorem blk4_read (t : Fin cfg0.N) (p : Fin 512) (q : Fin 1024) :
    (((cfg0.win 4).blk t).view.read (Elt F) (V (Pipeline.arrRef spec0 4)) : S512x1024.Idx → Elt F .f32) (ix2 p q)
      = (V main_arg2 : S8192x8192.Idx → Elt F .f32) (ix2 (rowOf t p) (colOf t q)) := by
  obtain ⟨-, -, -, -, -, -, -, -, e40, e41⟩ := idxIn t
  show (V main_arg2 : S8192x8192.Idx → Elt F .f32) (((cfg0.win 4).blk t).view.emb (ix2 p q)) = _
  refine congrArg (V main_arg2 : S8192x8192.Idx → Elt F .f32) ?_
  funext a; apply Fin.ext
  match a with
  | ⟨0, _⟩ => show win0_4.index t (0 : Fin 2) * 512 + 1 * p.val = (t.val / 8) * 512 + p.val; omega
  | ⟨1, _⟩ => show win0_4.index t (1 : Fin 2) * 1024 + 1 * q.val = (t.val % 8) * 1024 + q.val; omega

end Cert.KernelIdeal.Blocks

end
-- ==== Proof.KiPoints.lean ====
/-
  The two ways of naming a tile's global position agree.

  The body's arithmetic is read at grid coordinates i = (i₀, i₁): row i₀ · 512 + p, column
  i₁ · 1024 + q.  The windows' blocks are read at the point's number t: row (t / 8) · 512 + p, column
  (t % 8) · 1024 + q.  Point t has coordinates (t / 8, t % 8), so the two are the same positions.
-/
import proofs.«171571_j44796508897300_1_alg».proof.Proof.KiPayTerm
import proofs.«171571_j44796508897300_1_alg».proof.Proof.KiBlockReads

noncomputable section

namespace Cert.KernelIdeal.Blocks

open Cert.KernelIdeal Cert.KernelIdeal.Gen Idealize.ShloMosaic

/-- The row named through point t's coordinates is the row named through t. -/
theorem rowAt_coords (t : Fin cfg0.N) (p : Fin 512) : PayValue.rowAt (grid0.coords t) p = rowOf t p :=
  Fin.ext (by rw [PayValue.rowAt_val, rowOf_val, (coords_val t).1])

/-- The column named through point t's coordinates is the column named through t. -/
theorem colAt_coords (t : Fin cfg0.N) (q : Fin 1024) : PayValue.colAt (grid0.coords t) q = colOf t q :=
  Fin.ext (by rw [PayValue.colAt_val, colOf_val, (coords_val t).2])

end Cert.KernelIdeal.Blocks

end
-- ==== Proof.KiResult.lean ====
/- The region's result array on the extended reals: the seven row sums of the loss.
   Fix a row block, a row p of it and a column k. Walking the row block's 8 column blocks in order, the entry
   (p, k) of the staging block of row sums starts, at the first column block, at zero plus that block's sum of
   summand k over its 1024 columns, and gains the next block's sum at each later one; the blocks read are those of
   the three arrays the region finds (the two narrowed normalised feature arrays and the mask). After the last
   column block the entry is the sum over all 8192 columns, the loss's row sum, and that is when the block is
   written back; the 16 written blocks make up the whole array. -/
import proofs.«171571_j44796508897300_1_alg».proof.Proof.KiColumns
import proofs.«171571_j44796508897300_1_alg».proof.Proof.KiPoints

-- membership of an index in a rectangle of a 512-row block is checked coordinate by coordinate
set_option maxRecDepth 16384

noncomputable section

namespace Cert.KernelIdeal.Frame

open Cert.KernelIdeal.Gen
open Idealize.ShloMosaic.ValueIdx Cert.KernelIdeal.PayValue Cert.KernelIdeal.Blocks
open scoped BigOperators
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b)) (c : Dev nD)

/-! ## The blocks the body reads, at global coordinates -/

theorem rd0 (t : Fin cfg0.N) (p : Fin 512) (d : Fin 128) :
    (blk V c 0 t : S512x128.Idx → EReal) (ix2 p d) = (V c main_v16 : S8192x128.Idx → EReal) (ix2 (rowAt (grid0.coords t) p) d) := by
  rw [rowAt_coords]; exact blk0_read (V c) t p d
theorem rd1 (t : Fin cfg0.N) (p : Fin 512) (d : Fin 128) :
    (blk V c 1 t : S512x128.Idx → EReal) (ix2 p d) = (V c main_v17 : S8192x128.Idx → EReal) (ix2 (rowAt (grid0.coords t) p) d) := by
  rw [rowAt_coords]; exact blk1_read (V c) t p d
theorem rd2 (t : Fin cfg0.N) (q : Fin 1024) (d : Fin 128) :
    (blk V c 2 t : S1024x128.Idx → EReal) (ix2 q d) = (V c main_v16 : S8192x128.Idx → EReal) (ix2 (colAt (grid0.coords t) q) d) := by
  rw [colAt_coords]; exact blk2_read (V c) t q d
theorem rd3 (t : Fin cfg0.N) (q : Fin 1024) (d : Fin 128) :
    (blk V c 3 t : S1024x128.Idx → EReal) (ix2 q d) = (V c main_v17 : S8192x128.Idx → EReal) (ix2 (colAt (grid0.coords t) q) d) := by
  rw [colAt_coords]; exact blk3_read (V c) t q d
theorem rd4 (t : Fin cfg0.N) (p : Fin 512) (q : Fin 1024) :
    (blk V c 4 t : S512x1024.Idx → EReal) (ix2 p q) = (V c main_arg2 : S8192x8192.Idx → EReal) (ix2 (rowAt (grid0.coords t) p) (colAt (grid0.coords t) q)) := by
  rw [rowAt_coords, colAt_coords]; exact blk4_read (V c) t p q

/-! ## One point's contribution -/

/-- Row `p` of row block `I`, and column `q` of column block `j`, as rows and columns of the whole arrays. -/
def rowN (I : ℕ) (p : Fin 512) : Fin 8192 := ⟨(I % 16) * 512 + p.val, by omega⟩
def colN (j : ℕ) (q : Fin 1024) : Fin 8192 := ⟨(j % 8) * 1024 + q.val, by omega⟩

/-- The sum of summand `k` at row `p` of row block `I` over the 1024 columns of column block `j`. -/
def blockSum (p : Fin 512) (k : Fin 7) (I j : ℕ) : EReal :=
  ∑ q : Fin 1024, Cert.Loss.term (V c main_v16) (V c main_v17) (V c main_arg2) (rowN I p) (colN j q) k

theorem rowAt_eq (t : Fin cfg0.N) (p : Fin 512) : rowAt (grid0.coords t) p = rowN (t.val / 8) p := by
  have hN : t.val < 128 := lt_of_lt_of_eq t.isLt pointCount
  rw [rowAt_coords]; apply Fin.ext; show t.val / 8 * 512 + p.val = (t.val / 8 % 16) * 512 + p.val; omega
theorem colAt_eq (t : Fin cfg0.N) (q : Fin 1024) : colAt (grid0.coords t) q = colN (t.val % 8) q := by
  rw [colAt_coords]; apply Fin.ext; show t.val % 8 * 1024 + q.val = (t.val % 8 % 8) * 1024 + q.val; omega

/-- At the first column block of a row block the entry restarts at zero plus the block's sum. -/
theorem entry_reset (t : Fin cfg0.N) (h : t.val % 8 = 0) (p : Fin 512) (k : Fin 7) :
    (acc V c t.val t.isLt : S512x7.Idx → EReal) (ix2 p k) = 0 + blockSum V c p k (t.val / 8) (t.val % 8) := by
  rw [acc_reset V c t h]
  refine (congrFun (outA_eq (F := Ideal) c (grid0.coords t) (ms0 t) (hs0 t) (ms1 t) (hs1 t) (ms2 t) (hs2 t) (ms3 t) (hs3 t) (ms4 t) (hs4 t) (ms5 t) (hs5 t) ((firstCol_iff t).mpr h) (blk V c 0 t) (blk V c 1 t) (blk V c 2 t) (blk V c 3 t) (blk V c 4 t)) (ix2 p k)).trans ?_
  refine (cols_entry (V c main_v16) (V c main_v17) (V c main_arg2) (grid0.coords t) (blk V c 0 t) (blk V c 1 t) (blk V c 2 t) (blk V c 3 t) (blk V c 4 t) (rd0 V c t) (rd1 V c t) (rd2 V c t) (rd3 V c t) (rd4 V c t)
    (k0_pay4 (F := Ideal)) [zeroFill] p k).trans ?_
  rw [k0_pay4_apply]
  unfold blockSum
  simp only [rowAt_eq, colAt_eq]

/-- At a later column block it gains the block's sum. -/
theorem entry_step (t : Fin cfg0.N) (h : t.val % 8 ≠ 0) (p : Fin 512) (k : Fin 7) :
    (acc V c t.val t.isLt : S512x7.Idx → EReal) (ix2 p k)
      = (acc V c (t.val - 1) (Nat.lt_of_le_of_lt (Nat.sub_le _ _) t.isLt) : S512x7.Idx → EReal) (ix2 p k) + blockSum V c p k (t.val / 8) (t.val % 8) := by
  rw [acc_step V c t h]
  refine (congrFun (outB_eq (F := Ideal) c (grid0.coords t) (ms0 t) (hs0 t) (ms1 t) (hs1 t) (ms2 t) (hs2 t) (ms3 t) (hs3 t) (ms4 t) (hs4 t) (ms5 t) (hs5 t) (fun hc => h ((firstCol_iff t).mp hc)) (blk V c 0 t) (blk V c 1 t) (blk V c 2 t) (blk V c 3 t) (blk V c 4 t) (acc V c (t.val - 1) (Nat.lt_of_le_of_lt (Nat.sub_le _ _) t.isLt))) (ix2 p k)).trans ?_
  refine ((congrArg (fun L => View.canon L (ix2 p k)) (List.append_nil _).symm).trans
    (cols_entry (V c main_v16) (V c main_v17) (V c main_arg2) (grid0.coords t) (blk V c 0 t) (blk V c 1 t) (blk V c 2 t) (blk V c 3 t) (blk V c 4 t) (rd0 V c t) (rd1 V c t) (rd2 V c t) (rd3 V c t) (rd4 V c t)
      (acc V c (t.val - 1) (Nat.lt_of_le_of_lt (Nat.sub_le _ _) t.isLt)) [] p k)).trans ?_
  unfold blockSum
  simp only [rowAt_eq, colAt_eq]

/-! ## The running sums -/

/-- After the body at point `n`, entry (p, k) holds the sums of the column blocks 0 … n % 8 of the row block n / 8. -/
theorem acc_prefix (p : Fin 512) (k : Fin 7) : ∀ (n : ℕ) (hn : n < cfg0.N),
    (acc V c n hn : S512x7.Idx → EReal) (ix2 p k) = ∑ j ∈ Finset.range (n % 8 + 1), blockSum V c p k (n / 8) j
  | 0, hn => by
    rw [entry_reset V c ⟨0, hn⟩ rfl p k, zero_add]
    simp
  | n + 1, hn => by
    by_cases h : (n + 1) % 8 = 0
    · rw [entry_reset V c ⟨n + 1, hn⟩ h p k, zero_add]
      show blockSum V c p k ((n + 1) / 8) ((n + 1) % 8) = _
      rw [h]; simp
    · rw [entry_step V c ⟨n + 1, hn⟩ h p k]
      show (acc V c n _ : S512x7.Idx → EReal) (ix2 p k) + blockSum V c p k ((n + 1) / 8) ((n + 1) % 8) = _
      rw [acc_prefix p k n (Nat.lt_of_succ_lt hn)]
      have e1 : (n + 1) % 8 = n % 8 + 1 := by omega
      have e2 : (n + 1) / 8 = n / 8 := by omega
      rw [e1, e2, Finset.sum_range_succ (fun j => blockSum V c p k (n / 8) j) (n % 8 + 1)]

/-- After the last column block of a row block, entry (p, k) is the loss's k-th row sum at that row. -/
theorem acc_last (t : Fin cfg0.N) (h : t.val % 8 = 7) (p : Fin 512) (k : Fin 7) :
    (acc V c t.val t.isLt : S512x7.Idx → EReal) (ix2 p k)
      = Cert.Loss.col (V c main_v16) (V c main_v17) (V c main_arg2) k (ix1 (rowOf t p)) := by
  have hN : t.val < 128 := lt_of_lt_of_eq t.isLt pointCount
  rw [acc_prefix V c p k t.val t.isLt, h, col_eq_blocks, Finset.sum_range]
  refine Finset.sum_congr rfl fun j _ => ?_
  unfold blockSum
  refine Finset.sum_congr rfl fun q _ => ?_
  have er : rowN (t.val / 8) p = rowOf t p := Fin.ext (by show (t.val / 8 % 16) * 512 + p.val = t.val / 8 * 512 + p.val; omega)
  have ec : colN j.val q = ⟨j.val * 1024 + q.val, by omega⟩ := Fin.ext (by show (j.val % 8) * 1024 + q.val = j.val * 1024 + q.val; have := j.isLt; omega)
  rw [er, ec]

/-! ## The result array -/

/-- The region leaves in its result array, at (row r, column k), the loss's k-th row sum at row r of the three
    arrays it read. -/
theorem result_eq :
    ((dat V c).arrAt 5 cfg0.N : S8192x7.Idx → EReal)
      = fun j => Cert.Loss.col (V c main_v16) (V c main_v17) (V c main_arg2) (j 1) (ix1 (j 0)) :=
  result_of_flushes (dat V c) (fun j => Cert.Loss.col (V c main_v16) (V c main_v17) (V c main_arg2) (j 1) (ix1 (j 0)))
    fun t h p k => by
      rw [dat_after5 V c t]
      exact acc_last V c t h p k

end Cert.KernelIdeal.Frame

end
-- ==== Proof.RefPairs.lean ====
/-
  The reference's [8192, 8192] arrays read at one pair (r, k) of rows.

  * The float 1.0 is the real number 1, and division by it changes nothing on the extended reals.
  * 1 − [r = k] is `off r k`: the row and column counters are below 2³², so the 32-bit comparison of
    the two counters is the comparison of r and k; the bit read as a number is 1 or 0, and 1 − 1 = 0, 1 − 0 = 1.
  * exp((u · vᵀ)(r, k) / 1) is `sim u v r k`: the contraction of row r of u with column k of the transpose of v
    is the sum over d of u(r, d) · v(k, d).
  * The mask-weighted entries: off · m, 1 − m and off · (1 − m).
-/
import proofs.«171571_j44796508897300_1_alg».proof.Proof.Gen.ReferenceIdeal.Read
import proofs.«171571_j44796508897300_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-- The pattern 0x3F800000 denotes the real number 1. -/
theorem one_eq : Ideal.ofBits .f32 0x3F800000#32 = 1 := by
  simp [Ideal.ofBits, Ideal.ieee, -EReal.coe_mul]
  norm_num

/-- Division by 1 is the identity on the extended reals (the infinities included). -/
theorem div_one (x : EReal) : Ideal.div x 1 = x := by
  rw [Ideal.div, if_neg one_ne_zero, inv_one, mul_one]

/-- A rank-2 index is determined by its two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- The 32-bit comparison of the row counter (plus zero) with the column counter is the comparison of the
    coordinates: both are below 8192, far below 2³². -/
theorem cmp_diag (r k : Fin 8192) :
    IntOp.cmpi .eq (IntOp.addi (BitVec.ofNat 32 r.val) 0#32) (BitVec.ofNat 32 k.val) = if r.val = k.val then 1#1 else 0#1 := by
  unfold IntOp.cmpi IntOp.addi
  rw [BitVec.add_zero]
  by_cases h : r.val = k.val
  · rw [if_pos h, h]; simp
  · rw [if_neg h]
    have hne : BitVec.ofNat 32 r.val ≠ BitVec.ofNat 32 k.val := by
      intro e
      have e' := congrArg BitVec.toNat e
      simp only [BitVec.toNat_ofNat] at e'
      have hr := r.isLt
      have hk := k.isLt
      omega
    rw [beq_false_of_ne hne]; rfl

/-- 1 − [r = k], the matrix of ones with a zero diagonal, at (r, k). -/
theorem off_eq (r k : Fin 8192) : val_main_v23 (F := Ideal) (ix2 r k) = Cert.Loss.off r k := by
  rw [val_main_v23_apply, val_main_v22_apply, val_main_cst_3_apply, val_main_v21_apply, val_main_v20_apply,
    val_main_v19_apply, val_main_v16_apply, val_main_v17_apply, val_main_v18_apply, val_main_c_apply]
  show Ideal.ofBits .f32 0x3F800000#32
      - (((IntOp.cmpi .eq (IntOp.addi (BitVec.ofNat 32 r.val) 0#32) (BitVec.ofNat 32 k.val)).toNat : ℝ) : EReal) = Cert.Loss.off r k
  rw [cmp_diag]
  unfold Cert.Loss.off
  by_cases h : r.val = k.val
  · rw [if_pos h, if_pos h, one_eq]
    show (1 : EReal) - (((1 : Nat) : ℝ) : EReal) = 0
    rw [Nat.cast_one, EReal.coe_one, ← EReal.coe_one, ← EReal.coe_sub, sub_self, EReal.coe_zero]
  · rw [if_neg h, if_neg h]
    show Ideal.ofBits .f32 0x3F800000#32 - (((0 : Nat) : ℝ) : EReal) = _
    rw [Nat.cast_zero, EReal.coe_zero, sub_zero]

/-- exp of (first features · second featuresᵀ) / 1 at (r, k). -/
theorem sim12 (x1 x2 : (⟨S8192x128, .f32⟩ : BufTy).Contents (Elt Ideal)) (r k : Fin 8192) :
    val_main_v32 (F := Ideal) x1 x2 (ix2 r k)
      = Cert.Loss.sim (val_main_v7 (F := Ideal) x1) (val_main_v15 (F := Ideal) x2) r k := by
  rw [val_main_v32_apply, val_main_v31_apply, val_main_v29_apply, val_main_v30_apply, val_main_cst_5_apply]
  simp only [val_main_v28_apply]
  generalize val_main_v7 (F := Ideal) x1 = a
  generalize val_main_v15 (F := Ideal) x2 = b
  show Ideal.exp (Ideal.div (∑ d : Fin 128, a (lidx_main_v29 (ix2 r k) d) * b (idx_main_v28 (ridx_main_v29 (ix2 r k) d)))
      (Ideal.ofBits .f32 0x3F800000#32)) = _
  rw [one_eq, div_one]
  unfold Cert.Loss.sim
  refine congrArg Ideal.exp (Finset.sum_congr rfl fun d _ => ?_)
  rw [idx2_ext (lidx_main_v29 (ix2 r k) d) r d rfl rfl, idx2_ext (idx_main_v28 (ridx_main_v29 (ix2 r k) d)) k d rfl rfl]

/-- exp of (first features · first featuresᵀ) / 1 at (r, k). -/
theorem sim11 (x1 : (⟨S8192x128, .f32⟩ : BufTy).Contents (Elt Ideal)) (r k : Fin 8192) :
    val_main_v37 (F := Ideal) x1 (ix2 r k)
      = Cert.Loss.sim (val_main_v7 (F := Ideal) x1) (val_main_v7 (F := Ideal) x1) r k := by
  rw [val_main_v37_apply, val_main_v36_apply, val_main_v34_apply, val_main_v35_apply, val_main_cst_6_apply]
  simp only [val_main_v33_apply]
  generalize val_main_v7 (F := Ideal) x1 = a
  show Ideal.exp (Ideal.div (∑ d : Fin 128, a (lidx_main_v34 (ix2 r k) d) * a (idx_main_v33 (ridx_main_v34 (ix2 r k) d)))
      (Ideal.ofBits .f32 0x3F800000#32)) = _
  rw [one_eq, div_one]
  unfold Cert.Loss.sim
  refine congrArg Ideal.exp (Finset.sum_congr rfl fun d _ => ?_)
  rw [idx2_ext (lidx_main_v34 (ix2 r k) d) r d rfl rfl, idx2_ext (idx_main_v33 (ridx_main_v34 (ix2 r k) d)) k d rfl rfl]

/-- exp of (second features · second featuresᵀ) / 1 at (r, k). -/
theorem sim22 (x2 : (⟨S8192x128, .f32⟩ : BufTy).Contents (Elt Ideal)) (r k : Fin 8192) :
    val_main_v42 (F := Ideal) x2 (ix2 r k)
      = Cert.Loss.sim (val_main_v15 (F := Ideal) x2) (val_main_v15 (F := Ideal) x2) r k := by
  rw [val_main_v42_apply, val_main_v41_apply, val_main_v39_apply, val_main_v40_apply, val_main_cst_7_apply]
  simp only [val_main_v38_apply]
  generalize val_main_v15 (F := Ideal) x2 = b
  show Ideal.exp (Ideal.div (∑ d : Fin 128, b (lidx_main_v39 (ix2 r k) d) * b (idx_main_v38 (ridx_main_v39 (ix2 r k) d)))
      (Ideal.ofBits .f32 0x3F800000#32)) = _
  rw [one_eq, div_one]
  unfold Cert.Loss.sim
  refine congrArg Ideal.exp (Finset.sum_congr rfl fun d _ => ?_)
  rw [idx2_ext (lidx_main_v39 (ix2 r k) d) r d rfl rfl, idx2_ext (idx_main_v38 (ridx_main_v39 (ix2 r k) d)) k d rfl rfl]

/-- off · m at (r, k). -/
theorem offPos (mk : (⟨S8192x8192, .f32⟩ : BufTy).Contents (Elt Ideal)) (r k : Fin 8192) :
    val_main_v24 (F := Ideal) mk (ix2 r k) = Cert.Loss.off r k * mk (ix2 r k) := by
  rw [val_main_v24_apply, off_eq]; rfl

/-- 1 − m at (r, k), in its three copies. -/
theorem negMask26 (mk : (⟨S8192x8192, .f32⟩ : BufTy).Contents (Elt Ideal)) (i : S8192x8192.Idx) :
    val_main_v26 (F := Ideal) mk i = Cert.Loss.one - mk i := by
  rw [val_main_v26_apply, val_main_v25_apply, val_main_cst_4_apply]; rfl
theorem negMask52 (mk : (⟨S8192x8192, .f32⟩ : BufTy).Contents (Elt Ideal)) (i : S8192x8192.Idx) :
    val_main_v52 (F := Ideal) mk i = Cert.Loss.one - mk i := by
  rw [val_main_v52_apply, val_main_v51_apply, val_main_cst_12_apply]; rfl

/-- off · (1 − m) at (r, k). -/
theorem offNeg (mk : (⟨S8192x8192, .f32⟩ : BufTy).Contents (Elt Ideal)) (r k : Fin 8192) :
    val_main_v27 (F := Ideal) mk (ix2 r k) = Cert.Loss.off r k * (Cert.Loss.one - mk (ix2 r k)) := by
  rw [val_main_v27_apply, off_eq, negMask26]; rfl

end Cert.ReferenceIdeal.RefValue

end
-- ==== Proof.RefRows.lean ====
/-
  The reference's seven row sums are the seven columns of `Cert.Loss.col`.

  Each is a sum over the 8192 columns k, started from the float zero, of an entrywise product read at (r, k);
  the start value is the real 0 and drops out.  The denominator column is the sum of two such sums,
  Σ m + Σ off·m = Σ (m + off·m): a sum of sums in a commutative monoid, with no finiteness needed.
  Two of the sums are computed twice by the program; the copies are the same terms.
-/
import proofs.«171571_j44796508897300_1_alg».proof.Proof.RefPairs

noncomputable section

namespace Cert.ReferenceIdeal.RefValue

open Cert.ReferenceIdeal Cert.ReferenceIdeal.Gen Cert.ReferenceIdeal.Read Idealize.ShloMosaic Idealize.ShloMosaic.ValueIdx
open scoped BigOperators

/-- Column 0, the denominator: Σₖ m + Σₖ off·m = Σₖ (m + off·m).  It does not depend on the features. -/
theorem row0 (a b : Cert.Loss.Feat) (mk : (⟨S8192x8192, .f32⟩ : BufTy).Contents (Elt Ideal)) :
    val_main_v45 (F := Ideal) mk = Cert.Loss.col a b mk 0 := by
  funext i
  obtain ⟨r, rfl⟩ : ∃ r : Fin 8192, i = ix1 r := ⟨i 0, eq_ix1 i⟩
  rw [val_main_v45_apply, val_main_v43_apply, val_main_v44_apply, val_main_cst_8_apply, val_main_cst_9_apply]
  show (Ideal.ofBits .f32 0x00000000#32 + ∑ k : Fin 8192, mk (idx_main_v43 (ix1 r) k))
      + (Ideal.ofBits .f32 0x00000000#32 + ∑ k : Fin 8192, val_main_v24 (F := Ideal) mk (idx_main_v44 (ix1 r) k))
      = ∑ k : Fin 8192, (mk (ix2 r k) + Cert.Loss.off r k * mk (ix2 r k))
  rw [Ideal.ofBits_zero_f32, zero_add, zero_add, ← Finset.sum_add_distrib]
  refine Finset.sum_congr rfl fun k _ => ?_
  rw [idx2_ext (idx_main_v43 (ix1 r) k) r k rfl rfl, idx2_ext (idx_main_v44 (ix1 r) k) r k rfl rfl, offPos]

/-- Column 1: Σₖ sim₁₂ · m. -/
theorem row1 (x1 x2 : (⟨S8192x128, .f32⟩ : BufTy).Contents (Elt Ideal)) (mk : (⟨S8192x8192, .f32⟩ : BufTy).Contents (Elt Ideal)) :
    val_main_v47 (F := Ideal) x1 x2 mk = Cert.Loss.col (val_main_v7 (F := Ideal) x1) (val_main_v15 (F := Ideal) x2) mk 1 := by
  funext i
  obtain ⟨r, rfl⟩ : ∃ r : Fin 8192, i = ix1 r := ⟨i 0, eq_ix1 i⟩
  rw [val_main_v47_apply, val_main_cst_10_apply]
  show Ideal.ofBits .f32 0x00000000#32 + ∑ k : Fin 8192, val_main_v46 (F := Ideal) x1 x2 mk (idx_main_v47 (ix1 r) k)
      = ∑ k : Fin 8192, Cert.Loss.sim (val_main_v7 (F := Ideal) x1) (val_main_v15 (F := Ideal) x2) r k * mk (ix2 r k)
  rw [Ideal.ofBits_zero_f32, zero_add]
  refine Finset.sum_congr rfl fun k _ => ?_
  rw [idx2_ext (idx_main_v47 (ix1 r) k) r k rfl rfl, val_main_v46_apply, sim12]; rfl

/-- Column 2: Σₖ sim₁₂ · (1 − m). -/
theorem row2 (x1 x2 : (⟨S8192x128, .f32⟩ : BufTy).Contents (Elt Ideal)) (mk : (⟨S8192x8192, .f32⟩ : BufTy).Contents (Elt Ideal)) :
    val_main_v54 (F := Ideal) x1 x2 mk = Cert.Loss.col (val_main_v7 (F := Ideal) x1) (val_main_v15 (F := Ideal) x2) mk 2 := by
  funext i
  obtain ⟨r, rfl⟩ : ∃ r : Fin 8192, i = ix1 r := ⟨i 0, eq_ix1 i⟩
  rw [val_main_v54_apply, val_main_cst_13_apply]
  show Ideal.ofBits .f32 0x00000000#32 + ∑ k : Fin 8192, val_main_v53 (F := Ideal) x1 x2 mk (idx_main_v54 (ix1 r) k)
      = ∑ k : Fin 8192, Cert.Loss.sim (val_main_v7 (F := Ideal) x1) (val_main_v15 (F := Ideal) x2) r k * (Cert.Loss.one - mk (ix2 r k))
  rw [Ideal.ofBits_zero_f32, zero_add]
  refine Finset.sum_congr rfl fun k _ => ?_
  rw [idx2_ext (idx_main_v54 (ix1 r) k) r k rfl rfl, val_main_v53_apply, sim12, negMask52]; rfl

/-- Column 3: Σₖ sim₁₁ · (off · m). -/
theorem row3 (x1 x2 : (⟨S8192x128, .f32⟩ : BufTy).Contents (Elt Ideal)) (mk : (⟨S8192x8192, .f32⟩ : BufTy).Contents (Elt Ideal)) :
    val_main_v49 (F := Ideal) x1 mk = Cert.Loss.col (val_main_v7 (F := Ideal) x1) (val_main_v15 (F := Ideal) x2) mk 3 := by
  funext i
  obtain ⟨r, rfl⟩ : ∃ r : Fin 8192, i = ix1 r := ⟨i 0, eq_ix1 i⟩
  rw [val_main_v49_apply, val_main_cst_11_apply]
  show Ideal.ofBits .f32 0x00000000#32 + ∑ k : Fin 8192, val_main_v48 (F := Ideal) x1 mk (idx_main_v49 (ix1 r) k)
      = ∑ k : Fin 8192, Cert.Loss.sim (val_main_v7 (F := Ideal) x1) (val_main_v7 (F := Ideal) x1) r k * (Cert.Loss.off r k * mk (ix2 r k))
  rw [Ideal.ofBits_zero_f32, zero_add]
  refine Finset.sum_congr rfl fun k _ => ?_
  rw [idx2_ext (idx_main_v49 (ix1 r) k) r k rfl rfl, val_main_v48_apply, sim11, offPos]; rfl

/-- Column 4: Σₖ sim₁₁ · (off · (1 − m)). -/
theorem row4 (x1 x2 : (⟨S8192x128, .f32⟩ : BufTy).Contents (Elt Ideal)) (mk : (⟨S8192x8192, .f32⟩ : BufTy).Contents (Elt Ideal)) :
    val_main_v56 (F := Ideal) x1 mk = Cert.Loss.col (val_main_v7 (F := Ideal) x1) (val_main_v15 (F := Ideal) x2) mk 4 := by
  funext i
  obtain ⟨r, rfl⟩ : ∃ r : Fin 8192, i = ix1 r := ⟨i 0, eq_ix1 i⟩
  rw [val_main_v56_apply, val_main_cst_14_apply]
  show Ideal.ofBits .f32 0x00000000#32 + ∑ k : Fin 8192, val_main_v55 (F := Ideal) x1 mk (idx_main_v56 (ix1 r) k)
      = ∑ k : Fin 8192, Cert.Loss.sim (val_main_v7 (F := Ideal) x1) (val_main_v7 (F := Ideal) x1) r k * (Cert.Loss.off r k * (Cert.Loss.one - mk (ix2 r k)))
  rw [Ideal.ofBits_zero_f32, zero_add]
  refine Finset.sum_congr rfl fun k _ => ?_
  rw [idx2_ext (idx_main_v56 (ix1 r) k) r k rfl rfl, val_main_v55_apply, sim11, offNeg]; rfl

/-- Column 5: Σₖ sim₂₂ · (off · m). -/
theorem row5 (x1 x2 : (⟨S8192x128, .f32⟩ : BufTy).Contents (Elt Ideal)) (mk : (⟨S8192x8192, .f32⟩ : BufTy).Contents (Elt Ideal)) :
    val_main_v72 (F := Ideal) x2 mk = Cert.Loss.col (val_main_v7 (F := Ideal) x1) (val_main_v15 (F := Ideal) x2) mk 5 := by
  funext i
  obtain ⟨r, rfl⟩ : ∃ r : Fin 8192, i = ix1 r := ⟨i 0, eq_ix1 i⟩
  rw [val_main_v72_apply, val_main_cst_20_apply]
  show Ideal.ofBits .f32 0x00000000#32 + ∑ k : Fin 8192, val_main_v71 (F := Ideal) x2 mk (idx_main_v72 (ix1 r) k)
      = ∑ k : Fin 8192, Cert.Loss.sim (val_main_v15 (F := Ideal) x2) (val_main_v15 (F := Ideal) x2) r k * (Cert.Loss.off r k * mk (ix2 r k))
  rw [Ideal.ofBits_zero_f32, zero_add]
  refine Finset.sum_congr rfl fun k _ => ?_
  rw [idx2_ext (idx_main_v72 (ix1 r) k) r k rfl rfl, val_main_v71_apply, sim22, offPos]; rfl

/-- Column 6: Σₖ sim₂₂ · (off · (1 − m)). -/
theorem row6 (x1 x2 : (⟨S8192x128, .f32⟩ : BufTy).Contents (Elt Ideal)) (mk : (⟨S8192x8192, .f32⟩ : BufTy).Contents (Elt Ideal)) :
    val_main_v79 (F := Ideal) x2 mk = Cert.Loss.col (val_main_v7 (F := Ideal) x1) (val_main_v15 (F := Ideal) x2) mk 6 := by
  funext i
  obtain ⟨r, rfl⟩ : ∃ r : Fin 8192, i = ix1 r := ⟨i 0, eq_ix1 i⟩
  rw [val_main_v79_apply, val_main_cst_23_apply]
  show Ideal.ofBits .f32 0x00000000#32 + ∑ k : Fin 8192, val_main_v78 (F := Ideal) x2 mk (idx_main_v79 (ix1 r) k)
      = ∑ k : Fin 8192, Cert.Loss.sim (val_main_v15 (F := Ideal) x2) (val_main_v15 (F := Ideal) x2) r k * (Cert.Loss.off r k * (Cert.Loss.one - mk (ix2 r k)))
  rw [Ideal.ofBits_zero_f32, zero_add]
  refine Finset.sum_congr rfl fun k _ => ?_
  rw [idx2_ext (idx_main_v79 (ix1 r) k) r k rfl rfl, val_main_v78_apply, sim22, offNeg]; rfl

/-- The second copies of columns 1 and 2 are the same terms as the first. -/
theorem row1_copy (x1 x2 : (⟨S8192x128, .f32⟩ : BufTy).Contents (Elt Ideal)) (mk : (⟨S8192x8192, .f32⟩ : BufTy).Contents (Elt Ideal)) :
    val_main_v70 (F := Ideal) x1 x2 mk = val_main_v47 (F := Ideal) x1 x2 mk := rfl
theorem row2_copy (x1 x2 : (⟨S8192x128, .f32⟩ : BufTy).Contents (Elt Ideal)) (mk : (⟨S8192x8192, .f32⟩ : BufTy).Contents (Elt Ideal)) :
    val_main_v77 (F := Ideal) x1 x2 mk = val_main_v54 (F := Ideal) x1 x2 mk := rfl

end Cert.ReferenceIdeal.RefValue

end
-- ==== Proof.RefLoss.lean ====
/-
  The reference's result is `Cert.Loss.loss` of its three arguments.

  The two normalised feature arrays are `Cert.Loss.nrm` of the arguments, operation for operation; the
  operations after the seven row sums are `Cert.Loss.tail` of them, operation for operation (the two
  recomputed sums being the same terms as their first copies); and the row sums are the columns of `Cert.Loss.col`.
-/
import proofs.«171571_j44796508897300_1_alg».proof.Proof.RefRows

noncomputable section

namespace Cert.ReferenceIdeal.RefValue

open Cert.ReferenceIdeal Cert.ReferenceIdeal.Gen Cert.ReferenceIdeal.Read Idealize.ShloMosaic Idealize.ShloMosaic.ValueIdx
open scoped BigOperators

/-- The relations between the literal shapes, as the reference program states them. -/
theorem shapeFacts : Cert.Loss.ShapeFacts where
  red := reducesTo_S8192x128_S8192_d1
  pos0 := h_S_
  b1 := bcast_S8192_S8192x1_0
  b2 := bcast_S_S8192x1
  b3 := bcast_S8192x1_S8192x128_0_1
  b4 := bcast_S_S8192
  red0 := reducesTo_S8192_S_d0

/-- The first normalised feature array: x / max(‖x‖, 1e-12) row by row. -/
theorem nrm1 (x : (⟨S8192x128, .f32⟩ : BufTy).Contents (Elt Ideal)) : val_main_v7 (F := Ideal) x = Cert.Loss.nrm shapeFacts x := rfl
/-- The second, by the same operations. -/
theorem nrm2 (x : (⟨S8192x128, .f32⟩ : BufTy).Contents (Elt Ideal)) : val_main_v15 (F := Ideal) x = Cert.Loss.nrm shapeFacts x := rfl

/-- From the seven row sums to the result: the reference's last operations are `tail`. -/
theorem ref_tail (x1 x2 : (⟨S8192x128, .f32⟩ : BufTy).Contents (Elt Ideal)) (mk : (⟨S8192x8192, .f32⟩ : BufTy).Contents (Elt Ideal)) :
    val_main_v93 (F := Ideal) x1 x2 mk
      = Cert.Loss.tail shapeFacts (val_main_v45 (F := Ideal) mk) (val_main_v47 (F := Ideal) x1 x2 mk)
          (val_main_v54 (F := Ideal) x1 x2 mk) (val_main_v49 (F := Ideal) x1 mk) (val_main_v56 (F := Ideal) x1 mk)
          (val_main_v72 (F := Ideal) x2 mk) (val_main_v79 (F := Ideal) x2 mk) := rfl

theorem ref_loss (x1 x2 : (⟨S8192x128, .f32⟩ : BufTy).Contents (Elt Ideal)) (mk : (⟨S8192x8192, .f32⟩ : BufTy).Contents (Elt Ideal)) :
    Cert.ReferenceIdeal.Read.val_main_v93 (F := Ideal) x1 x2 mk = Cert.Loss.loss shapeFacts x1 x2 mk := by
  rw [ref_tail, row0 (Cert.Loss.nrm shapeFacts x1) (Cert.Loss.nrm shapeFacts x2) mk, row1, row2, row3 x1 x2, row4 x1 x2,
    row5 x1 x2, row6 x1 x2, nrm1, nrm2]
  rfl

end Cert.ReferenceIdeal.RefValue

end
-- ==== Proof.lean ====
/-
  The kernel tiles the 8192 x 8192 plane of row pairs in 16 x 8 tiles and keeps, for every row, seven running sums
  over the columns (the mask's row sum with its off-diagonal part, and six masked sums of exp ⟨u_r, v_k⟩ for the three
  pairings of the two normalised feature arrays); the reference takes the same seven sums with whole-array
  operations.  On the extended reals a sum over 8192 columns is the sum of its eight blocks of 1024, whatever the
  grouping, and a sum of two summands is the two sums added; nothing else separates the two programs: both then
  apply the same operations to the seven row sums.  So both end at `Cert.Loss.loss` of the arguments.

  Two of the kernel's windows read one array; its frame holds each such array as two half shares.
-/
import proofs.«171571_j44796508897300_1_alg».proof.Defs
import proofs.«171571_j44796508897300_1_alg».proof.Proof.Gen.Kernel
import proofs.«171571_j44796508897300_1_alg».proof.Proof.Gen.KernelIdeal
import proofs.«171571_j44796508897300_1_alg».proof.Proof.Gen.ReferenceIdeal
import proofs.«171571_j44796508897300_1_alg».proof.Proof.Gen.ReferenceIdeal.Run
import proofs.«171571_j44796508897300_1_alg».proof.Proof.Gen.ReferenceIdeal.Read
import proofs.«171571_j44796508897300_1_alg».proof.Proof.Gen.Pre_finite_inputs
import proofs.«171571_j44796508897300_1_alg».proof.Proof.KbArgs
import proofs.«171571_j44796508897300_1_alg».proof.Proof.KiArgs
import proofs.«171571_j44796508897300_1_alg».proof.Proof.KiValue
import proofs.«171571_j44796508897300_1_alg».proof.Proof.KiResult
import proofs.«171571_j44796508897300_1_alg».proof.Proof.RefLoss
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Frame.frame (F := Bits) m ρ

/-- So does the kernel read on the extended reals. -/
theorem frame_ki : Cert.frame_KernelIdeal := fun m ρ _ => Cert.KernelIdeal.Frame.frame (F := Ideal) m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end at the loss of the arguments: the kernel's by its result array being the array of the seven row sums, the
    reference's by its operations read one at a time; the arguments agree. -/
theorem algebraic : Cert.algebraic_KernelIdeal_ReferenceIdeal := by
  intro m ρ m' ρ' _ hagree
  refine ⟨fun c => Cert.Loss.loss Cert.KernelIdeal.HostValue.shapeFacts
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Frame.run_result (F := Ideal) m ρ)
    exact Cert.KernelIdeal.Frame.W3_loss m ρ c (Cert.KernelIdeal.Frame.result_eq _ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v93_eq, Cert.ReferenceIdeal.RefValue.ref_loss, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
